-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S120000x64 : Shape := ⟨2, ![120000, 64]⟩
abbrev S3x64x64 : Shape := ⟨3, ![3, 64, 64]⟩
abbrev S3x64 : Shape := ⟨2, ![3, 64]⟩
abbrev S_ : Shape := ⟨0, ![]⟩

class Facts : Prop where
  bcast_S_S120000x64 : S_.BroadcastsInDim S120000x64 (![] : Fin 0 → Fin S120000x64.rank)
  reducesTo_S120000x64_S_d0_1 : S120000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : IVec S2x1000000 32) (main_arg1 : FVec F S120000x64 .f32) (main_arg2 : FVec F S3x64x64 .f32) (main_arg3 : FVec F S3x64 .f32) (main_arg4 : FVec F S3x64x64 .f32) (main_arg5 : FVec F S3x64 .f32) : IVec S_ 1 :=
  let main_v0 : FVec F S120000x64 .f32 := Host.absf main_arg1
  let main_cst : FVec F S_ .f32 := constant S_ .f32 0x7F800000#32
  let main_v1 : FVec F S120000x64 .f32 := broadcastInDim S120000x64 ![] bcast_S_S120000x64 main_cst
  let main_v2 : IVec S120000x64 1 := cmpf .olt main_v0 main_v1
  let main_c : IVec S_ 1 := constantI S_ 1 1#1
  let main_v3 : IVec S_ 1 := (fun x v => Host.reduce IntOp.andi x v reducesTo_S120000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_v13 main_v16
-- ==== Kernel.lean ====
abbrev S2x1000000 : Shape := ⟨2, ![2, 1000000]⟩
abbrev S120000x64 : Shape := ⟨2, ![120000, 64]⟩
abbrev S3x64x64 : Shape := ⟨3, ![3, 64, 64]⟩
abbrev S3x64 : Shape := ⟨2, ![3, 64]⟩
abbrev S1x1000000 : Shape := ⟨2, ![1, 1000000]⟩
abbrev S1000000 : Shape := ⟨1, ![1000000]⟩
abbrev S_ : Shape := ⟨0, ![]⟩
abbrev S120000 : Shape := ⟨1, ![120000]⟩
abbrev S1000000x1 : Shape := ⟨2, ![1000000, 1]⟩
abbrev S1000000x64 : Shape := ⟨2, ![1000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S10000x1 : Shape := ⟨2, ![10000, 1]⟩
abbrev S12000x64 : Shape := ⟨2, ![12000, 64]⟩
abbrev S120000x256 : Shape := ⟨2, ![120000, 256]⟩

abbrev nBuf : Space → Nat
  | .hbm => 156
  | .vmem => 48
  | .smem => 0
  | _ => 0

abbrev hbmTy0_0 (i : Nat) : BufTy := match i % 128 with
  | 0 => ⟨S2x1000000, .i32⟩
  | 1 => ⟨S120000x64, .f32⟩
  | 2 => ⟨S3x64x64, .f32⟩
  | 3 => ⟨S3x64, .f32⟩
  | 4 => ⟨S3x64x64, .f32⟩
  | 5 => ⟨S3x64, .f32⟩
  | 6 => ⟨S1x1000000, .i32⟩
  | 7 => ⟨S1000000, .i32⟩
  | 8 => ⟨S1x1000000, .i32⟩
  | 9 => ⟨S1000000, .i32⟩
  | 10 => ⟨S_, .f32⟩
  | 11 => ⟨S1000000, .f32⟩
  | 12 => ⟨S_, .f32⟩
  | 13 => ⟨S120000, .f32⟩
  | 14 => ⟨S1000000x1, .i32⟩
  | 15 => ⟨S120000, .f32⟩
  | 16 => ⟨S_, .f32⟩
  | 17 => ⟨S120000, .f32⟩
  | 18 => ⟨S120000, .i1⟩
  | 19 => ⟨S_, .f32⟩
  | 20 => ⟨S120000, .f32⟩
  | 21 => ⟨S120000, .f32⟩
  | 22 => ⟨S120000, .f32⟩
  | 23 => ⟨S_, .f32⟩
  | 24 => ⟨S_, .f32⟩
  | 25 => ⟨S120000, .f32⟩
  | 26 => ⟨S120000, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000, .f32⟩
  | 45 => ⟨S1000000, .f32⟩
  | 46 => ⟨S1000000x1, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x64, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S1x64x64, .f32⟩
  | 66 => ⟨S64x64, .f32⟩
  | 67 => ⟨S64x64, .f32⟩
  | 68 => ⟨S1x64x64, .f32⟩
  | 69 => ⟨S64x64, .f32⟩
  | 70 => ⟨S64x64, .f32⟩
  | 71 => ⟨S1x64, .f32⟩
  | 72 => ⟨S64, .f32⟩
  | 73 => ⟨S1x64, .f32⟩
  | 74 => ⟨S1x64, .f32⟩
  | 75 => ⟨S64, .f32⟩
  | 76 => ⟨S1x64, .f32⟩
  | 77 => ⟨S1000000x64, .f32⟩
  | 78 => ⟨S_, .f32⟩
  | 79 => ⟨S120000x64, .f32⟩
  | 80 => ⟨S1000000x1, .i32⟩
  | 81 => ⟨S120000x64, .f32⟩
  | 82 => ⟨S120000x64, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x64, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x64, .f32⟩
  | 101 => ⟨S1x64x64, .f32⟩
  | 102 => ⟨S64x64, .f32⟩
  | 103 => ⟨S64x64, .f32⟩
  | 104 => ⟨S1x64x64, .f32⟩
  | 105 => ⟨S64x64, .f32⟩
  | 106 => ⟨S64x64, .f32⟩
  | 107 => ⟨S1x64, .f32⟩
  | 108 => ⟨S64, .f32⟩
  | 109 => ⟨S1x64, .f32⟩
  | 110 => ⟨S1x64, .f32⟩
  | 111 => ⟨S64, .f32⟩
  | 112 => ⟨S1x64, .f32⟩
  | 113 => ⟨S1000000x64, .f32⟩
  | 114 => ⟨S_, .f32⟩
  | 115 => ⟨S120000x64, .f32⟩
  | 116 => ⟨S1000000x1, .i32⟩
  | 117 => ⟨S120000x64, .f32⟩
  | 118 => ⟨S120000x64, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x64, .f32⟩
  | _ => ⟨S2x1000000, .i32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x64, .f32⟩
  | 9 => ⟨S1x64x64, .f32⟩
  | 10 => ⟨S64x64, .f32⟩
  | 11 => ⟨S64x64, .f32⟩
  | 12 => ⟨S1x64x64, .f32⟩
  | 13 => ⟨S64x64, .f32⟩
  | 14 => ⟨S64x64, .f32⟩
  | 15 => ⟨S1x64, .f32⟩
  | 16 => ⟨S64, .f32⟩
  | 17 => ⟨S1x64, .f32⟩
  | 18 => ⟨S1x64, .f32⟩
  | 19 => ⟨S64, .f32⟩
  | 20 => ⟨S1x64, .f32⟩
  | 21 => ⟨S1000000x64, .f32⟩
  | 22 => ⟨S_, .f32⟩
  | 23 => ⟨S120000x64, .f32⟩
  | 24 => ⟨S1000000x1, .i32⟩
  | 25 => ⟨S120000x64, .f32⟩
  | 26 => ⟨S120000x64, .f32⟩
  | 27 => ⟨S120000x256, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S12000x64, .f32⟩
  | .local _ .vmem, ⟨13, _⟩ => ⟨S12000x64, .f32⟩
  | .local _ .vmem, ⟨14, _⟩ => ⟨S12000x64, .f32⟩
  | .local _ .vmem, ⟨15, _⟩ => ⟨S12000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .f32⟩
  | .local _ .vmem, ⟨21, _⟩ => ⟨S10000x1, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S12000x64, .f32⟩
  | .local _ .vmem, ⟨29, _⟩ => ⟨S12000x64, .f32⟩
  | .local _ .vmem, ⟨30, _⟩ => ⟨S12000x64, .f32⟩
  | .local _ .vmem, ⟨31, _⟩ => ⟨S12000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x1, .f32⟩
  | .local _ .vmem, ⟨37, _⟩ => ⟨S10000x1, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S12000x64, .f32⟩
  | .local _ .vmem, ⟨45, _⟩ => ⟨S12000x64, .f32⟩
  | .local _ .vmem, ⟨46, _⟩ => ⟨S12000x64, .f32⟩
  | .local _ .vmem, ⟨47, _⟩ => ⟨S12000x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_17 : Ref sig .tc := ⟨.hbm, 119, rfl⟩
abbrev main_v92 : Ref sig .tc := ⟨.hbm, 120, rfl⟩
abbrev main_v93 : Ref sig .tc := ⟨.hbm, 121, rfl⟩
abbrev main_c_18 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_19 : Ref sig .tc := ⟨.hbm, 128, rfl⟩
abbrev main_v99 : Ref sig .tc := ⟨.hbm, 129, rfl⟩
abbrev main_v100 : Ref sig .tc := ⟨.hbm, 130, rfl⟩
abbrev main_c_20 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_21 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem1_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S12000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S12000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S120000 : S_.BroadcastsInDim S120000 (![] : Fin 0 → Fin S120000.rank)
  bcast_S1000000_S1000000x1_0 : S1000000.BroadcastsInDim S1000000x1 (![0] : Fin 1 → Fin S1000000x1.rank)
  shapeCasts_S1000000_S1000000x1 : S1000000.ShapeCasts S1000000x1
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  broadcasts_S10000x1_S10000x64 : S10000x1.Broadcasts S10000x64
  bcast_S_S120000x64 : S_.BroadcastsInDim S120000x64 (![] : Fin 0 → Fin S120000x64.rank)
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S120000x64_S120000x64_S120000x64_S120000x64_S120000x256_d1 : Shape.Concatenates [S120000x64, S120000x64, S120000x64, S120000x64] S120000x256 1
  scatter_S120000_S1000000x1_S1000000_n_0_0_1_wf : ScatterDims.WF S120000 S1000000x1 S1000000 [] [0] [0] 1
  gather_S120000_S1000000x1_S1000000_n_0_n_n_0_1_1_wf : GatherDims.WF S120000 S1000000x1 S1000000 [] [0] [] [0] [] 1 ![1]
  gather_S120000x64_S1000000x1_S1000000x64_1_0_n_n_0_1_164_wf : GatherDims.WF S120000x64 S1000000x1 S1000000x64 [1] [0] [] [0] [] 1 ![1, 64]
  dot_S10000x64_S64x64_S10000x64_1_0_0_1_n_n_wf : DotDims.WF S10000x64 S64x64 S10000x64 [1] [0] [0] [1] [] []
  scatter_S120000x64_S1000000x1_S1000000x64_1_0_0_1_wf : ScatterDims.WF S120000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S1000000x1.size a
  hwx0_2 : ∀ i : grid0.Coords, EltTy.bits .f32 = 32 ∨ (Rect.block (s := S1000000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S1000000x64.size a
  hwx0_7 : ∀ i : grid0.Coords, EltTy.bits .f32 = 32 ∨ (Rect.block (s := S1000000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x64.size a ≤ S120000x64.size a
  hwx1_0 : ∀ i : grid1.Coords, EltTy.bits .f32 = 32 ∨ (Rect.block (s := S120000x64) S12000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x64.size a ≤ S120000x64.size a
  hwx1_1 : ∀ i : grid1.Coords, EltTy.bits .f32 = 32 ∨ (Rect.block (s := S120000x64) S12000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1000000x64.size a
  hwx2_0 : ∀ i : grid2.Coords, EltTy.bits .f32 = 32 ∨ (Rect.block (s := S1000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1000000x64.size a
  hwx2_1 : ∀ i : grid2.Coords, EltTy.bits .f32 = 32 ∨ (Rect.block (s := S1000000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S1000000x1.size a
  hwx2_2 : ∀ i : grid2.Coords, EltTy.bits .f32 = 32 ∨ (Rect.block (s := S1000000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S1000000x64.size a
  hwx2_7 : ∀ i : grid2.Coords, EltTy.bits .f32 = 32 ∨ (Rect.block (s := S1000000x64) S10000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12000x64.size a ≤ S120000x64.size a
  hwx3_0 : ∀ i : grid3.Coords, EltTy.bits .f32 = 32 ∨ (Rect.block (s := S120000x64) S12000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S12000x64.size a ≤ S120000x64.size a
  hwx3_1 : ∀ i : grid3.Coords, EltTy.bits .f32 = 32 ∨ (Rect.block (s := S120000x64) S12000x64.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1000000x64.size a
  hwx4_0 : ∀ i : grid4.Coords, EltTy.bits .f32 = 32 ∨ (Rect.block (s := S1000000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S1000000x64.size a
  hwx4_1 : ∀ i : grid4.Coords, EltTy.bits .f32 = 32 ∨ (Rect.block (s := S1000000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S1000000x1.size a
  hwx4_2 : ∀ i : grid4.Coords, EltTy.bits .f32 = 32 ∨ (Rect.block (s := S1000000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x64.size a ≤ S1000000x64.size a
  hwx4_7 : ∀ i : grid4.Coords, EltTy.bits .f32 = 32 ∨ (Rect.block (s := S1000000x64) S10000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12000x64.size a ≤ S120000x64.size a
  hwx5_0 : ∀ i : grid5.Coords, EltTy.bits .f32 = 32 ∨ (Rect.block (s := S120000x64) S12000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S12000x64.size a ≤ S120000x64.size a
  hwx5_1 : ∀ i : grid5.Coords, EltTy.bits .f32 = 32 ∨ (Rect.block (s := S120000x64) S12000x64.size (cc5_transform_1 i) (hinb5_1 i)).WholeWords (EltTy.packing .f32)

variable [Facts₀]

def scatter_S120000_S1000000x1_S1000000_n_0_0_1 : ScatterDims S120000 S1000000x1 S1000000 where
  updateWindowDims := []
  insertedWindowDims := [0]
  scatterDimsToOperandDims := [0]
  indexVectorDim := 1
  wf := scatter_S120000_S1000000x1_S1000000_n_0_0_1_wf
def gather_S120000_S1000000x1_S1000000_n_0_n_n_0_1_1 : GatherDims S120000 S1000000x1 S1000000 where
  offsetDims := []
  collapsedSliceDims := [0]
  operandBatchingDims := []
  startIndicesBatchingDims := []
  startIndexMap := [0]
  indexVectorDim := 1
  sliceSizes := ![1]
  wf := gather_S120000_S1000000x1_S1000000_n_0_n_n_0_1_1_wf
def gather_S120000x64_S1000000x1_S1000000x64_1_0_n_n_0_1_164 : GatherDims S120000x64 S1000000x1 S1000000x64 where
  offsetDims := [1]
  collapsedSliceDims := [0]
  operandBatchingDims := []
  startIndicesBatchingDims := []
  startIndexMap := [0]
  indexVectorDim := 1
  sliceSizes := ![1, 64]
  wf := gather_S120000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S120000x64_S1000000x1_S1000000x64_1_0_0_1 : ScatterDims S120000x64 S1000000x1 S1000000x64 where
  updateWindowDims := [1]
  insertedWindowDims := [0]
  scatterDimsToOperandDims := [0]
  indexVectorDim := 1
  wf := scatter_S120000x64_S1000000x1_S1000000x64_1_0_0_1_wf

abbrev win0_0 : Pipeline.Window sig grid0 :=
  Pipeline.Window.ofSpec (Memref.whole main_v36) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v52) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v56) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v59) S12000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S12000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v67) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v77) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v87) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v90) S12000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S12000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v98) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v108) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v114) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v117) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v118) S10000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v121) S12000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v122) S12000x64.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

class Facts : Prop extends Facts₀ where

variable [Facts]
-- ==== ReferenceIdeal.lean ====
abbrev S2x1000000 : Shape := ⟨2, ![2, 1000000]⟩
abbrev S120000x64 : Shape := ⟨2, ![120000, 64]⟩
abbrev S3x64x64 : Shape := ⟨3, ![3, 64, 64]⟩
abbrev S3x64 : Shape := ⟨2, ![3, 64]⟩
abbrev S1x1000000 : Shape := ⟨2, ![1, 1000000]⟩
abbrev S1000000 : Shape := ⟨1, ![1000000]⟩
abbrev S_ : Shape := ⟨0, ![]⟩
abbrev S120000 : Shape := ⟨1, ![120000]⟩
abbrev S1000000x1 : Shape := ⟨2, ![1000000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1000000x64 : Shape := ⟨2, ![1000000, 64]⟩
abbrev S120000x256 : Shape := ⟨2, ![120000, 256]⟩

abbrev nBuf : Space → Nat
  | .hbm => 203
  | .vmem => 0
  | .smem => 0
  | _ => 0

abbrev hbmTy0_0 (i : Nat) : BufTy := match i % 128 with
  | 0 => ⟨S2x1000000, .i32⟩
  | 1 => ⟨S120000x64, .f32⟩
  | 2 => ⟨S3x64x64, .f32⟩
  | 3 => ⟨S3x64, .f32⟩
  | 4 => ⟨S3x64x64, .f32⟩
  | 5 => ⟨S3x64, .f32⟩
  | 6 => ⟨S1x1000000, .i32⟩
  | 7 => ⟨S1000000, .i32⟩
  | 8 => ⟨S1x1000000, .i32⟩
  | 9 => ⟨S1000000, .i32⟩
  | 10 => ⟨S_, .f32⟩
  | 11 => ⟨S1000000, .f32⟩
  | 12 => ⟨S_, .f32⟩
  | 13 => ⟨S120000, .f32⟩
  | 14 => ⟨S1000000x1, .i32⟩
  | 15 => ⟨S120000, .f32⟩
  | 16 => ⟨S_, .f32⟩
  | 17 => ⟨S120000, .f32⟩
  | 18 => ⟨S120000, .i1⟩
  | 19 => ⟨S_, .f32⟩
  | 20 => ⟨S120000, .f32⟩
  | 21 => ⟨S120000, .f32⟩
  | 22 => ⟨S120000, .f32⟩
  | 23 => ⟨S_, .f32⟩
  | 24 => ⟨S_, .f32⟩
  | 25 => ⟨S120000, .f32⟩
  | 26 => ⟨S120000, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000, .f32⟩
  | 45 => ⟨S1000000, .f32⟩
  | 46 => ⟨S1x64x64, .f32⟩
  | 47 => ⟨S64x64, .f32⟩
  | 48 => ⟨S1x64, .f32⟩
  | 49 => ⟨S64, .f32⟩
  | 50 => ⟨S1x64x64, .f32⟩
  | 51 => ⟨S64x64, .f32⟩
  | 52 => ⟨S1x64, .f32⟩
  | 53 => ⟨S64, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x64, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x64, .f32⟩
  | 72 => ⟨S1000000x1, .f32⟩
  | 73 => ⟨S64x64, .f32⟩
  | 74 => ⟨S1000000x64, .f32⟩
  | 75 => ⟨S1x64, .f32⟩
  | 76 => ⟨S1000000x64, .f32⟩
  | 77 => ⟨S1000000x64, .f32⟩
  | 78 => ⟨S1000000x64, .f32⟩
  | 79 => ⟨S64x64, .f32⟩
  | 80 => ⟨S1000000x64, .f32⟩
  | 81 => ⟨S1000000x64, .f32⟩
  | 82 => ⟨S1x64, .f32⟩
  | 83 => ⟨S1000000x64, .f32⟩
  | 84 => ⟨S1000000x64, .f32⟩
  | 85 => ⟨S1000000x64, .f32⟩
  | 86 => ⟨S1000000x64, .f32⟩
  | 87 => ⟨S_, .f32⟩
  | 88 => ⟨S120000x64, .f32⟩
  | 89 => ⟨S1000000x1, .i32⟩
  | 90 => ⟨S120000x64, .f32⟩
  | 91 => ⟨S_, .f32⟩
  | 92 => ⟨S120000x64, .f32⟩
  | 93 => ⟨S120000x64, .i1⟩
  | 94 => ⟨S_, .f32⟩
  | 95 => ⟨S120000x64, .f32⟩
  | 96 => ⟨S120000x64, .f32⟩
  | 97 => ⟨S120000x64, .f32⟩
  | 98 => ⟨S1x64x64, .f32⟩
  | 99 => ⟨S64x64, .f32⟩
  | 100 => ⟨S1x64, .f32⟩
  | 101 => ⟨S64, .f32⟩
  | 102 => ⟨S1x64x64, .f32⟩
  | 103 => ⟨S64x64, .f32⟩
  | 104 => ⟨S1x64, .f32⟩
  | 105 => ⟨S64, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000x64, .f32⟩
  | 124 => ⟨S1000000x1, .f32⟩
  | 125 => ⟨S64x64, .f32⟩
  | 126 => ⟨S1000000x64, .f32⟩
  | 127 => ⟨S1x64, .f32⟩
  | _ => ⟨S2x1000000, .i32⟩

abbrev hbmTy0_1 (i : Nat) : BufTy := match i % 128 with
  | 0 => ⟨S1000000x64, .f32⟩
  | 1 => ⟨S1000000x64, .f32⟩
  | 2 => ⟨S1000000x64, .f32⟩
  | 3 => ⟨S64x64, .f32⟩
  | 4 => ⟨S1000000x64, .f32⟩
  | 5 => ⟨S1000000x64, .f32⟩
  | 6 => ⟨S1x64, .f32⟩
  | 7 => ⟨S1000000x64, .f32⟩
  | 8 => ⟨S1000000x64, .f32⟩
  | 9 => ⟨S1000000x64, .f32⟩
  | 10 => ⟨S1000000x64, .f32⟩
  | 11 => ⟨S_, .f32⟩
  | 12 => ⟨S120000x64, .f32⟩
  | 13 => ⟨S1000000x1, .i32⟩
  | 14 => ⟨S120000x64, .f32⟩
  | 15 => ⟨S_, .f32⟩
  | 16 => ⟨S120000x64, .f32⟩
  | 17 => ⟨S120000x64, .i1⟩
  | 18 => ⟨S_, .f32⟩
  | 19 => ⟨S120000x64, .f32⟩
  | 20 => ⟨S120000x64, .f32⟩
  | 21 => ⟨S120000x64, .f32⟩
  | 22 => ⟨S1x64x64, .f32⟩
  | 23 => ⟨S64x64, .f32⟩
  | 24 => ⟨S1x64, .f32⟩
  | 25 => ⟨S64, .f32⟩
  | 26 => ⟨S1x64x64, .f32⟩
  | 27 => ⟨S64x64, .f32⟩
  | 28 => ⟨S1x64, .f32⟩
  | 29 => ⟨S64, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x64, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x64, .f32⟩
  | 48 => ⟨S1000000x1, .f32⟩
  | 49 => ⟨S64x64, .f32⟩
  | 50 => ⟨S1000000x64, .f32⟩
  | 51 => ⟨S1x64, .f32⟩
  | 52 => ⟨S1000000x64, .f32⟩
  | 53 => ⟨S1000000x64, .f32⟩
  | 54 => ⟨S1000000x64, .f32⟩
  | 55 => ⟨S64x64, .f32⟩
  | 56 => ⟨S1000000x64, .f32⟩
  | 57 => ⟨S1000000x64, .f32⟩
  | 58 => ⟨S1x64, .f32⟩
  | 59 => ⟨S1000000x64, .f32⟩
  | 60 => ⟨S1000000x64, .f32⟩
  | 61 => ⟨S1000000x64, .f32⟩
  | 62 => ⟨S1000000x64, .f32⟩
  | 63 => ⟨S_, .f32⟩
  | 64 => ⟨S120000x64, .f32⟩
  | 65 => ⟨S1000000x1, .i32⟩
  | 66 => ⟨S120000x64, .f32⟩
  | 67 => ⟨S_, .f32⟩
  | 68 => ⟨S120000x64, .f32⟩
  | 69 => ⟨S120000x64, .i1⟩
  | 70 => ⟨S_, .f32⟩
  | 71 => ⟨S120000x64, .f32⟩
  | 72 => ⟨S120000x64, .f32⟩
  | 73 => ⟨S120000x64, .f32⟩
  | 74 => ⟨S120000x256, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_14 : Ref sig .tc := ⟨.hbm, 106, rfl⟩
abbrev main_v82 : Ref sig .tc := ⟨.hbm, 107, rfl⟩
abbrev main_v83 : Ref sig .tc := ⟨.hbm, 108, rfl⟩
abbrev main_c_15 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_c_16 : Ref sig .tc := ⟨.hbm, 115, rfl⟩
abbrev main_v89 : Ref sig .tc := ⟨.hbm, 116, rfl⟩
abbrev main_v90 : Ref sig .tc := ⟨.hbm, 117, rfl⟩
abbrev main_c_17 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_18 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_19 : Ref sig .tc := ⟨.hbm, 143, rfl⟩
abbrev main_v114 : Ref sig .tc := ⟨.hbm, 144, rfl⟩
abbrev main_v115 : Ref sig .tc := ⟨.hbm, 145, rfl⟩
abbrev main_cst_20 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_c_21 : Ref sig .tc := ⟨.hbm, 158, rfl⟩
abbrev main_v127 : Ref sig .tc := ⟨.hbm, 159, rfl⟩
abbrev main_v128 : Ref sig .tc := ⟨.hbm, 160, rfl⟩
abbrev main_c_22 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_c_23 : Ref sig .tc := ⟨.hbm, 167, rfl⟩
abbrev main_v134 : Ref sig .tc := ⟨.hbm, 168, rfl⟩
abbrev main_v135 : Ref sig .tc := ⟨.hbm, 169, rfl⟩
abbrev main_c_24 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_25 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_26 : Ref sig .tc := ⟨.hbm, 195, rfl⟩
abbrev main_v159 : Ref sig .tc := ⟨.hbm, 196, rfl⟩
abbrev main_v160 : Ref sig .tc := ⟨.hbm, 197, rfl⟩
abbrev main_cst_27 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S120000 : S_.BroadcastsInDim S120000 (![] : Fin 0 → Fin S120000.rank)
  bcast_S1000000_S1000000x1_0 : S1000000.BroadcastsInDim S1000000x1 (![0] : Fin 1 → Fin S1000000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  transposes_S64x64_S64x64_1_0 : S64x64.Transposes [1, 0] S64x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S1000000x1_S1000000x64_0_1 : S1000000x1.BroadcastsInDim S1000000x64 (![0, 1] : Fin 2 → Fin S1000000x64.rank)
  bcast_S_S120000x64 : S_.BroadcastsInDim S120000x64 (![] : Fin 0 → Fin S120000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S120000x64_S120000x64_S120000x64_S120000x64_S120000x256_d1 : Shape.Concatenates [S120000x64, S120000x64, S120000x64, S120000x64] S120000x256 1
  scatter_S120000_S1000000x1_S1000000_n_0_0_1_wf : ScatterDims.WF S120000 S1000000x1 S1000000 [] [0] [0] 1
  gather_S120000_S1000000x1_S1000000_n_0_n_n_0_1_1_wf : GatherDims.WF S120000 S1000000x1 S1000000 [] [0] [] [0] [] 1 ![1]
  gather_S120000x64_S1000000x1_S1000000x64_1_0_n_n_0_1_164_wf : GatherDims.WF S120000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S120000x64_S1000000x1_S1000000x64_1_0_0_1_wf : ScatterDims.WF S120000x64 S1000000x1 S1000000x64 [1] [0] [0] 1

variable [Facts₀]

def scatter_S120000_S1000000x1_S1000000_n_0_0_1 : ScatterDims S120000 S1000000x1 S1000000 where
  updateWindowDims := []
  insertedWindowDims := [0]
  scatterDimsToOperandDims := [0]
  indexVectorDim := 1
  wf := scatter_S120000_S1000000x1_S1000000_n_0_0_1_wf
def gather_S120000_S1000000x1_S1000000_n_0_n_n_0_1_1 : GatherDims S120000 S1000000x1 S1000000 where
  offsetDims := []
  collapsedSliceDims := [0]
  operandBatchingDims := []
  startIndicesBatchingDims := []
  startIndexMap := [0]
  indexVectorDim := 1
  sliceSizes := ![1]
  wf := gather_S120000_S1000000x1_S1000000_n_0_n_n_0_1_1_wf
def gather_S120000x64_S1000000x1_S1000000x64_1_0_n_n_0_1_164 : GatherDims S120000x64 S1000000x1 S1000000x64 where
  offsetDims := [1]
  collapsedSliceDims := [0]
  operandBatchingDims := []
  startIndicesBatchingDims := []
  startIndexMap := [0]
  indexVectorDim := 1
  sliceSizes := ![1, 64]
  wf := gather_S120000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S120000x64_S1000000x1_S1000000x64_1_0_0_1 : ScatterDims S120000x64 S1000000x1 S1000000x64 where
  updateWindowDims := [1]
  insertedWindowDims := [0]
  scatterDimsToOperandDims := [0]
  indexVectorDim := 1
  wf := scatter_S120000x64_S1000000x1_S1000000x64_1_0_0_1_wf

class Facts : Prop extends Facts₀ where

variable [Facts]
-- ==== Proof.BitsRegion0.lean ====
import proofs.«110276_j52862457479750_1_alg».proof.Proof.Gen.Kernel.Launch
import proofs.«110276_j52862457479750_1_alg».proof.Proof.Gen.Kernel.Skeleton
import proofs.«110276_j52862457479750_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the per-edge message on blocks of 10000 edges, at entry contents `V`

  Windows 0 and 1 are the two gathered endpoint feature blocks, window 2 the block of the normalisation column, windows
  3 to 6 the two transposed weight matrices and the two bias rows (the same block at every point), window 7 the output
  block of messages. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the
    pipeline fetched it there or kept the previous point's (the block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the
    pipeline fetched it there or kept the previous point's (the block index has then not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every grid point, whether the
    pipeline fetched it there or kept the previous point's (the block index has then not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every grid point, whether the
    pipeline fetched it there or kept the previous point's (the block index has then not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every grid point, whether the
    pipeline fetched it there or kept the previous point's (the block index has then not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the array at every grid point, whether the
    pipeline fetched it there or kept the previous point's (the block index has then not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block of the array at every grid point, whether the
    pipeline fetched it there or kept the previous point's (the block index has then not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is a whole block. -/
abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S10000x1 := Rect.unit (s := S10000x1) ![0, 0] S10000x1.size inb_S10000x1_S10000x1_0_0
abbrev r0_3 : Rect S1x64 := Rect.unit (s := S1x64) ![0, 0] S1x64.size inb_S1x64_S1x64_0_0

/-- The output block after the body: the body's one store, of the message computed from the seven input blocks, over
    the whole block. -/
def out0_7 (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) : Vec F S10000x64 .f32 :=
  View.canon [⟨r0_0, k0_pay1 (View.ld x0 r0_0) (View.ld x1 r0_0) (View.ld x3 r0_1) (View.ld x5 r0_1) (View.ld x2 r0_2) (View.ld x4 r0_3) (View.ld x6 r0_3)⟩]

/-- The one store covers the block. -/
theorem cover0_7 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 4000000 in
/-- The body on whole staging buffers, the inputs' holding `x0 … x6` and the output's anything (the body reads the
    output buffer once and discards the value), ends with the inputs' unchanged and the output's at `out0_7` of them. -/
theorem sound_kernel0 (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__message_kernel i arg1 harg1 arg2 harg2 arg3 harg3 arg4 harg4 arg5 harg5 arg6 harg6 arg7 harg7 arg8 harg8) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The region's proof data on core `c`: the arrays as found; after the body each input buffer still at its block and
    the output buffer at the message block; nothing else of the core's state is touched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
import proofs.«110276_j52862457479750_1_alg».proof.Proof.Gen.Kernel.Launch
import proofs.«110276_j52862457479750_1_alg».proof.Proof.Gen.Kernel.Skeleton
import proofs.«110276_j52862457479750_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the rectifier with slope 0.2 on the negatives, on blocks of 12000 rows, at entry contents `V` -/

/-- Window `w`'s block at grid point `t`: rows 12000·t … 12000·t + 11999 of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the
    pipeline fetched it there or kept the previous point's (the block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole block. -/
abbrev r1_0 : Rect S12000x64 := Rect.unit (s := S12000x64) ![0, 0] S12000x64.size inb_S12000x64_S12000x64_0_0

/-- The output block after the body: the body's one store, of the rectified input block, over the whole block. -/
def out1_1 (x0 : Vec F S12000x64 .f32) : Vec F S12000x64 .f32 :=
  View.canon [⟨r1_0, k1_pay1 (View.ld x0 r1_0)⟩]

/-- The one store covers the block. -/
theorem cover1_1 (p0 : Vec F S12000x64 .f32) (y : S12000x64.Idx) :
    ∃ pc ∈ ([⟨r1_0, p0⟩] : List (View.Piece (Elt F) S12000x64 .f32)), y ∈ pc.1.set :=
  View.cover_of_tiled [⟨r1_0, p0⟩] S12000x64.size (by rfl) y

set_option maxHeartbeats 1000000 in
/-- The body on whole staging buffers, the input's holding `x0` and the output's anything (the body reads the output
    buffer once and discards the value), ends with the input's unchanged and the output's at `out1_1 x0`. -/
theorem sound_kernel1 (c : Dev nD) (E : Set ℕ) (i : grid1.Coords) (arg1 : Memref sig .tc .vmem S12000x64 .f32) (harg1 : arg1.IsWhole) (arg2 : Memref sig .tc .vmem S12000x64 .f32) (harg2 : arg2.IsWhole)
    (x0 : Vec F S12000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__leaky_kernel i arg1 harg1 arg2 harg2) K := by
  simp only [cc1__leaky_kernel_eq_skeleton]; unfold cc1__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The region's proof data on core `c`: the arrays as found; after the body the input buffer still at its block and the
    output buffer at the rectified block; nothing else of the core's state is touched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
import proofs.«110276_j52862457479750_1_alg».proof.Proof.Gen.Kernel.Launch
import proofs.«110276_j52862457479750_1_alg».proof.Proof.Gen.Kernel.Skeleton
import proofs.«110276_j52862457479750_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the per-edge message on blocks of 10000 edges, at entry contents `V`

  Windows 0 and 1 are the two gathered endpoint feature blocks, window 2 the block of the normalisation column, windows
  3 to 6 the two transposed weight matrices and the two bias rows (the same block at every point), window 7 the output
  block of messages. -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every grid point, whether the
    pipeline fetched it there or kept the previous point's (the block index has then not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the array at every grid point, whether the
    pipeline fetched it there or kept the previous point's (the block index has then not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the array at every grid point, whether the
    pipeline fetched it there or kept the previous point's (the block index has then not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the array at every grid point, whether the
    pipeline fetched it there or kept the previous point's (the block index has then not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the array at every grid point, whether the
    pipeline fetched it there or kept the previous point's (the block index has then not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the array at every grid point, whether the
    pipeline fetched it there or kept the previous point's (the block index has then not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block of the array at every grid point, whether the
    pipeline fetched it there or kept the previous point's (the block index has then not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each is a whole block. -/
abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S10000x1 := Rect.unit (s := S10000x1) ![0, 0] S10000x1.size inb_S10000x1_S10000x1_0_0
abbrev r2_3 : Rect S1x64 := Rect.unit (s := S1x64) ![0, 0] S1x64.size inb_S1x64_S1x64_0_0

/-- The output block after the body: the body's one store, of the message computed from the seven input blocks, over
    the whole block. -/
def out2_7 (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) : Vec F S10000x64 .f32 :=
  View.canon [⟨r2_0, k2_pay1 (View.ld x0 r2_0) (View.ld x1 r2_0) (View.ld x3 r2_1) (View.ld x5 r2_1) (View.ld x2 r2_2) (View.ld x4 r2_3) (View.ld x6 r2_3)⟩]

/-- The one store covers the block. -/
theorem cover2_7 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 4000000 in
/-- The body on whole staging buffers, the inputs' holding `x0 … x6` and the output's anything (the body reads the
    output buffer once and discards the value), ends with the inputs' unchanged and the output's at `out2_7` of them. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__message_kernel i arg1 harg1 arg2 harg2 arg3 harg3 arg4 harg4 arg5 harg5 arg6 harg6 arg7 harg7 arg8 harg8) K := by
  simp only [cc2__message_kernel_eq_skeleton]; unfold cc2__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The region's proof data on core `c`: the arrays as found; after the body each input buffer still at its block and
    the output buffer at the message block; nothing else of the core's state is touched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRegion3.lean ====
import proofs.«110276_j52862457479750_1_alg».proof.Proof.Gen.Kernel.Launch
import proofs.«110276_j52862457479750_1_alg».proof.Proof.Gen.Kernel.Skeleton
import proofs.«110276_j52862457479750_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the rectifier with slope 0.2 on the negatives, on blocks of 12000 rows, at entry contents `V` -/

/-- Window `w`'s block at grid point `t`: rows 12000·t … 12000·t + 11999 of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the array at every grid point, whether the
    pipeline fetched it there or kept the previous point's (the block index has then not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body reads and writes: the whole block. -/
abbrev r3_0 : Rect S12000x64 := Rect.unit (s := S12000x64) ![0, 0] S12000x64.size inb_S12000x64_S12000x64_0_0

/-- The output block after the body: the body's one store, of the rectified input block, over the whole block. -/
def out3_1 (x0 : Vec F S12000x64 .f32) : Vec F S12000x64 .f32 :=
  View.canon [⟨r3_0, k3_pay1 (View.ld x0 r3_0)⟩]

/-- The one store covers the block. -/
theorem cover3_1 (p0 : Vec F S12000x64 .f32) (y : S12000x64.Idx) :
    ∃ pc ∈ ([⟨r3_0, p0⟩] : List (View.Piece (Elt F) S12000x64 .f32)), y ∈ pc.1.set :=
  View.cover_of_tiled [⟨r3_0, p0⟩] S12000x64.size (by rfl) y

set_option maxHeartbeats 1000000 in
/-- The body on whole staging buffers, the input's holding `x0` and the output's anything (the body reads the output
    buffer once and discards the value), ends with the input's unchanged and the output's at `out3_1 x0`. -/
theorem sound_kernel3 (c : Dev nD) (E : Set ℕ) (i : grid3.Coords) (arg1 : Memref sig .tc .vmem S12000x64 .f32) (harg1 : arg1.IsWhole) (arg2 : Memref sig .tc .vmem S12000x64 .f32) (harg2 : arg2.IsWhole)
    (x0 : Vec F S12000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__leaky_kernel i arg1 harg1 arg2 harg2) K := by
  simp only [cc3__leaky_kernel_eq_skeleton]; unfold cc3__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The region's proof data on core `c`: the arrays as found; after the body the input buffer still at its block and the
    output buffer at the rectified block; nothing else of the core's state is touched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every grid point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRegion4.lean ====
import proofs.«110276_j52862457479750_1_alg».proof.Proof.Gen.Kernel.Launch
import proofs.«110276_j52862457479750_1_alg».proof.Proof.Gen.Kernel.Skeleton
import proofs.«110276_j52862457479750_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the per-edge message on blocks of 10000 edges, at entry contents `V`

  Windows 0 and 1 are the two gathered endpoint feature blocks, window 2 the block of the normalisation column, windows
  3 to 6 the two transposed weight matrices and the two bias rows (the same block at every point), window 7 the output
  block of messages. -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block of the array at every grid point, whether the
    pipeline fetched it there or kept the previous point's (the block index has then not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block of the array at every grid point, whether the
    pipeline fetched it there or kept the previous point's (the block index has then not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block of the array at every grid point, whether the
    pipeline fetched it there or kept the previous point's (the block index has then not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block of the array at every grid point, whether the
    pipeline fetched it there or kept the previous point's (the block index has then not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block of the array at every grid point, whether the
    pipeline fetched it there or kept the previous point's (the block index has then not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block of the array at every grid point, whether the
    pipeline fetched it there or kept the previous point's (the block index has then not moved). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block of the array at every grid point, whether the
    pipeline fetched it there or kept the previous point's (the block index has then not moved). -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body reads and writes: each is a whole block. -/
abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S10000x1 := Rect.unit (s := S10000x1) ![0, 0] S10000x1.size inb_S10000x1_S10000x1_0_0
abbrev r4_3 : Rect S1x64 := Rect.unit (s := S1x64) ![0, 0] S1x64.size inb_S1x64_S1x64_0_0

/-- The output block after the body: the body's one store, of the message computed from the seven input blocks, over
    the whole block. -/
def out4_7 (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) : Vec F S10000x64 .f32 :=
  View.canon [⟨r4_0, k4_pay1 (View.ld x0 r4_0) (View.ld x1 r4_0) (View.ld x3 r4_1) (View.ld x5 r4_1) (View.ld x2 r4_2) (View.ld x4 r4_3) (View.ld x6 r4_3)⟩]

/-- The one store covers the block. -/
theorem cover4_7 (p0 : Vec F S10000x64 .f32) (y : S10000x64.Idx) :
    ∃ pc ∈ ([⟨r4_0, p0⟩] : List (View.Piece (Elt F) S10000x64 .f32)), y ∈ pc.1.set :=
  View.cover_of_tiled [⟨r4_0, p0⟩] S10000x64.size (by rfl) y

set_option maxHeartbeats 4000000 in
/-- The body on whole staging buffers, the inputs' holding `x0 … x6` and the output's anything (the body reads the
    output buffer once and discards the value), ends with the inputs' unchanged and the output's at `out4_7` of them. -/
theorem sound_kernel4 (c : Dev nD) (E : Set ℕ) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__message_kernel i arg1 harg1 arg2 harg2 arg3 harg3 arg4 harg4 arg5 harg5 arg6 harg6 arg7 harg7 arg8 harg8) K := by
  simp only [cc4__message_kernel_eq_skeleton]; unfold cc4__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-- The region's proof data on core `c`: the arrays as found; after the body each input buffer still at its block and
    the output buffer at the message block; nothing else of the core's state is touched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every grid point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BitsRegion5.lean ====
import proofs.«110276_j52862457479750_1_alg».proof.Proof.Gen.Kernel.Launch
import proofs.«110276_j52862457479750_1_alg».proof.Proof.Gen.Kernel.Skeleton
import proofs.«110276_j52862457479750_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the rectifier with slope 0.2 on the negatives, on blocks of 12000 rows, at entry contents `V` -/

/-- Window `w`'s block at grid point `t`: rows 12000·t … 12000·t + 11999 of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block of the array at every grid point, whether the
    pipeline fetched it there or kept the previous point's (the block index has then not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The one rectangle the body reads and writes: the whole block. -/
abbrev r5_0 : Rect S12000x64 := Rect.unit (s := S12000x64) ![0, 0] S12000x64.size inb_S12000x64_S12000x64_0_0

/-- The output block after the body: the body's one store, of the rectified input block, over the whole block. -/
def out5_1 (x0 : Vec F S12000x64 .f32) : Vec F S12000x64 .f32 :=
  View.canon [⟨r5_0, k5_pay1 (View.ld x0 r5_0)⟩]

/-- The one store covers the block. -/
theorem cover5_1 (p0 : Vec F S12000x64 .f32) (y : S12000x64.Idx) :
    ∃ pc ∈ ([⟨r5_0, p0⟩] : List (View.Piece (Elt F) S12000x64 .f32)), y ∈ pc.1.set :=
  View.cover_of_tiled [⟨r5_0, p0⟩] S12000x64.size (by rfl) y

set_option maxHeartbeats 1000000 in
/-- The body on whole staging buffers, the input's holding `x0` and the output's anything (the body reads the output
    buffer once and discards the value), ends with the input's unchanged and the output's at `out5_1 x0`. -/
theorem sound_kernel5 (c : Dev nD) (E : Set ℕ) (i : grid5.Coords) (arg1 : Memref sig .tc .vmem S12000x64 .f32) (harg1 : arg1.IsWhole) (arg2 : Memref sig .tc .vmem S12000x64 .f32) (harg2 : arg2.IsWhole)
    (x0 : Vec F S12000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__leaky_kernel i arg1 harg1 arg2 harg2) K := by
  simp only [cc5__leaky_kernel_eq_skeleton]; unfold cc5__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The region's proof data on core `c`: the arrays as found; after the body the input buffer still at its block and the
    output buffer at the rectified block; nothing else of the core's state is touched. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ _ _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every grid point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.BitsRun.lean ====
import proofs.«110276_j52862457479750_1_alg».proof.Proof.Gen.Kernel.Launch
import proofs.«110276_j52862457479750_1_alg».proof.Proof.Gen.Kernel.Skeleton
import proofs.«110276_j52862457479750_1_alg».proof.Proof.Gen.Kernel.Points
import proofs.«110276_j52862457479750_1_alg».proof.Proof.BitsRegion0
import proofs.«110276_j52862457479750_1_alg».proof.Proof.BitsRegion1
import proofs.«110276_j52862457479750_1_alg».proof.Proof.BitsRegion2
import proofs.«110276_j52862457479750_1_alg».proof.Proof.BitsRegion3
import proofs.«110276_j52862457479750_1_alg».proof.Proof.BitsRegion4
import proofs.«110276_j52862457479750_1_alg».proof.Proof.BitsRegion5
import proofs.«110276_j52862457479750_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: @main's fifteen items from the launch to the return

  Nine stretches of host operations and the six regions. `WJ` is what core `c`'s buffers hold after item J − 1: a host
  stretch rewrites the buffers its operations write, a region leaves each of its arrays at what its write-backs make of it. -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same, read at the TensorCore's references. -/
abbrev U1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
/-- The same, read at the TensorCore's references. -/
abbrev U2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
/-- The same, read at the TensorCore's references. -/
abbrev U3 : (c : Dev nD) → (b : Ref sig .tc) → Buf (Elt F) ((c : Thread nD τ).loc b) := fun c b => W3 m ρ c b
/-- At region 0's exit: its arrays at what the pipeline leaves (the inputs as entered, the output's write-backs folded),
    every other buffer as entered. -/
def W4 (c : Dev nD) : Valuation τ sig (Elt F) :=
  Pipeline.withArrays spec0 c (W3 m ρ c) fun w => (dat0 (U3 m ρ) c).arrAt w cfg0.N
theorem W4_arr (c : Dev nD) (w : Fin cfg0.W) :
    W4 m ρ c (Proc.devRef .tc (Pipeline.arrRef spec0 w)) = (dat0 (U3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev U4 : (c : Dev nD) → (b : Ref sig .tc) → Buf (Elt F) ((c : Thread nD τ).loc b) := fun c b => W4 m ρ c b
theorem hF0 (c : Dev nD) (w : Fin cfg0.W) : (dat0 (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
/-- The same, read at the TensorCore's references. -/
abbrev U5 : (c : Dev nD) → (b : Ref sig .tc) → Buf (Elt F) ((c : Thread nD τ).loc b) := fun c b => W5 m ρ c b
/-- At region 1's exit: its arrays at what the pipeline leaves (the inputs as entered, the output's write-backs folded),
    every other buffer as entered. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
/-- The same, read at the TensorCore's references. -/
abbrev U7 : (c : Dev nD) → (b : Ref sig .tc) → Buf (Elt F) ((c : Thread nD τ).loc b) := fun c b => W7 m ρ c b
/-- At region 2's exit: its arrays at what the pipeline leaves (the inputs as entered, the output's write-backs folded),
    every other buffer as entered. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)
/-- After the host stretch `hostOps3`. -/
abbrev W9 : Dev nD → Valuation τ sig (Elt F) := fun c => StableHlo.after hostOps3 (W8 m ρ c)
/-- The same, read at the TensorCore's references. -/
abbrev U9 : (c : Dev nD) → (b : Ref sig .tc) → Buf (Elt F) ((c : Thread nD τ).loc b) := fun c b => W9 m ρ c b
/-- At region 3's exit: its arrays at what the pipeline leaves (the inputs as entered, the output's write-backs folded),
    every other buffer as entered. -/
def W10 (c : Dev nD) : Valuation τ sig (Elt F) :=
  Pipeline.withArrays spec3 c (W9 m ρ c) fun w => (dat3 (U9 m ρ) c).arrAt w cfg3.N
theorem W10_arr (c : Dev nD) (w : Fin cfg3.W) :
    W10 m ρ c (Proc.devRef .tc (Pipeline.arrRef spec3 w)) = (dat3 (U9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev U10 : (c : Dev nD) → (b : Ref sig .tc) → Buf (Elt F) ((c : Thread nD τ).loc b) := fun c b => W10 m ρ c b
theorem hF3 (c : Dev nD) (w : Fin cfg3.W) : (dat3 (U9 m ρ) c).arrAt w cfg3.N = U10 m ρ c (Pipeline.arrRef spec3 w) :=
  (W10_arr m ρ c w).symm
theorem hrest3 (c : Dev nD) : ∀ b, b ∉ Finset.univ.image (Pipeline.arrRef spec3) → U10 m ρ c b = U9 m ρ c b :=
  fun b hb => W10_of_ne m ρ c b fun w e => hb (Finset.mem_image.mpr ⟨w, Finset.mem_univ _, e⟩)
/-- After the host stretch `hostOps4`. -/
abbrev W11 : Dev nD → Valuation τ sig (Elt F) := fun c => StableHlo.after hostOps4 (W10 m ρ c)
/-- The same, read at the TensorCore's references. -/
abbrev U11 : (c : Dev nD) → (b : Ref sig .tc) → Buf (Elt F) ((c : Thread nD τ).loc b) := fun c b => W11 m ρ c b
/-- At region 4's exit: its arrays at what the pipeline leaves (the inputs as entered, the output's write-backs folded),
    every other buffer as entered. -/
def W12 (c : Dev nD) : Valuation τ sig (Elt F) :=
  Pipeline.withArrays spec4 c (W11 m ρ c) fun w => (dat4 (U11 m ρ) c).arrAt w cfg4.N
theorem W12_arr (c : Dev nD) (w : Fin cfg4.W) :
    W12 m ρ c (Proc.devRef .tc (Pipeline.arrRef spec4 w)) = (dat4 (U11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev U12 : (c : Dev nD) → (b : Ref sig .tc) → Buf (Elt F) ((c : Thread nD τ).loc b) := fun c b => W12 m ρ c b
theorem hF4 (c : Dev nD) (w : Fin cfg4.W) : (dat4 (U11 m ρ) c).arrAt w cfg4.N = U12 m ρ c (Pipeline.arrRef spec4 w) :=
  (W12_arr m ρ c w).symm
theorem hrest4 (c : Dev nD) : ∀ b, b ∉ Finset.univ.image (Pipeline.arrRef spec4) → U12 m ρ c b = U11 m ρ c b :=
  fun b hb => W12_of_ne m ρ c b fun w e => hb (Finset.mem_image.mpr ⟨w, Finset.mem_univ _, e⟩)
/-- After the host stretch `hostOps5`. -/
abbrev W13 : Dev nD → Valuation τ sig (Elt F) := fun c => StableHlo.after hostOps5 (W12 m ρ c)
/-- The same, read at the TensorCore's references. -/
abbrev U13 : (c : Dev nD) → (b : Ref sig .tc) → Buf (Elt F) ((c : Thread nD τ).loc b) := fun c b => W13 m ρ c b
/-- At region 5's exit: its arrays at what the pipeline leaves (the inputs as entered, the output's write-backs folded),
    every other buffer as entered. -/
def W14 (c : Dev nD) : Valuation τ sig (Elt F) :=
  Pipeline.withArrays spec5 c (W13 m ρ c) fun w => (dat5 (U13 m ρ) c).arrAt w cfg5.N
theorem W14_arr (c : Dev nD) (w : Fin cfg5.W) :
    W14 m ρ c (Proc.devRef .tc (Pipeline.arrRef spec5 w)) = (dat5 (U13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev U14 : (c : Dev nD) → (b : Ref sig .tc) → Buf (Elt F) ((c : Thread nD τ).loc b) := fun c b => W14 m ρ c b
theorem hF5 (c : Dev nD) (w : Fin cfg5.W) : (dat5 (U13 m ρ) c).arrAt w cfg5.N = U14 m ρ c (Pipeline.arrRef spec5 w) :=
  (W14_arr m ρ c w).symm
theorem hrest5 (c : Dev nD) : ∀ b, b ∉ Finset.univ.image (Pipeline.arrRef spec5) → U14 m ρ c b = U13 m ρ c b :=
  fun b hb => W14_of_ne m ρ c b fun w e => hb (Finset.mem_image.mpr ⟨w, Finset.mem_univ _, e⟩)
/-- After the host stretch `hostOps6`. -/
abbrev W15 : Dev nD → Valuation τ sig (Elt F) := fun c => StableHlo.after hostOps6 (W14 m ρ c)
/-- The same, read at the TensorCore's references. -/
abbrev U15 : (c : Dev nD) → (b : Ref sig .tc) → Buf (Elt F) ((c : Thread nD τ).loc b) := fun c b => W15 m ρ c b

/-! ## Every argument array ends as launched: no host operation writes one, and none is a region's array -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := StableHlo.after_of_writes_sub hostOps6 _ hostOps6_writes (by decide)
    _ = W13 m ρ c (Proc.devRef .tc main_arg0) := W14_of_ne m ρ c main_arg0 (by decide)
    _ = W12 m ρ c (Proc.devRef .tc main_arg0) := StableHlo.after_of_writes_sub hostOps5 _ hostOps5_writes (by decide)
    _ = W11 m ρ c (Proc.devRef .tc main_arg0) := W12_of_ne m ρ c main_arg0 (by decide)
    _ = W10 m ρ c (Proc.devRef .tc main_arg0) := StableHlo.after_of_writes_sub hostOps4 _ hostOps4_writes (by decide)
    _ = W9 m ρ c (Proc.devRef .tc main_arg0) := W10_of_ne m ρ c main_arg0 (by decide)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := StableHlo.after_of_writes_sub hostOps6 _ hostOps6_writes (by decide)
    _ = W13 m ρ c (Proc.devRef .tc main_arg1) := W14_of_ne m ρ c main_arg1 (by decide)
    _ = W12 m ρ c (Proc.devRef .tc main_arg1) := StableHlo.after_of_writes_sub hostOps5 _ hostOps5_writes (by decide)
    _ = W11 m ρ c (Proc.devRef .tc main_arg1) := W12_of_ne m ρ c main_arg1 (by decide)
    _ = W10 m ρ c (Proc.devRef .tc main_arg1) := StableHlo.after_of_writes_sub hostOps4 _ hostOps4_writes (by decide)
    _ = W9 m ρ c (Proc.devRef .tc main_arg1) := W10_of_ne m ρ c main_arg1 (by decide)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := StableHlo.after_of_writes_sub hostOps6 _ hostOps6_writes (by decide)
    _ = W13 m ρ c (Proc.devRef .tc main_arg2) := W14_of_ne m ρ c main_arg2 (by decide)
    _ = W12 m ρ c (Proc.devRef .tc main_arg2) := StableHlo.after_of_writes_sub hostOps5 _ hostOps5_writes (by decide)
    _ = W11 m ρ c (Proc.devRef .tc main_arg2) := W12_of_ne m ρ c main_arg2 (by decide)
    _ = W10 m ρ c (Proc.devRef .tc main_arg2) := StableHlo.after_of_writes_sub hostOps4 _ hostOps4_writes (by decide)
    _ = W9 m ρ c (Proc.devRef .tc main_arg2) := W10_of_ne m ρ c main_arg2 (by decide)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := StableHlo.after_of_writes_sub hostOps6 _ hostOps6_writes (by decide)
    _ = W13 m ρ c (Proc.devRef .tc main_arg3) := W14_of_ne m ρ c main_arg3 (by decide)
    _ = W12 m ρ c (Proc.devRef .tc main_arg3) := StableHlo.after_of_writes_sub hostOps5 _ hostOps5_writes (by decide)
    _ = W11 m ρ c (Proc.devRef .tc main_arg3) := W12_of_ne m ρ c main_arg3 (by decide)
    _ = W10 m ρ c (Proc.devRef .tc main_arg3) := StableHlo.after_of_writes_sub hostOps4 _ hostOps4_writes (by decide)
    _ = W9 m ρ c (Proc.devRef .tc main_arg3) := W10_of_ne m ρ c main_arg3 (by decide)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := StableHlo.after_of_writes_sub hostOps6 _ hostOps6_writes (by decide)
    _ = W13 m ρ c (Proc.devRef .tc main_arg4) := W14_of_ne m ρ c main_arg4 (by decide)
    _ = W12 m ρ c (Proc.devRef .tc main_arg4) := StableHlo.after_of_writes_sub hostOps5 _ hostOps5_writes (by decide)
    _ = W11 m ρ c (Proc.devRef .tc main_arg4) := W12_of_ne m ρ c main_arg4 (by decide)
    _ = W10 m ρ c (Proc.devRef .tc main_arg4) := StableHlo.after_of_writes_sub hostOps4 _ hostOps4_writes (by decide)
    _ = W9 m ρ c (Proc.devRef .tc main_arg4) := W10_of_ne m ρ c main_arg4 (by decide)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := StableHlo.after_of_writes_sub hostOps6 _ hostOps6_writes (by decide)
    _ = W13 m ρ c (Proc.devRef .tc main_arg5) := W14_of_ne m ρ c main_arg5 (by decide)
    _ = W12 m ρ c (Proc.devRef .tc main_arg5) := StableHlo.after_of_writes_sub hostOps5 _ hostOps5_writes (by decide)
    _ = W11 m ρ c (Proc.devRef .tc main_arg5) := W12_of_ne m ρ c main_arg5 (by decide)
    _ = W10 m ρ c (Proc.devRef .tc main_arg5) := StableHlo.after_of_writes_sub hostOps4 _ hostOps4_writes (by decide)
    _ = W9 m ρ c (Proc.devRef .tc main_arg5) := W10_of_ne m ρ c main_arg5 (by decide)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-! ## The proof data of the six regions and what rides beside the buffers -/

abbrev adm : (p : Fin 6) → (pcfgs (F := F) p).Adm := fun p => (cfgs p).toPCfg_adm
/-- Each region's proof data, at the contents the region is entered with. -/
def pdats : (p : Fin 6) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U9 m ρ) c
  | ⟨4, _⟩ => fun c => dat4 (U11 m ρ) c
  | ⟨5, _⟩ => fun c => dat5 (U13 m ρ) c
abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W15`, the generator register at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 as a segment: entered with every unscoped buffer at `W3`, left with them at `W4`. Its arrays are
    split out of the unscoped buffers at entry and put back at what the write-backs leave at exit; the generator
    register passes through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (U4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. Its arrays are
    split out of the unscoped buffers at entry and put back at what the write-backs leave at exit; the generator
    register passes through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. Its arrays are
    split out of the unscoped buffers at entry and put back at what the write-backs leave at exit; the generator
    register passes through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U7 m ρ c) (U8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W9`, left with them at `W10`. Its arrays are
    split out of the unscoped buffers at entry and put back at what the write-backs leave at exit; the generator
    register passes through the region's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (U9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U9 m ρ c) (U10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W11`, left with them at `W12`. Its arrays are
    split out of the unscoped buffers at entry and put back at what the write-backs leave at exit; the generator
    register passes through the region's invariant; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (U11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U11 m ρ c) (U12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at `W13`, left with them at `W14`. Its arrays are
    split out of the unscoped buffers at entry and put back at what the write-backs leave at exit; the generator
    register passes through the region's invariant; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (U13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U13 m ρ c) (U14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state has each unscoped buffer of core `c` at `W15 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (StableHlo.after hostOps6 (W14 m ρ c)) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W15_main_arg0 m ρ c),
    (h c _ (mem_uc main_arg1 (by decide))).trans (W15_main_arg1 m ρ c),
    (h c _ (mem_uc main_arg2 (by decide))).trans (W15_main_arg2 m ρ c),
    (h c _ (mem_uc main_arg3 (by decide))).trans (W15_main_arg3 m ρ c),
    (h c _ (mem_uc main_arg4 (by decide))).trans (W15_main_arg4 m ρ c),
    (h c _ (mem_uc main_arg5 (by decide))).trans (W15_main_arg5 m ρ c)⟩) (run_all m ρ)

end Cert.Kernel.Hand

end
-- ==== Proof.IdealRegion0.lean ====
import proofs.«110276_j52862457479750_1_alg».proof.Proof.Gen.KernelIdeal.Launch
import proofs.«110276_j52862457479750_1_alg».proof.Proof.Gen.KernelIdeal.Skeleton
import proofs.«110276_j52862457479750_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the per-edge message on blocks of 10000 edges, at entry contents `V`

  Windows 0 and 1 are the two gathered endpoint feature blocks, window 2 the block of the normalisation column, windows
  3 to 6 the two transposed weight matrices and the two bias rows (the same block at every point), window 7 the output
  block of messages. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the
    pipeline fetched it there or kept the previous point's (the block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the
    pipeline fetched it there or kept the previous point's (the block index has then not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every grid point, whether the
    pipeline fetched it there or kept the previous point's (the block index has then not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every grid point, whether the
    pipeline fetched it there or kept the previous point's (the block index has then not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every grid point, whether the
    pipeline fetched it there or kept the previous point's (the block index has then not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the array at every grid point, whether the
    pipeline fetched it there or kept the previous point's (the block index has then not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block of the array at every grid point, whether the
    pipeline fetched it there or kept the previous point's (the block index has then not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is a whole block. -/
abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S10000x1 := Rect.unit (s := S10000x1) ![0, 0] S10000x1.size inb_S10000x1_S10000x1_0_0
abbrev r0_3 : Rect S1x64 := Rect.unit (s := S1x64) ![0, 0] S1x64.size inb_S1x64_S1x64_0_0

/-- The output block after the body: the body's one store, of the message computed from the seven input blocks, over
    the whole block. -/
def out0_7 (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) : Vec F S10000x64 .f32 :=
  View.canon [⟨r0_0, k0_pay1 (View.ld x0 r0_0) (View.ld x1 r0_0) (View.ld x3 r0_1) (View.ld x5 r0_1) (View.ld x2 r0_2) (View.ld x4 r0_3) (View.ld x6 r0_3)⟩]

/-- The one store covers the block. -/
theorem cover0_7 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 4000000 in
/-- The body on whole staging buffers, the inputs' holding `x0 … x6` and the output's anything (the body reads the
    output buffer once and discards the value), ends with the inputs' unchanged and the output's at `out0_7` of them. -/
theorem sound_kernel0 (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__message_kernel i arg1 harg1 arg2 harg2 arg3 harg3 arg4 harg4 arg5 harg5 arg6 harg6 arg7 harg7 arg8 harg8) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The region's proof data on core `c`: the arrays as found; after the body each input buffer still at its block and
    the output buffer at the message block; nothing else of the core's state is touched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
import proofs.«110276_j52862457479750_1_alg».proof.Proof.Gen.KernelIdeal.Launch
import proofs.«110276_j52862457479750_1_alg».proof.Proof.Gen.KernelIdeal.Skeleton
import proofs.«110276_j52862457479750_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the rectifier with slope 0.2 on the negatives, on blocks of 12000 rows, at entry contents `V` -/

/-- Window `w`'s block at grid point `t`: rows 12000·t … 12000·t + 11999 of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the
    pipeline fetched it there or kept the previous point's (the block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole block. -/
abbrev r1_0 : Rect S12000x64 := Rect.unit (s := S12000x64) ![0, 0] S12000x64.size inb_S12000x64_S12000x64_0_0

/-- The output block after the body: the body's one store, of the rectified input block, over the whole block. -/
def out1_1 (x0 : Vec F S12000x64 .f32) : Vec F S12000x64 .f32 :=
  View.canon [⟨r1_0, k1_pay1 (View.ld x0 r1_0)⟩]

/-- The one store covers the block. -/
theorem cover1_1 (p0 : Vec F S12000x64 .f32) (y : S12000x64.Idx) :
    ∃ pc ∈ ([⟨r1_0, p0⟩] : List (View.Piece (Elt F) S12000x64 .f32)), y ∈ pc.1.set :=
  View.cover_of_tiled [⟨r1_0, p0⟩] S12000x64.size (by rfl) y

set_option maxHeartbeats 1000000 in
/-- The body on whole staging buffers, the input's holding `x0` and the output's anything (the body reads the output
    buffer once and discards the value), ends with the input's unchanged and the output's at `out1_1 x0`. -/
theorem sound_kernel1 (c : Dev nD) (E : Set ℕ) (i : grid1.Coords) (arg1 : Memref sig .tc .vmem S12000x64 .f32) (harg1 : arg1.IsWhole) (arg2 : Memref sig .tc .vmem S12000x64 .f32) (harg2 : arg2.IsWhole)
    (x0 : Vec F S12000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__leaky_kernel i arg1 harg1 arg2 harg2) K := by
  simp only [cc1__leaky_kernel_eq_skeleton]; unfold cc1__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The region's proof data on core `c`: the arrays as found; after the body the input buffer still at its block and the
    output buffer at the rectified block; nothing else of the core's state is touched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
import proofs.«110276_j52862457479750_1_alg».proof.Proof.Gen.KernelIdeal.Launch
import proofs.«110276_j52862457479750_1_alg».proof.Proof.Gen.KernelIdeal.Skeleton
import proofs.«110276_j52862457479750_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the per-edge message on blocks of 10000 edges, at entry contents `V`

  Windows 0 and 1 are the two gathered endpoint feature blocks, window 2 the block of the normalisation column, windows
  3 to 6 the two transposed weight matrices and the two bias rows (the same block at every point), window 7 the output
  block of messages. -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every grid point, whether the
    pipeline fetched it there or kept the previous point's (the block index has then not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the array at every grid point, whether the
    pipeline fetched it there or kept the previous point's (the block index has then not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the array at every grid point, whether the
    pipeline fetched it there or kept the previous point's (the block index has then not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the array at every grid point, whether the
    pipeline fetched it there or kept the previous point's (the block index has then not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the array at every grid point, whether the
    pipeline fetched it there or kept the previous point's (the block index has then not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the array at every grid point, whether the
    pipeline fetched it there or kept the previous point's (the block index has then not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block of the array at every grid point, whether the
    pipeline fetched it there or kept the previous point's (the block index has then not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each is a whole block. -/
abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S10000x1 := Rect.unit (s := S10000x1) ![0, 0] S10000x1.size inb_S10000x1_S10000x1_0_0
abbrev r2_3 : Rect S1x64 := Rect.unit (s := S1x64) ![0, 0] S1x64.size inb_S1x64_S1x64_0_0

/-- The output block after the body: the body's one store, of the message computed from the seven input blocks, over
    the whole block. -/
def out2_7 (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) : Vec F S10000x64 .f32 :=
  View.canon [⟨r2_0, k2_pay1 (View.ld x0 r2_0) (View.ld x1 r2_0) (View.ld x3 r2_1) (View.ld x5 r2_1) (View.ld x2 r2_2) (View.ld x4 r2_3) (View.ld x6 r2_3)⟩]

/-- The one store covers the block. -/
theorem cover2_7 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 4000000 in
/-- The body on whole staging buffers, the inputs' holding `x0 … x6` and the output's anything (the body reads the
    output buffer once and discards the value), ends with the inputs' unchanged and the output's at `out2_7` of them. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__message_kernel i arg1 harg1 arg2 harg2 arg3 harg3 arg4 harg4 arg5 harg5 arg6 harg6 arg7 harg7 arg8 harg8) K := by
  simp only [cc2__message_kernel_eq_skeleton]; unfold cc2__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The region's proof data on core `c`: the arrays as found; after the body each input buffer still at its block and
    the output buffer at the message block; nothing else of the core's state is touched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRegion3.lean ====
import proofs.«110276_j52862457479750_1_alg».proof.Proof.Gen.KernelIdeal.Launch
import proofs.«110276_j52862457479750_1_alg».proof.Proof.Gen.KernelIdeal.Skeleton
import proofs.«110276_j52862457479750_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the rectifier with slope 0.2 on the negatives, on blocks of 12000 rows, at entry contents `V` -/

/-- Window `w`'s block at grid point `t`: rows 12000·t … 12000·t + 11999 of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the array at every grid point, whether the
    pipeline fetched it there or kept the previous point's (the block index has then not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body reads and writes: the whole block. -/
abbrev r3_0 : Rect S12000x64 := Rect.unit (s := S12000x64) ![0, 0] S12000x64.size inb_S12000x64_S12000x64_0_0

/-- The output block after the body: the body's one store, of the rectified input block, over the whole block. -/
def out3_1 (x0 : Vec F S12000x64 .f32) : Vec F S12000x64 .f32 :=
  View.canon [⟨r3_0, k3_pay1 (View.ld x0 r3_0)⟩]

/-- The one store covers the block. -/
theorem cover3_1 (p0 : Vec F S12000x64 .f32) (y : S12000x64.Idx) :
    ∃ pc ∈ ([⟨r3_0, p0⟩] : List (View.Piece (Elt F) S12000x64 .f32)), y ∈ pc.1.set :=
  View.cover_of_tiled [⟨r3_0, p0⟩] S12000x64.size (by rfl) y

set_option maxHeartbeats 1000000 in
/-- The body on whole staging buffers, the input's holding `x0` and the output's anything (the body reads the output
    buffer once and discards the value), ends with the input's unchanged and the output's at `out3_1 x0`. -/
theorem sound_kernel3 (c : Dev nD) (E : Set ℕ) (i : grid3.Coords) (arg1 : Memref sig .tc .vmem S12000x64 .f32) (harg1 : arg1.IsWhole) (arg2 : Memref sig .tc .vmem S12000x64 .f32) (harg2 : arg2.IsWhole)
    (x0 : Vec F S12000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__leaky_kernel i arg1 harg1 arg2 harg2) K := by
  simp only [cc3__leaky_kernel_eq_skeleton]; unfold cc3__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The region's proof data on core `c`: the arrays as found; after the body the input buffer still at its block and the
    output buffer at the rectified block; nothing else of the core's state is touched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRegion4.lean ====
import proofs.«110276_j52862457479750_1_alg».proof.Proof.Gen.KernelIdeal.Launch
import proofs.«110276_j52862457479750_1_alg».proof.Proof.Gen.KernelIdeal.Skeleton
import proofs.«110276_j52862457479750_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the per-edge message on blocks of 10000 edges, at entry contents `V`

  Windows 0 and 1 are the two gathered endpoint feature blocks, window 2 the block of the normalisation column, windows
  3 to 6 the two transposed weight matrices and the two bias rows (the same block at every point), window 7 the output
  block of messages. -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block of the array at every grid point, whether the
    pipeline fetched it there or kept the previous point's (the block index has then not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block of the array at every grid point, whether the
    pipeline fetched it there or kept the previous point's (the block index has then not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block of the array at every grid point, whether the
    pipeline fetched it there or kept the previous point's (the block index has then not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block of the array at every grid point, whether the
    pipeline fetched it there or kept the previous point's (the block index has then not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block of the array at every grid point, whether the
    pipeline fetched it there or kept the previous point's (the block index has then not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block of the array at every grid point, whether the
    pipeline fetched it there or kept the previous point's (the block index has then not moved). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block of the array at every grid point, whether the
    pipeline fetched it there or kept the previous point's (the block index has then not moved). -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body reads and writes: each is a whole block. -/
abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S10000x1 := Rect.unit (s := S10000x1) ![0, 0] S10000x1.size inb_S10000x1_S10000x1_0_0
abbrev r4_3 : Rect S1x64 := Rect.unit (s := S1x64) ![0, 0] S1x64.size inb_S1x64_S1x64_0_0

/-- The output block after the body: the body's one store, of the message computed from the seven input blocks, over
    the whole block. -/
def out4_7 (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) : Vec F S10000x64 .f32 :=
  View.canon [⟨r4_0, k4_pay1 (View.ld x0 r4_0) (View.ld x1 r4_0) (View.ld x3 r4_1) (View.ld x5 r4_1) (View.ld x2 r4_2) (View.ld x4 r4_3) (View.ld x6 r4_3)⟩]

/-- The one store covers the block. -/
theorem cover4_7 (p0 : Vec F S10000x64 .f32) (y : S10000x64.Idx) :
    ∃ pc ∈ ([⟨r4_0, p0⟩] : List (View.Piece (Elt F) S10000x64 .f32)), y ∈ pc.1.set :=
  View.cover_of_tiled [⟨r4_0, p0⟩] S10000x64.size (by rfl) y

set_option maxHeartbeats 4000000 in
/-- The body on whole staging buffers, the inputs' holding `x0 … x6` and the output's anything (the body reads the
    output buffer once and discards the value), ends with the inputs' unchanged and the output's at `out4_7` of them. -/
theorem sound_kernel4 (c : Dev nD) (E : Set ℕ) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S10000x64 .f32) (x2 : Vec F S10000x1 .f32) (x3 : Vec F S64x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__message_kernel i arg1 harg1 arg2 harg2 arg3 harg3 arg4 harg4 arg5 harg5 arg6 harg6 arg7 harg7 arg8 harg8) K := by
  simp only [cc4__message_kernel_eq_skeleton]; unfold cc4__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-- The region's proof data on core `c`: the arrays as found; after the body each input buffer still at its block and
    the output buffer at the message block; nothing else of the core's state is touched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.IdealRegion5.lean ====
import proofs.«110276_j52862457479750_1_alg».proof.Proof.Gen.KernelIdeal.Launch
import proofs.«110276_j52862457479750_1_alg».proof.Proof.Gen.KernelIdeal.Skeleton
import proofs.«110276_j52862457479750_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the rectifier with slope 0.2 on the negatives, on blocks of 12000 rows, at entry contents `V` -/

/-- Window `w`'s block at grid point `t`: rows 12000·t … 12000·t + 11999 of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block of the array at every grid point, whether the
    pipeline fetched it there or kept the previous point's (the block index has then not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The one rectangle the body reads and writes: the whole block. -/
abbrev r5_0 : Rect S12000x64 := Rect.unit (s := S12000x64) ![0, 0] S12000x64.size inb_S12000x64_S12000x64_0_0

/-- The output block after the body: the body's one store, of the rectified input block, over the whole block. -/
def out5_1 (x0 : Vec F S12000x64 .f32) : Vec F S12000x64 .f32 :=
  View.canon [⟨r5_0, k5_pay1 (View.ld x0 r5_0)⟩]

/-- The one store covers the block. -/
theorem cover5_1 (p0 : Vec F S12000x64 .f32) (y : S12000x64.Idx) :
    ∃ pc ∈ ([⟨r5_0, p0⟩] : List (View.Piece (Elt F) S12000x64 .f32)), y ∈ pc.1.set :=
  View.cover_of_tiled [⟨r5_0, p0⟩] S12000x64.size (by rfl) y

set_option maxHeartbeats 1000000 in
/-- The body on whole staging buffers, the input's holding `x0` and the output's anything (the body reads the output
    buffer once and discards the value), ends with the input's unchanged and the output's at `out5_1 x0`. -/
theorem sound_kernel5 (c : Dev nD) (E : Set ℕ) (i : grid5.Coords) (arg1 : Memref sig .tc .vmem S12000x64 .f32) (harg1 : arg1.IsWhole) (arg2 : Memref sig .tc .vmem S12000x64 .f32) (harg2 : arg2.IsWhole)
    (x0 : Vec F S12000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__leaky_kernel i arg1 harg1 arg2 harg2) K := by
  simp only [cc5__leaky_kernel_eq_skeleton]; unfold cc5__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The region's proof data on core `c`: the arrays as found; after the body the input buffer still at its block and the
    output buffer at the rectified block; nothing else of the core's state is touched. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ _ _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.IdealRun.lean ====
import proofs.«110276_j52862457479750_1_alg».proof.Proof.Gen.KernelIdeal.Launch
import proofs.«110276_j52862457479750_1_alg».proof.Proof.Gen.KernelIdeal.Skeleton
import proofs.«110276_j52862457479750_1_alg».proof.Proof.Gen.KernelIdeal.Points
import proofs.«110276_j52862457479750_1_alg».proof.Proof.IdealRegion0
import proofs.«110276_j52862457479750_1_alg».proof.Proof.IdealRegion1
import proofs.«110276_j52862457479750_1_alg».proof.Proof.IdealRegion2
import proofs.«110276_j52862457479750_1_alg».proof.Proof.IdealRegion3
import proofs.«110276_j52862457479750_1_alg».proof.Proof.IdealRegion4
import proofs.«110276_j52862457479750_1_alg».proof.Proof.IdealRegion5
import proofs.«110276_j52862457479750_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: @main's fifteen items from the launch to the return

  Nine stretches of host operations and the six regions. `WJ` is what core `c`'s buffers hold after item J − 1: a host
  stretch rewrites the buffers its operations write, a region leaves each of its arrays at what its write-backs make of it. -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same, read at the TensorCore's references. -/
abbrev U1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
/-- The same, read at the TensorCore's references. -/
abbrev U2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
/-- The same, read at the TensorCore's references. -/
abbrev U3 : (c : Dev nD) → (b : Ref sig .tc) → Buf (Elt F) ((c : Thread nD τ).loc b) := fun c b => W3 m ρ c b
/-- At region 0's exit: its arrays at what the pipeline leaves (the inputs as entered, the output's write-backs folded),
    every other buffer as entered. -/
def W4 (c : Dev nD) : Valuation τ sig (Elt F) :=
  Pipeline.withArrays spec0 c (W3 m ρ c) fun w => (dat0 (U3 m ρ) c).arrAt w cfg0.N
theorem W4_arr (c : Dev nD) (w : Fin cfg0.W) :
    W4 m ρ c (Proc.devRef .tc (Pipeline.arrRef spec0 w)) = (dat0 (U3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev U4 : (c : Dev nD) → (b : Ref sig .tc) → Buf (Elt F) ((c : Thread nD τ).loc b) := fun c b => W4 m ρ c b
theorem hF0 (c : Dev nD) (w : Fin cfg0.W) : (dat0 (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
/-- The same, read at the TensorCore's references. -/
abbrev U5 : (c : Dev nD) → (b : Ref sig .tc) → Buf (Elt F) ((c : Thread nD τ).loc b) := fun c b => W5 m ρ c b
/-- At region 1's exit: its arrays at what the pipeline leaves (the inputs as entered, the output's write-backs folded),
    every other buffer as entered. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
/-- The same, read at the TensorCore's references. -/
abbrev U7 : (c : Dev nD) → (b : Ref sig .tc) → Buf (Elt F) ((c : Thread nD τ).loc b) := fun c b => W7 m ρ c b
/-- At region 2's exit: its arrays at what the pipeline leaves (the inputs as entered, the output's write-backs folded),
    every other buffer as entered. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)
/-- After the host stretch `hostOps3`. -/
abbrev W9 : Dev nD → Valuation τ sig (Elt F) := fun c => StableHlo.after hostOps3 (W8 m ρ c)
/-- The same, read at the TensorCore's references. -/
abbrev U9 : (c : Dev nD) → (b : Ref sig .tc) → Buf (Elt F) ((c : Thread nD τ).loc b) := fun c b => W9 m ρ c b
/-- At region 3's exit: its arrays at what the pipeline leaves (the inputs as entered, the output's write-backs folded),
    every other buffer as entered. -/
def W10 (c : Dev nD) : Valuation τ sig (Elt F) :=
  Pipeline.withArrays spec3 c (W9 m ρ c) fun w => (dat3 (U9 m ρ) c).arrAt w cfg3.N
theorem W10_arr (c : Dev nD) (w : Fin cfg3.W) :
    W10 m ρ c (Proc.devRef .tc (Pipeline.arrRef spec3 w)) = (dat3 (U9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev U10 : (c : Dev nD) → (b : Ref sig .tc) → Buf (Elt F) ((c : Thread nD τ).loc b) := fun c b => W10 m ρ c b
theorem hF3 (c : Dev nD) (w : Fin cfg3.W) : (dat3 (U9 m ρ) c).arrAt w cfg3.N = U10 m ρ c (Pipeline.arrRef spec3 w) :=
  (W10_arr m ρ c w).symm
theorem hrest3 (c : Dev nD) : ∀ b, b ∉ Finset.univ.image (Pipeline.arrRef spec3) → U10 m ρ c b = U9 m ρ c b :=
  fun b hb => W10_of_ne m ρ c b fun w e => hb (Finset.mem_image.mpr ⟨w, Finset.mem_univ _, e⟩)
/-- After the host stretch `hostOps4`. -/
abbrev W11 : Dev nD → Valuation τ sig (Elt F) := fun c => StableHlo.after hostOps4 (W10 m ρ c)
/-- The same, read at the TensorCore's references. -/
abbrev U11 : (c : Dev nD) → (b : Ref sig .tc) → Buf (Elt F) ((c : Thread nD τ).loc b) := fun c b => W11 m ρ c b
/-- At region 4's exit: its arrays at what the pipeline leaves (the inputs as entered, the output's write-backs folded),
    every other buffer as entered. -/
def W12 (c : Dev nD) : Valuation τ sig (Elt F) :=
  Pipeline.withArrays spec4 c (W11 m ρ c) fun w => (dat4 (U11 m ρ) c).arrAt w cfg4.N
theorem W12_arr (c : Dev nD) (w : Fin cfg4.W) :
    W12 m ρ c (Proc.devRef .tc (Pipeline.arrRef spec4 w)) = (dat4 (U11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev U12 : (c : Dev nD) → (b : Ref sig .tc) → Buf (Elt F) ((c : Thread nD τ).loc b) := fun c b => W12 m ρ c b
theorem hF4 (c : Dev nD) (w : Fin cfg4.W) : (dat4 (U11 m ρ) c).arrAt w cfg4.N = U12 m ρ c (Pipeline.arrRef spec4 w) :=
  (W12_arr m ρ c w).symm
theorem hrest4 (c : Dev nD) : ∀ b, b ∉ Finset.univ.image (Pipeline.arrRef spec4) → U12 m ρ c b = U11 m ρ c b :=
  fun b hb => W12_of_ne m ρ c b fun w e => hb (Finset.mem_image.mpr ⟨w, Finset.mem_univ _, e⟩)
/-- After the host stretch `hostOps5`. -/
abbrev W13 : Dev nD → Valuation τ sig (Elt F) := fun c => StableHlo.after hostOps5 (W12 m ρ c)
/-- The same, read at the TensorCore's references. -/
abbrev U13 : (c : Dev nD) → (b : Ref sig .tc) → Buf (Elt F) ((c : Thread nD τ).loc b) := fun c b => W13 m ρ c b
/-- At region 5's exit: its arrays at what the pipeline leaves (the inputs as entered, the output's write-backs folded),
    every other buffer as entered. -/
def W14 (c : Dev nD) : Valuation τ sig (Elt F) :=
  Pipeline.withArrays spec5 c (W13 m ρ c) fun w => (dat5 (U13 m ρ) c).arrAt w cfg5.N
theorem W14_arr (c : Dev nD) (w : Fin cfg5.W) :
    W14 m ρ c (Proc.devRef .tc (Pipeline.arrRef spec5 w)) = (dat5 (U13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev U14 : (c : Dev nD) → (b : Ref sig .tc) → Buf (Elt F) ((c : Thread nD τ).loc b) := fun c b => W14 m ρ c b
theorem hF5 (c : Dev nD) (w : Fin cfg5.W) : (dat5 (U13 m ρ) c).arrAt w cfg5.N = U14 m ρ c (Pipeline.arrRef spec5 w) :=
  (W14_arr m ρ c w).symm
theorem hrest5 (c : Dev nD) : ∀ b, b ∉ Finset.univ.image (Pipeline.arrRef spec5) → U14 m ρ c b = U13 m ρ c b :=
  fun b hb => W14_of_ne m ρ c b fun w e => hb (Finset.mem_image.mpr ⟨w, Finset.mem_univ _, e⟩)
/-- After the host stretch `hostOps6`. -/
abbrev W15 : Dev nD → Valuation τ sig (Elt F) := fun c => StableHlo.after hostOps6 (W14 m ρ c)
/-- The same, read at the TensorCore's references. -/
abbrev U15 : (c : Dev nD) → (b : Ref sig .tc) → Buf (Elt F) ((c : Thread nD τ).loc b) := fun c b => W15 m ρ c b

/-! ## Every argument array ends as launched: no host operation writes one, and none is a region's array -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := StableHlo.after_of_writes_sub hostOps6 _ hostOps6_writes (by decide)
    _ = W13 m ρ c (Proc.devRef .tc main_arg0) := W14_of_ne m ρ c main_arg0 (by decide)
    _ = W12 m ρ c (Proc.devRef .tc main_arg0) := StableHlo.after_of_writes_sub hostOps5 _ hostOps5_writes (by decide)
    _ = W11 m ρ c (Proc.devRef .tc main_arg0) := W12_of_ne m ρ c main_arg0 (by decide)
    _ = W10 m ρ c (Proc.devRef .tc main_arg0) := StableHlo.after_of_writes_sub hostOps4 _ hostOps4_writes (by decide)
    _ = W9 m ρ c (Proc.devRef .tc main_arg0) := W10_of_ne m ρ c main_arg0 (by decide)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := StableHlo.after_of_writes_sub hostOps6 _ hostOps6_writes (by decide)
    _ = W13 m ρ c (Proc.devRef .tc main_arg1) := W14_of_ne m ρ c main_arg1 (by decide)
    _ = W12 m ρ c (Proc.devRef .tc main_arg1) := StableHlo.after_of_writes_sub hostOps5 _ hostOps5_writes (by decide)
    _ = W11 m ρ c (Proc.devRef .tc main_arg1) := W12_of_ne m ρ c main_arg1 (by decide)
    _ = W10 m ρ c (Proc.devRef .tc main_arg1) := StableHlo.after_of_writes_sub hostOps4 _ hostOps4_writes (by decide)
    _ = W9 m ρ c (Proc.devRef .tc main_arg1) := W10_of_ne m ρ c main_arg1 (by decide)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := StableHlo.after_of_writes_sub hostOps6 _ hostOps6_writes (by decide)
    _ = W13 m ρ c (Proc.devRef .tc main_arg2) := W14_of_ne m ρ c main_arg2 (by decide)
    _ = W12 m ρ c (Proc.devRef .tc main_arg2) := StableHlo.after_of_writes_sub hostOps5 _ hostOps5_writes (by decide)
    _ = W11 m ρ c (Proc.devRef .tc main_arg2) := W12_of_ne m ρ c main_arg2 (by decide)
    _ = W10 m ρ c (Proc.devRef .tc main_arg2) := StableHlo.after_of_writes_sub hostOps4 _ hostOps4_writes (by decide)
    _ = W9 m ρ c (Proc.devRef .tc main_arg2) := W10_of_ne m ρ c main_arg2 (by decide)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := StableHlo.after_of_writes_sub hostOps6 _ hostOps6_writes (by decide)
    _ = W13 m ρ c (Proc.devRef .tc main_arg3) := W14_of_ne m ρ c main_arg3 (by decide)
    _ = W12 m ρ c (Proc.devRef .tc main_arg3) := StableHlo.after_of_writes_sub hostOps5 _ hostOps5_writes (by decide)
    _ = W11 m ρ c (Proc.devRef .tc main_arg3) := W12_of_ne m ρ c main_arg3 (by decide)
    _ = W10 m ρ c (Proc.devRef .tc main_arg3) := StableHlo.after_of_writes_sub hostOps4 _ hostOps4_writes (by decide)
    _ = W9 m ρ c (Proc.devRef .tc main_arg3) := W10_of_ne m ρ c main_arg3 (by decide)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := StableHlo.after_of_writes_sub hostOps6 _ hostOps6_writes (by decide)
    _ = W13 m ρ c (Proc.devRef .tc main_arg4) := W14_of_ne m ρ c main_arg4 (by decide)
    _ = W12 m ρ c (Proc.devRef .tc main_arg4) := StableHlo.after_of_writes_sub hostOps5 _ hostOps5_writes (by decide)
    _ = W11 m ρ c (Proc.devRef .tc main_arg4) := W12_of_ne m ρ c main_arg4 (by decide)
    _ = W10 m ρ c (Proc.devRef .tc main_arg4) := StableHlo.after_of_writes_sub hostOps4 _ hostOps4_writes (by decide)
    _ = W9 m ρ c (Proc.devRef .tc main_arg4) := W10_of_ne m ρ c main_arg4 (by decide)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := StableHlo.after_of_writes_sub hostOps6 _ hostOps6_writes (by decide)
    _ = W13 m ρ c (Proc.devRef .tc main_arg5) := W14_of_ne m ρ c main_arg5 (by decide)
    _ = W12 m ρ c (Proc.devRef .tc main_arg5) := StableHlo.after_of_writes_sub hostOps5 _ hostOps5_writes (by decide)
    _ = W11 m ρ c (Proc.devRef .tc main_arg5) := W12_of_ne m ρ c main_arg5 (by decide)
    _ = W10 m ρ c (Proc.devRef .tc main_arg5) := StableHlo.after_of_writes_sub hostOps4 _ hostOps4_writes (by decide)
    _ = W9 m ρ c (Proc.devRef .tc main_arg5) := W10_of_ne m ρ c main_arg5 (by decide)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-! ## The proof data of the six regions and what rides beside the buffers -/

abbrev adm : (p : Fin 6) → (pcfgs (F := F) p).Adm := fun p => (cfgs p).toPCfg_adm
/-- Each region's proof data, at the contents the region is entered with. -/
def pdats : (p : Fin 6) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U9 m ρ) c
  | ⟨4, _⟩ => fun c => dat4 (U11 m ρ) c
  | ⟨5, _⟩ => fun c => dat5 (U13 m ρ) c
abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W15`, the generator register at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 as a segment: entered with every unscoped buffer at `W3`, left with them at `W4`. Its arrays are
    split out of the unscoped buffers at entry and put back at what the write-backs leave at exit; the generator
    register passes through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (U4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. Its arrays are
    split out of the unscoped buffers at entry and put back at what the write-backs leave at exit; the generator
    register passes through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. Its arrays are
    split out of the unscoped buffers at entry and put back at what the write-backs leave at exit; the generator
    register passes through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U7 m ρ c) (U8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W9`, left with them at `W10`. Its arrays are
    split out of the unscoped buffers at entry and put back at what the write-backs leave at exit; the generator
    register passes through the region's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (U9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U9 m ρ c) (U10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W11`, left with them at `W12`. Its arrays are
    split out of the unscoped buffers at entry and put back at what the write-backs leave at exit; the generator
    register passes through the region's invariant; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (U11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U11 m ρ c) (U12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at `W13`, left with them at `W14`. Its arrays are
    split out of the unscoped buffers at entry and put back at what the write-backs leave at exit; the generator
    register passes through the region's invariant; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (U13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U13 m ρ c) (U14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state has each unscoped buffer of core `c` at `W15 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (StableHlo.after hostOps6 (W14 m ρ c)) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W15_main_arg0 m ρ c),
    (h c _ (mem_uc main_arg1 (by decide))).trans (W15_main_arg1 m ρ c),
    (h c _ (mem_uc main_arg2 (by decide))).trans (W15_main_arg2 m ρ c),
    (h c _ (mem_uc main_arg3 (by decide))).trans (W15_main_arg3 m ρ c),
    (h c _ (mem_uc main_arg4 (by decide))).trans (W15_main_arg4 m ρ c),
    (h c _ (mem_uc main_arg5 (by decide))).trans (W15_main_arg5 m ρ c)⟩) (run_all m ρ)

end Cert.KernelIdeal.Hand

end
-- ==== Proof.IdealKeep.lean ====
import proofs.«110276_j52862457479750_1_alg».proof.Proof.IdealRun

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! # Buffers that keep their contents across items of the run

  A buffer no operation of a host stretch writes, and that is no array of a region, holds after the item what it held
  before it. Each fact below walks a buffer back over the items between two boundaries of the run: the two index vectors and
  the argument arrays back to the first stretch or the launch, the normalisation column back to the stretch that made it, and
  each layer's output back to the region that wrote it. -/

theorem W2_main_v1_from1 (c : Dev nD) : W2 m ρ c (Proc.devRef .tc main_v1) = W1 m ρ c (Proc.devRef .tc main_v1) :=
  calc W2 m ρ c (Proc.devRef .tc main_v1)
    _ = W1 m ρ c (Proc.devRef .tc main_v1) := StableHlo.after_of_writes_sub hostOps0_1 _ hostOps0_1_writes (by decide)

theorem W4_main_v1_from1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_writes_sub hostOps0_2 _ hostOps0_2_writes (by decide)
    _ = W1 m ρ c (Proc.devRef .tc main_v1) := StableHlo.after_of_writes_sub hostOps0_1 _ hostOps0_1_writes (by decide)

theorem W6_main_v1_from1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_writes_sub hostOps1 _ hostOps1_writes (by decide)
    _ = W3 m ρ c (Proc.devRef .tc main_v1) := W4_of_ne m ρ c main_v1 (by decide)
    _ = W2 m ρ c (Proc.devRef .tc main_v1) := StableHlo.after_of_writes_sub hostOps0_2 _ hostOps0_2_writes (by decide)
    _ = W1 m ρ c (Proc.devRef .tc main_v1) := StableHlo.after_of_writes_sub hostOps0_1 _ hostOps0_1_writes (by decide)

theorem W8_main_v1_from1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_writes_sub hostOps2 _ hostOps2_writes (by decide)
    _ = W5 m ρ c (Proc.devRef .tc main_v1) := W6_of_ne m ρ c main_v1 (by decide)
    _ = W4 m ρ c (Proc.devRef .tc main_v1) := StableHlo.after_of_writes_sub hostOps1 _ hostOps1_writes (by decide)
    _ = W3 m ρ c (Proc.devRef .tc main_v1) := W4_of_ne m ρ c main_v1 (by decide)
    _ = W2 m ρ c (Proc.devRef .tc main_v1) := StableHlo.after_of_writes_sub hostOps0_2 _ hostOps0_2_writes (by decide)
    _ = W1 m ρ c (Proc.devRef .tc main_v1) := StableHlo.after_of_writes_sub hostOps0_1 _ hostOps0_1_writes (by decide)

theorem W10_main_v1_from1 (c : Dev nD) : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := StableHlo.after_of_writes_sub hostOps3 _ hostOps3_writes (by decide)
    _ = W7 m ρ c (Proc.devRef .tc main_v1) := W8_of_ne m ρ c main_v1 (by decide)
    _ = W6 m ρ c (Proc.devRef .tc main_v1) := StableHlo.after_of_writes_sub hostOps2 _ hostOps2_writes (by decide)
    _ = W5 m ρ c (Proc.devRef .tc main_v1) := W6_of_ne m ρ c main_v1 (by decide)
    _ = W4 m ρ c (Proc.devRef .tc main_v1) := StableHlo.after_of_writes_sub hostOps1 _ hostOps1_writes (by decide)
    _ = W3 m ρ c (Proc.devRef .tc main_v1) := W4_of_ne m ρ c main_v1 (by decide)
    _ = W2 m ρ c (Proc.devRef .tc main_v1) := StableHlo.after_of_writes_sub hostOps0_2 _ hostOps0_2_writes (by decide)
    _ = W1 m ρ c (Proc.devRef .tc main_v1) := StableHlo.after_of_writes_sub hostOps0_1 _ hostOps0_1_writes (by decide)

theorem W12_main_v1_from1 (c : Dev nD) : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := StableHlo.after_of_writes_sub hostOps4 _ hostOps4_writes (by decide)
    _ = W9 m ρ c (Proc.devRef .tc main_v1) := W10_of_ne m ρ c main_v1 (by decide)
    _ = W8 m ρ c (Proc.devRef .tc main_v1) := StableHlo.after_of_writes_sub hostOps3 _ hostOps3_writes (by decide)
    _ = W7 m ρ c (Proc.devRef .tc main_v1) := W8_of_ne m ρ c main_v1 (by decide)
    _ = W6 m ρ c (Proc.devRef .tc main_v1) := StableHlo.after_of_writes_sub hostOps2 _ hostOps2_writes (by decide)
    _ = W5 m ρ c (Proc.devRef .tc main_v1) := W6_of_ne m ρ c main_v1 (by decide)
    _ = W4 m ρ c (Proc.devRef .tc main_v1) := StableHlo.after_of_writes_sub hostOps1 _ hostOps1_writes (by decide)
    _ = W3 m ρ c (Proc.devRef .tc main_v1) := W4_of_ne m ρ c main_v1 (by decide)
    _ = W2 m ρ c (Proc.devRef .tc main_v1) := StableHlo.after_of_writes_sub hostOps0_2 _ hostOps0_2_writes (by decide)
    _ = W1 m ρ c (Proc.devRef .tc main_v1) := StableHlo.after_of_writes_sub hostOps0_1 _ hostOps0_1_writes (by decide)

theorem W2_main_v3_from1 (c : Dev nD) : W2 m ρ c (Proc.devRef .tc main_v3) = W1 m ρ c (Proc.devRef .tc main_v3) :=
  calc W2 m ρ c (Proc.devRef .tc main_v3)
    _ = W1 m ρ c (Proc.devRef .tc main_v3) := StableHlo.after_of_writes_sub hostOps0_1 _ hostOps0_1_writes (by decide)

theorem W6_main_v3_from1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_writes_sub hostOps1 _ hostOps1_writes (by decide)
    _ = W3 m ρ c (Proc.devRef .tc main_v3) := W4_of_ne m ρ c main_v3 (by decide)
    _ = W2 m ρ c (Proc.devRef .tc main_v3) := StableHlo.after_of_writes_sub hostOps0_2 _ hostOps0_2_writes (by decide)
    _ = W1 m ρ c (Proc.devRef .tc main_v3) := StableHlo.after_of_writes_sub hostOps0_1 _ hostOps0_1_writes (by decide)

theorem W10_main_v3_from1 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_writes_sub hostOps3 _ hostOps3_writes (by decide)
    _ = W7 m ρ c (Proc.devRef .tc main_v3) := W8_of_ne m ρ c main_v3 (by decide)
    _ = W6 m ρ c (Proc.devRef .tc main_v3) := StableHlo.after_of_writes_sub hostOps2 _ hostOps2_writes (by decide)
    _ = W5 m ρ c (Proc.devRef .tc main_v3) := W6_of_ne m ρ c main_v3 (by decide)
    _ = W4 m ρ c (Proc.devRef .tc main_v3) := StableHlo.after_of_writes_sub hostOps1 _ hostOps1_writes (by decide)
    _ = W3 m ρ c (Proc.devRef .tc main_v3) := W4_of_ne m ρ c main_v3 (by decide)
    _ = W2 m ρ c (Proc.devRef .tc main_v3) := StableHlo.after_of_writes_sub hostOps0_2 _ hostOps0_2_writes (by decide)
    _ = W1 m ρ c (Proc.devRef .tc main_v3) := StableHlo.after_of_writes_sub hostOps0_1 _ hostOps0_1_writes (by decide)

theorem W2_main_arg1_from0 (c : Dev nD) : W2 m ρ c (Proc.devRef .tc main_arg1) = W0 m ρ c (Proc.devRef .tc main_arg1) :=
  calc W2 m ρ c (Proc.devRef .tc main_arg1)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)

theorem W14_main_arg1_from0 (c : Dev nD) : W14 m ρ c (Proc.devRef .tc main_arg1) = W0 m ρ c (Proc.devRef .tc main_arg1) :=
  calc W14 m ρ c (Proc.devRef .tc main_arg1)
    _ = W13 m ρ c (Proc.devRef .tc main_arg1) := W14_of_ne m ρ c main_arg1 (by decide)
    _ = W12 m ρ c (Proc.devRef .tc main_arg1) := StableHlo.after_of_writes_sub hostOps5 _ hostOps5_writes (by decide)
    _ = W11 m ρ c (Proc.devRef .tc main_arg1) := W12_of_ne m ρ c main_arg1 (by decide)
    _ = W10 m ρ c (Proc.devRef .tc main_arg1) := StableHlo.after_of_writes_sub hostOps4 _ hostOps4_writes (by decide)
    _ = W9 m ρ c (Proc.devRef .tc main_arg1) := W10_of_ne m ρ c main_arg1 (by decide)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)

theorem W2_main_arg2_from0 (c : Dev nD) : W2 m ρ c (Proc.devRef .tc main_arg2) = W0 m ρ c (Proc.devRef .tc main_arg2) :=
  calc W2 m ρ c (Proc.devRef .tc main_arg2)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)

theorem W6_main_arg2_from0 (c : Dev nD) : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)

theorem W10_main_arg2_from0 (c : Dev nD) : W10 m ρ c (Proc.devRef .tc main_arg2) = W0 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)

theorem W2_main_arg3_from0 (c : Dev nD) : W2 m ρ c (Proc.devRef .tc main_arg3) = W0 m ρ c (Proc.devRef .tc main_arg3) :=
  calc W2 m ρ c (Proc.devRef .tc main_arg3)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)

theorem W6_main_arg3_from0 (c : Dev nD) : W6 m ρ c (Proc.devRef .tc main_arg3) = W0 m ρ c (Proc.devRef .tc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)

theorem W10_main_arg3_from0 (c : Dev nD) : W10 m ρ c (Proc.devRef .tc main_arg3) = W0 m ρ c (Proc.devRef .tc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)

theorem W2_main_arg4_from0 (c : Dev nD) : W2 m ρ c (Proc.devRef .tc main_arg4) = W0 m ρ c (Proc.devRef .tc main_arg4) :=
  calc W2 m ρ c (Proc.devRef .tc main_arg4)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)

theorem W6_main_arg4_from0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)

theorem W10_main_arg4_from0 (c : Dev nD) : W10 m ρ c (Proc.devRef .tc main_arg4) = W0 m ρ c (Proc.devRef .tc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)

theorem W2_main_arg5_from0 (c : Dev nD) : W2 m ρ c (Proc.devRef .tc main_arg5) = W0 m ρ c (Proc.devRef .tc main_arg5) :=
  calc W2 m ρ c (Proc.devRef .tc main_arg5)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)

theorem W6_main_arg5_from0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)

theorem W10_main_arg5_from0 (c : Dev nD) : W10 m ρ c (Proc.devRef .tc main_arg5) = W0 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)

theorem W7_main_v29_from3 (c : Dev nD) : W7 m ρ c (Proc.devRef .tc main_v29) = W3 m ρ c (Proc.devRef .tc main_v29) :=
  calc W7 m ρ c (Proc.devRef .tc main_v29)
    _ = W6 m ρ c (Proc.devRef .tc main_v29) := StableHlo.after_of_writes_sub hostOps2 _ hostOps2_writes (by decide)
    _ = W5 m ρ c (Proc.devRef .tc main_v29) := W6_of_ne m ρ c main_v29 (by decide)
    _ = W4 m ρ c (Proc.devRef .tc main_v29) := StableHlo.after_of_writes_sub hostOps1 _ hostOps1_writes (by decide)
    _ = W3 m ρ c (Proc.devRef .tc main_v29) := (W4_arr m ρ c 2).trans (((dat0 (U3 m ρ) c).arrAt_in 2 rfl _).trans (A_eq0 (U3 m ρ) c 2))

theorem W11_main_v29_from3 (c : Dev nD) : W11 m ρ c (Proc.devRef .tc main_v29) = W3 m ρ c (Proc.devRef .tc main_v29) :=
  calc W11 m ρ c (Proc.devRef .tc main_v29)
    _ = W10 m ρ c (Proc.devRef .tc main_v29) := StableHlo.after_of_writes_sub hostOps4 _ hostOps4_writes (by decide)
    _ = W9 m ρ c (Proc.devRef .tc main_v29) := W10_of_ne m ρ c main_v29 (by decide)
    _ = W8 m ρ c (Proc.devRef .tc main_v29) := StableHlo.after_of_writes_sub hostOps3 _ hostOps3_writes (by decide)
    _ = W7 m ρ c (Proc.devRef .tc main_v29) := (W8_arr m ρ c 2).trans (((dat2 (U7 m ρ) c).arrAt_in 2 rfl _).trans (A_eq2 (U7 m ρ) c 2))
    _ = W6 m ρ c (Proc.devRef .tc main_v29) := StableHlo.after_of_writes_sub hostOps2 _ hostOps2_writes (by decide)
    _ = W5 m ρ c (Proc.devRef .tc main_v29) := W6_of_ne m ρ c main_v29 (by decide)
    _ = W4 m ρ c (Proc.devRef .tc main_v29) := StableHlo.after_of_writes_sub hostOps1 _ hostOps1_writes (by decide)
    _ = W3 m ρ c (Proc.devRef .tc main_v29) := (W4_arr m ρ c 2).trans (((dat0 (U3 m ρ) c).arrAt_in 2 rfl _).trans (A_eq0 (U3 m ρ) c 2))

theorem W14_main_v60_from6 (c : Dev nD) : W14 m ρ c (Proc.devRef .tc main_v60) = W6 m ρ c (Proc.devRef .tc main_v60) :=
  calc W14 m ρ c (Proc.devRef .tc main_v60)
    _ = W13 m ρ c (Proc.devRef .tc main_v60) := W14_of_ne m ρ c main_v60 (by decide)
    _ = W12 m ρ c (Proc.devRef .tc main_v60) := StableHlo.after_of_writes_sub hostOps5 _ hostOps5_writes (by decide)
    _ = W11 m ρ c (Proc.devRef .tc main_v60) := W12_of_ne m ρ c main_v60 (by decide)
    _ = W10 m ρ c (Proc.devRef .tc main_v60) := StableHlo.after_of_writes_sub hostOps4 _ hostOps4_writes (by decide)
    _ = W9 m ρ c (Proc.devRef .tc main_v60) := W10_of_ne m ρ c main_v60 (by decide)
    _ = W8 m ρ c (Proc.devRef .tc main_v60) := StableHlo.after_of_writes_sub hostOps3 _ hostOps3_writes (by decide)
    _ = W7 m ρ c (Proc.devRef .tc main_v60) := W8_of_ne m ρ c main_v60 (by decide)
    _ = W6 m ρ c (Proc.devRef .tc main_v60) := StableHlo.after_of_writes_sub hostOps2 _ hostOps2_writes (by decide)

theorem W14_main_v91_from10 (c : Dev nD) : W14 m ρ c (Proc.devRef .tc main_v91) = W10 m ρ c (Proc.devRef .tc main_v91) :=
  calc W14 m ρ c (Proc.devRef .tc main_v91)
    _ = W13 m ρ c (Proc.devRef .tc main_v91) := W14_of_ne m ρ c main_v91 (by decide)
    _ = W12 m ρ c (Proc.devRef .tc main_v91) := StableHlo.after_of_writes_sub hostOps5 _ hostOps5_writes (by decide)
    _ = W11 m ρ c (Proc.devRef .tc main_v91) := W12_of_ne m ρ c main_v91 (by decide)
    _ = W10 m ρ c (Proc.devRef .tc main_v91) := StableHlo.after_of_writes_sub hostOps4 _ hostOps4_writes (by decide)

end Cert.KernelIdeal.Hand

end
-- ==== Proof.LibTypedRef.lean ====
/-
  A typed reference carries a proof that its buffer's type is the value's type, and moves contents between the two by
  transport along that proof. Moving contents to the buffer and back is the identity, whatever the reference: the two
  transports cancel. (A host program that calls an outlined function reads each of the function's stages through such a
  pair; removing the pairs by this equation, rather than by unfolding, keeps the stages' terms small.)
-/
import Idealize.ShloMosaic.Lib.StableHlo

noncomputable section

namespace Cert.Lib

open Idealize.ShloMosaic

/-- Contents moved to a typed reference's buffer and back are unchanged. -/
theorem ofBuf_toBuf {sig : RefSig} {Val : EltTy → Type} {T : BufTy} (x : StableHlo.TRef sig T) (v : T.Contents Val) :
    x.ofBuf (x.toBuf v) = v := by
  obtain ⟨r, h, h1, h2⟩ := x
  subst h
  rfl

end Cert.Lib

end
-- ==== Proof.HostEval.lean ====
/-
  The host stretches of the kernel program, evaluated: what each stretch of host operations leaves in the buffers that
  later items read, as a term over the contents the stretch starts from.

  A stretch is a literal list of operations, each writing one buffer from the buffers it reads. Folding the list over a
  valuation and reading a buffer gives the composed term of the operations that feed it; everything the stretch does not
  write, an earlier stretch's or a region's result, stays an atom of the valuation. The recurring sub-terms are named:
  the row and column index vectors, an index vector made non-negative and turned into a column of indices, a gather of
  feature rows by such a column, the zero array and the scatter-add into it, a layer's transposed weight matrix and its
  bias row.
-/
import proofs.«110276_j52862457479750_1_alg».proof.Proof.Gen.KernelIdeal.Launch
import Idealize.ShloMosaic.Lib.StableHlo.Run
import proofs.«110276_j52862457479750_1_alg».proof.Proof.LibTypedRef

noncomputable section

namespace Cert.KernelIdeal.HostEval

open Cert.KernelIdeal Cert.KernelIdeal.Gen Idealize.ShloMosaic Idealize.ShloMosaic.TcCoe Idealize.SL.Sem
open Idealize.ShloMosaic.StableHlo

variable {F : FTy → Type} [FloatOps F]

/-! ## The named sub-terms -/

/-- The zero array the aggregation starts from. -/
def kZeros : FVec F S120000x64 .f32 :=
  broadcastInDim S120000x64 ![] bcast_S_S120000x64 (constant S_ .f32 0x00000000#32)

/-- The aggregation: the messages added into the zero array at the rows the row index vector names. -/
def kAgg (row : IVec S1000000 32) (msg : FVec F S1000000x64 .f32) : FVec F S120000x64 .f32 :=
  Host.scatterAdd scatter_S120000x64_S1000000x1_S1000000x64_1_0_0_1 kZeros
    (broadcastInDim S1000000x1 ![0] bcast_S1000000_S1000000x1_0 row) msg

/-! ## The aggregations (stretches 1, 3, 5) -/

theorem hostOps1_v59 (V : Valuation τ sig (Elt F)) :
    StableHlo.after hostOps1 V (Proc.devRef .tc main_v59)
      = kAgg (V (Proc.devRef .tc main_v1)) (V (Proc.devRef .tc main_v56)) := by
  after_results_simp
  rfl

theorem hostOps3_v90 (V : Valuation τ sig (Elt F)) :
    StableHlo.after hostOps3 V (Proc.devRef .tc main_v90)
      = kAgg (V (Proc.devRef .tc main_v1)) (V (Proc.devRef .tc main_v87)) := by
  after_results_simp
  rfl

theorem hostOps5_v121 (V : Valuation τ sig (Elt F)) :
    StableHlo.after hostOps5 V (Proc.devRef .tc main_v121)
      = kAgg (V (Proc.devRef .tc main_v1)) (V (Proc.devRef .tc main_v118)) := by
  after_results_simp
  rfl

/-! ## The result (stretch 6): the input features and the three layers' features side by side -/

theorem hostOps6_v123 (V : Valuation τ sig (Elt F)) :
    StableHlo.after hostOps6 V (Proc.devRef .tc main_v123)
      = concatenate S120000x256 1
          [⟨S120000x64, V (Proc.devRef .tc main_arg1)⟩, ⟨S120000x64, V (Proc.devRef .tc main_v60)⟩,
           ⟨S120000x64, V (Proc.devRef .tc main_v91)⟩, ⟨S120000x64, V (Proc.devRef .tc main_v122)⟩]
          concatenates_S120000x64_S120000x64_S120000x64_S120000x64_S120000x256_d1 := by
  after_results_simp
  rfl

/-! ## The normalisation's selection (the stretch of the outlined selection) -/

theorem hostOps0_1_v13 (V : Valuation τ sig (Elt F)) :
    StableHlo.after hostOps0_1 V (Proc.devRef .tc main_v13)
      = select (V (Proc.devRef .tc main_v9)) (V (Proc.devRef .tc main_v12))
          (broadcastInDim S120000 ![] bcast_S_S120000 (V (Proc.devRef .tc main_cst_3))) := by
  after_results_simp
  simp only [Cert.Lib.ofBuf_toBuf]
  rfl

/-! ## The index vectors and the degree chain (stretch 0) -/

/-- The row index vector: row 0 of the edge list. -/
def kRow (a0 : IVec S2x1000000 32) : IVec S1000000 32 :=
  shapeCast S1000000 (extractStridedSlice S1x1000000 ![0, 0] a0 slices_S2x1000000_S1x1000000_0_0) shapeCasts_S1x1000000_S1000000

/-- The column index vector: row 1 of the edge list. -/
def kCol (a0 : IVec S2x1000000 32) : IVec S1000000 32 :=
  shapeCast S1000000 (extractStridedSlice S1x1000000 ![1, 0] a0 slices_S2x1000000_S1x1000000_1_0) shapeCasts_S1x1000000_S1000000

/-- The degree of each node: ones added into zeros at the rows the column index vector names. -/
def kDeg (a0 : IVec S2x1000000 32) : FVec F S120000 .f32 :=
  Host.scatterAdd scatter_S120000_S1000000x1_S1000000_n_0_0_1
    (broadcastInDim S120000 ![] bcast_S_S120000 (constant S_ .f32 0x00000000#32))
    (broadcastInDim S1000000x1 ![0] bcast_S1000000_S1000000x1_0 (kCol a0))
    (broadcastInDim S1000000 ![] bcast_S_S1000000 (constant S_ .f32 0x3F800000#32))

/-- Where the degree is positive. -/
def kDegPos (a0 : IVec S2x1000000 32) : IVec S120000 1 :=
  cmpf .ogt (kDeg (F := F) a0) (broadcastInDim S120000 ![] bcast_S_S120000 (constant S_ .f32 0x00000000#32))

/-- The reciprocal square root of the degree raised to at least one. -/
def kRsqrtDeg (a0 : IVec S2x1000000 32) : FVec F S120000 .f32 :=
  Host.rsqrt (maximumf (kDeg a0) (broadcastInDim S120000 ![] bcast_S_S120000 (constant S_ .f32 0x3F800000#32)))

/-- The scalar zero the selection falls back to. -/
def kZeroScalar : FVec F S_ .f32 := constant S_ .f32 0x00000000#32

theorem hostOps0_v1 (V : Valuation τ sig (Elt F)) :
    StableHlo.after hostOps0 V (Proc.devRef .tc main_v1) = kRow (V (Proc.devRef .tc main_arg0)) := by
  after_results_simp
  rfl

theorem hostOps0_v3 (V : Valuation τ sig (Elt F)) :
    StableHlo.after hostOps0 V (Proc.devRef .tc main_v3) = kCol (V (Proc.devRef .tc main_arg0)) := by
  after_results_simp
  rfl

theorem hostOps0_v9 (V : Valuation τ sig (Elt F)) :
    StableHlo.after hostOps0 V (Proc.devRef .tc main_v9) = kDegPos (F := F) (V (Proc.devRef .tc main_arg0)) := by
  after_results_simp
  rfl

theorem hostOps0_v12 (V : Valuation τ sig (Elt F)) :
    StableHlo.after hostOps0 V (Proc.devRef .tc main_v12) = kRsqrtDeg (F := F) (V (Proc.devRef .tc main_arg0)) := by
  after_results_simp
  rfl

theorem hostOps0_cst_3 (V : Valuation τ sig (Elt F)) :
    StableHlo.after hostOps0 V (Proc.devRef .tc main_cst_3) = kZeroScalar (F := F) := by
  after_results_simp
  rfl

/-! ## Gathers, the normalisation and a layer's parameters (stretches 0_2, 2, 4) -/

/-- An index vector made non-negative (a negative entry counts from the end: the number of nodes is added to it) and
    turned into a column of indices. -/
def kIdx (r : IVec S1000000 32) : IVec S1000000x1 32 :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 120000#32))) r)

/-- The feature rows of the nodes an index vector names, one per edge. -/
def kGather (x : FVec F S120000x64 .f32) (r : IVec S1000000 32) : FVec F S1000000x64 .f32 :=
  Host.gather gather_S120000x64_S1000000x1_S1000000x64_1_0_n_n_0_1_164 x (kIdx r)

/-- The normalisation of each edge, as a column: the product of the per-node factor at the edge's two ends. -/
def kNorm (d : FVec F S120000 .f32) (row col : IVec S1000000 32) : FVec F S1000000x1 .f32 :=
  shapeCast S1000000x1
    (mulf (Host.gather gather_S120000_S1000000x1_S1000000_n_0_n_n_0_1_1 d (kIdx row))
      (Host.gather gather_S120000_S1000000x1_S1000000_n_0_n_n_0_1_1 d (kIdx col)))
    shapeCasts_S1000000_S1000000x1

/-- Layer i's weight matrix out of the stack of three, transposed. -/
def kW (i : Nat) (h : S3x64x64.Slices ![i, 0, 0] S1x64x64) (a : FVec F S3x64x64 .f32) : FVec F S64x64 .f32 :=
  transpose S64x64 [1, 0]
    (shapeCast S64x64 (extractStridedSlice S1x64x64 ![i, 0, 0] a h) shapeCasts_S1x64x64_S64x64)
    transposes_S64x64_S64x64_1_0

/-- Layer i's bias out of the stack of three, as a row. -/
def kB (i : Nat) (h : S3x64.Slices ![i, 0] S1x64) (a : FVec F S3x64 .f32) : FVec F S1x64 .f32 :=
  shapeCast S1x64 (shapeCast S64 (extractStridedSlice S1x64 ![i, 0] a h) shapeCasts_S1x64_S64) shapeCasts_S64_S1x64

abbrev kW0 (a : FVec F S3x64x64 .f32) : FVec F S64x64 .f32 := kW 0 slices_S3x64x64_S1x64x64_0_0_0 a
abbrev kW1 (a : FVec F S3x64x64 .f32) : FVec F S64x64 .f32 := kW 1 slices_S3x64x64_S1x64x64_1_0_0 a
abbrev kW2 (a : FVec F S3x64x64 .f32) : FVec F S64x64 .f32 := kW 2 slices_S3x64x64_S1x64x64_2_0_0 a
abbrev kB0 (a : FVec F S3x64 .f32) : FVec F S1x64 .f32 := kB 0 slices_S3x64_S1x64_0_0 a
abbrev kB1 (a : FVec F S3x64 .f32) : FVec F S1x64 .f32 := kB 1 slices_S3x64_S1x64_1_0 a
abbrev kB2 (a : FVec F S3x64 .f32) : FVec F S1x64 .f32 := kB 2 slices_S3x64_S1x64_2_0 a

/-! ### Layer 1 (stretch 0_2) -/

theorem hostOps0_2_v36 (V : Valuation τ sig (Elt F)) :
    StableHlo.after hostOps0_2 V (Proc.devRef .tc main_v36)
      = kGather (V (Proc.devRef .tc main_arg1)) (V (Proc.devRef .tc main_v1)) := by
  after_results_simp
  rfl

theorem hostOps0_2_v43 (V : Valuation τ sig (Elt F)) :
    StableHlo.after hostOps0_2 V (Proc.devRef .tc main_v43)
      = kGather (V (Proc.devRef .tc main_arg1)) (V (Proc.devRef .tc main_v3)) := by
  after_results_simp
  rfl

theorem hostOps0_2_v29 (V : Valuation τ sig (Elt F)) :
    StableHlo.after hostOps0_2 V (Proc.devRef .tc main_v29)
      = kNorm (V (Proc.devRef .tc main_v13)) (V (Proc.devRef .tc main_v1)) (V (Proc.devRef .tc main_v3)) := by
  after_results_simp
  rfl

theorem hostOps0_2_v46 (V : Valuation τ sig (Elt F)) :
    StableHlo.after hostOps0_2 V (Proc.devRef .tc main_v46) = kW0 (V (Proc.devRef .tc main_arg2)) := by
  after_results_simp
  rfl

theorem hostOps0_2_v52 (V : Valuation τ sig (Elt F)) :
    StableHlo.after hostOps0_2 V (Proc.devRef .tc main_v52) = kB0 (V (Proc.devRef .tc main_arg3)) := by
  after_results_simp
  rfl

theorem hostOps0_2_v49 (V : Valuation τ sig (Elt F)) :
    StableHlo.after hostOps0_2 V (Proc.devRef .tc main_v49) = kW0 (V (Proc.devRef .tc main_arg4)) := by
  after_results_simp
  rfl

theorem hostOps0_2_v55 (V : Valuation τ sig (Elt F)) :
    StableHlo.after hostOps0_2 V (Proc.devRef .tc main_v55) = kB0 (V (Proc.devRef .tc main_arg5)) := by
  after_results_simp
  rfl

/-! ### Layer 2 (stretch 2) -/

theorem hostOps2_v67 (V : Valuation τ sig (Elt F)) :
    StableHlo.after hostOps2 V (Proc.devRef .tc main_v67)
      = kGather (V (Proc.devRef .tc main_v60)) (V (Proc.devRef .tc main_v1)) := by
  after_results_simp
  rfl

theorem hostOps2_v74 (V : Valuation τ sig (Elt F)) :
    StableHlo.after hostOps2 V (Proc.devRef .tc main_v74)
      = kGather (V (Proc.devRef .tc main_v60)) (V (Proc.devRef .tc main_v3)) := by
  after_results_simp
  rfl

theorem hostOps2_v77 (V : Valuation τ sig (Elt F)) :
    StableHlo.after hostOps2 V (Proc.devRef .tc main_v77) = kW1 (V (Proc.devRef .tc main_arg2)) := by
  after_results_simp
  rfl

theorem hostOps2_v83 (V : Valuation τ sig (Elt F)) :
    StableHlo.after hostOps2 V (Proc.devRef .tc main_v83) = kB1 (V (Proc.devRef .tc main_arg3)) := by
  after_results_simp
  rfl

theorem hostOps2_v80 (V : Valuation τ sig (Elt F)) :
    StableHlo.after hostOps2 V (Proc.devRef .tc main_v80) = kW1 (V (Proc.devRef .tc main_arg4)) := by
  after_results_simp
  rfl

theorem hostOps2_v86 (V : Valuation τ sig (Elt F)) :
    StableHlo.after hostOps2 V (Proc.devRef .tc main_v86) = kB1 (V (Proc.devRef .tc main_arg5)) := by
  after_results_simp
  rfl

/-! ### Layer 3 (stretch 4) -/

theorem hostOps4_v98 (V : Valuation τ sig (Elt F)) :
    StableHlo.after hostOps4 V (Proc.devRef .tc main_v98)
      = kGather (V (Proc.devRef .tc main_v91)) (V (Proc.devRef .tc main_v1)) := by
  after_results_simp
  rfl

theorem hostOps4_v105 (V : Valuation τ sig (Elt F)) :
    StableHlo.after hostOps4 V (Proc.devRef .tc main_v105)
      = kGather (V (Proc.devRef .tc main_v91)) (V (Proc.devRef .tc main_v3)) := by
  after_results_simp
  rfl

theorem hostOps4_v108 (V : Valuation τ sig (Elt F)) :
    StableHlo.after hostOps4 V (Proc.devRef .tc main_v108) = kW2 (V (Proc.devRef .tc main_arg2)) := by
  after_results_simp
  rfl

theorem hostOps4_v114 (V : Valuation τ sig (Elt F)) :
    StableHlo.after hostOps4 V (Proc.devRef .tc main_v114) = kB2 (V (Proc.devRef .tc main_arg3)) := by
  after_results_simp
  rfl

theorem hostOps4_v111 (V : Valuation τ sig (Elt F)) :
    StableHlo.after hostOps4 V (Proc.devRef .tc main_v111) = kW2 (V (Proc.devRef .tc main_arg4)) := by
  after_results_simp
  rfl

theorem hostOps4_v117 (V : Valuation τ sig (Elt F)) :
    StableHlo.after hostOps4 V (Proc.devRef .tc main_v117) = kB2 (V (Proc.devRef .tc main_arg5)) := by
  after_results_simp
  rfl

end Cert.KernelIdeal.HostEval

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.LibRow.lean ====
/-
  A row is an array of shape [1, b]. Broadcasting it to [a, b] repeats the row a times, so the entry at (p, q) is the
  row's entry at (0, q). Independent of any program.
-/
import Idealize.ShloMosaic.Lib.ValueIdx
import Idealize.ShloMosaic.Lib.Pipeline.Value

noncomputable section

namespace Cert.Lib

open Idealize.ShloMosaic Idealize.ShloMosaic.ValueIdx

/-- A row [1, b] broadcast to [a, b] reads, at (p, q), the row's entry at (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib

end
-- ==== Proof.Algebra.lean ====
/-
  Index-level algebra of the graph-convolution layer: what each kernel payload and each host expression is at one
  index, over the extended reals.

  The per-edge message. For an edge e and an output feature q, with xr and xc the two gathered feature rows of the
  edge, W1 and W2 the two weight matrices, b1 and b2 the two biases and nrm the edge's normalisation,

      msg (e, q) = nrm e * ((((∑ k, xc (e, k) * W1ᵀ (k, q)) + b1 q) + ∑ k, (xr (e, k) * xc (e, k)) * W2ᵀ (k, q)) + b2 q).

  The kernel computes it on a block of 10000 edges from already transposed weights, a column of normalisations and
  two bias rows; the host computes it on all 1000000 edges from untransposed weights, a vector of normalisations and
  two bias vectors. Both are read here at one index, keeping the grouping of the additions and the order of every
  product, so no commutativity, associativity or finiteness is used.

  The rectifier. Entrywise, a ↦ a when 0 ≤ a, and c * a otherwise, c the constant with the bit pattern 0x3E4CCCCD.
-/
import proofs.«110276_j52862457479750_1_alg».proof.Proof.Gen.KernelIdeal.Skeleton
import proofs.«110276_j52862457479750_1_alg».proof.ReferenceIdeal
import proofs.«110276_j52862457479750_1_alg».proof.Proof.Gen.ReferenceIdeal
import proofs.«110276_j52862457479750_1_alg».proof.Proof.LibPlainDot
import proofs.«110276_j52862457479750_1_alg».proof.Proof.LibColumn
import proofs.«110276_j52862457479750_1_alg».proof.Proof.LibRow
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.Bridge

open Idealize.ShloMosaic Idealize.ShloMosaic.ValueIdx Cert.Lib

/-! ## The rectifier -/

/-- The rectifier at one entry: a when 0 ≤ a, otherwise the slope constant times a. The two constants are kept as the
    values their bit patterns denote. -/
def leakyE (a : EReal) : EReal :=
  Scalar.select (Ideal.cmp .oge a (Ideal.ofBits .f32 0x00000000#32)) a (Ideal.ofBits .f32 0x3E4CCCCD#32 * a)

/-- The kernel's rectifier payload at an index. -/
theorem pay_leaky (x : Vec Ideal Cert.KernelIdeal.S12000x64 .f32) (j : Cert.KernelIdeal.S12000x64.Idx) :
    Cert.KernelIdeal.Gen.k1_pay1 (F := Ideal) x j = leakyE (x j) := by
  unfold Cert.KernelIdeal.Gen.k1_pay1
  exact congrArg leakyE (congrFun (shapeCast_self x _) j)

theorem pay_leaky3 (x : Vec Ideal Cert.KernelIdeal.S12000x64 .f32) (j : Cert.KernelIdeal.S12000x64.Idx) :
    Cert.KernelIdeal.Gen.k3_pay1 (F := Ideal) x j = leakyE (x j) :=
  pay_leaky x j

theorem pay_leaky5 (x : Vec Ideal Cert.KernelIdeal.S12000x64 .f32) (j : Cert.KernelIdeal.S12000x64.Idx) :
    Cert.KernelIdeal.Gen.k5_pay1 (F := Ideal) x j = leakyE (x j) :=
  pay_leaky x j

/-- The host's rectifier on the aggregated features. -/
def hostLeaky (a : FVec Ideal Cert.ReferenceIdeal.S120000x64 .f32) : FVec Ideal Cert.ReferenceIdeal.S120000x64 .f32 :=
  select
    (cmpf .oge a
      (broadcastInDim Cert.ReferenceIdeal.S120000x64 ![] Cert.ReferenceIdeal.Facts₀.bcast_S_S120000x64
        (constant (F := Ideal) Cert.ReferenceIdeal.S_ .f32 0x00000000#32)))
    a
    (mulf
      (broadcastInDim Cert.ReferenceIdeal.S120000x64 ![] Cert.ReferenceIdeal.Facts₀.bcast_S_S120000x64
        (constant (F := Ideal) Cert.ReferenceIdeal.S_ .f32 0x3E4CCCCD#32))
      a)

/-- The host's rectifier at an index. -/
theorem host_leaky (a : FVec Ideal Cert.ReferenceIdeal.S120000x64 .f32) (j : Cert.ReferenceIdeal.S120000x64.Idx) :
    hostLeaky a j = leakyE (a j) := rfl

/-! ## The per-edge message -/

/-- The kernel's message payload at (p, q): the normalisation of row p times the sum, grouped as the payload groups it,
    of the first product, the first bias, the second product and the second bias. -/
theorem pay_msg (x0 x1 : Vec Ideal Cert.KernelIdeal.S10000x64 .f32) (x3 x5 : Vec Ideal Cert.KernelIdeal.S64x64 .f32)
    (x2 : Vec Ideal Cert.KernelIdeal.S10000x1 .f32) (x4 x6 : Vec Ideal Cert.KernelIdeal.S1x64 .f32)
    (p : Fin 10000) (q : Fin 64) :
    Cert.KernelIdeal.Gen.k0_pay1 (F := Ideal) x0 x1 x3 x5 x2 x4 x6 (ix2 p q)
      = x2 (ix2 p 0) * ((((∑ k : Fin 64, x1 (ix2 p k) * x3 (ix2 k q)) + x4 (ix2 0 q))
          + ∑ k : Fin 64, (x0 (ix2 p k) * x1 (ix2 p k)) * x5 (ix2 k q)) + x6 (ix2 0 q)) := by
  unfold Cert.KernelIdeal.Gen.k0_pay1
  refine (mulf_apply _ _ _).trans (congrArg₂ (· * ·) ?_ ?_)
  · -- the normalisation column, repeated along the row
    refine (Cert.Lib.broadcastTo_a1_ab_apply _ _ p q).trans ?_
    exact congrFun (shapeCast_self x2 _) _
  · refine (addf_apply _ _ _).trans (congrArg₂ (· + ·) ?_ ?_)
    · refine (addf_apply _ _ _).trans (congrArg₂ (· + ·) ?_ ?_)
      · refine (addf_apply _ _ _).trans (congrArg₂ (· + ·) ?_ ?_)
        · -- the first product
          refine (Cert.Lib.matmul_zero_apply _ none _ _ p q).trans ?_
          refine Finset.sum_congr rfl fun k _ => ?_
          exact congrArg₂ (· * ·) (congrFun (shapeCast_self x1 _) _) (congrFun (shapeCast_self x3 _) _)
        · -- the first bias row, repeated down the column
          refine (Cert.Lib.broadcastTo_1b_ab_apply _ _ p q).trans ?_
          exact congrFun (shapeCast_self x4 _) _
      · -- the second product, of the entrywise product of the two feature rows
        refine (Cert.Lib.matmul_zero_apply _ none _ _ p q).trans ?_
        refine Finset.sum_congr rfl fun k _ => ?_
        exact congrArg₂ (· * ·)
          (congrArg₂ (· * ·) (congrFun (shapeCast_self x0 _) _) (congrFun (shapeCast_self x1 _) _))
          (congrFun (shapeCast_self x5 _) _)
    · -- the second bias row
      refine (Cert.Lib.broadcastTo_1b_ab_apply _ _ p q).trans ?_
      exact congrFun (shapeCast_self x6 _) _

theorem pay_msg2 (x0 x1 : Vec Ideal Cert.KernelIdeal.S10000x64 .f32) (x3 x5 : Vec Ideal Cert.KernelIdeal.S64x64 .f32)
    (x2 : Vec Ideal Cert.KernelIdeal.S10000x1 .f32) (x4 x6 : Vec Ideal Cert.KernelIdeal.S1x64 .f32)
    (p : Fin 10000) (q : Fin 64) :
    Cert.KernelIdeal.Gen.k2_pay1 (F := Ideal) x0 x1 x3 x5 x2 x4 x6 (ix2 p q)
      = x2 (ix2 p 0) * ((((∑ k : Fin 64, x1 (ix2 p k) * x3 (ix2 k q)) + x4 (ix2 0 q))
          + ∑ k : Fin 64, (x0 (ix2 p k) * x1 (ix2 p k)) * x5 (ix2 k q)) + x6 (ix2 0 q)) :=
  pay_msg x0 x1 x3 x5 x2 x4 x6 p q

theorem pay_msg4 (x0 x1 : Vec Ideal Cert.KernelIdeal.S10000x64 .f32) (x3 x5 : Vec Ideal Cert.KernelIdeal.S64x64 .f32)
    (x2 : Vec Ideal Cert.KernelIdeal.S10000x1 .f32) (x4 x6 : Vec Ideal Cert.KernelIdeal.S1x64 .f32)
    (p : Fin 10000) (q : Fin 64) :
    Cert.KernelIdeal.Gen.k4_pay1 (F := Ideal) x0 x1 x3 x5 x2 x4 x6 (ix2 p q)
      = x2 (ix2 p 0) * ((((∑ k : Fin 64, x1 (ix2 p k) * x3 (ix2 k q)) + x4 (ix2 0 q))
          + ∑ k : Fin 64, (x0 (ix2 p k) * x1 (ix2 p k)) * x5 (ix2 k q)) + x6 (ix2 0 q)) :=
  pay_msg x0 x1 x3 x5 x2 x4 x6 p q

/-- The host's per-edge message over whole arrays: the reference's expression, with the two gathered feature arrays, the
    vector of normalisations, the two untransposed weight matrices and the two bias vectors as its inputs. -/
def hostMsg (xr xc : FVec Ideal Cert.ReferenceIdeal.S1000000x64 .f32) (nrm : FVec Ideal Cert.ReferenceIdeal.S1000000 .f32)
    (W1 W2 : FVec Ideal Cert.ReferenceIdeal.S64x64 .f32) (b1 b2 : FVec Ideal Cert.ReferenceIdeal.S64 .f32) :
    FVec Ideal Cert.ReferenceIdeal.S1000000x64 .f32 :=
  mulf
    (broadcastInDim Cert.ReferenceIdeal.S1000000x64 ![0, 1] Cert.ReferenceIdeal.Facts₀.bcast_S1000000x1_S1000000x64_0_1
      (broadcastInDim Cert.ReferenceIdeal.S1000000x1 ![0] Cert.ReferenceIdeal.Facts₀.bcast_S1000000_S1000000x1_0 nrm))
    (addf
      (addf
        (addf
          (Host.dotGeneral (F := Ideal) Cert.ReferenceIdeal.dot_S1000000x64_S64x64_S1000000x64_1_0_0_1_n_n none xc
            (transpose Cert.ReferenceIdeal.S64x64 [1, 0] W1 Cert.ReferenceIdeal.Facts₀.transposes_S64x64_S64x64_1_0))
          (broadcastInDim Cert.ReferenceIdeal.S1000000x64 ![0, 1] Cert.ReferenceIdeal.Facts₀.bcast_S1x64_S1000000x64_0_1
            (broadcastInDim Cert.ReferenceIdeal.S1x64 ![1] Cert.ReferenceIdeal.Facts₀.bcast_S64_S1x64_1 b1)))
        (Host.dotGeneral (F := Ideal) Cert.ReferenceIdeal.dot_S1000000x64_S64x64_S1000000x64_1_0_0_1_n_n none (mulf xr xc)
          (transpose Cert.ReferenceIdeal.S64x64 [1, 0] W2 Cert.ReferenceIdeal.Facts₀.transposes_S64x64_S64x64_1_0)))
      (broadcastInDim Cert.ReferenceIdeal.S1000000x64 ![0, 1] Cert.ReferenceIdeal.Facts₀.bcast_S1x64_S1000000x64_0_1
        (broadcastInDim Cert.ReferenceIdeal.S1x64 ![1] Cert.ReferenceIdeal.Facts₀.bcast_S64_S1x64_1 b2)))

/-- The host's message at (e, q). The weights enter untransposed: the transposed matrix read at (k, q) is the matrix
    read at (q, k). -/
theorem host_msg (xr xc : FVec Ideal Cert.ReferenceIdeal.S1000000x64 .f32) (nrm : FVec Ideal Cert.ReferenceIdeal.S1000000 .f32)
    (W1 W2 : FVec Ideal Cert.ReferenceIdeal.S64x64 .f32) (b1 b2 : FVec Ideal Cert.ReferenceIdeal.S64 .f32)
    (e : Fin 1000000) (q : Fin 64) :
    hostMsg xr xc nrm W1 W2 b1 b2 (ix2 e q)
      = nrm (ix1 e) * ((((∑ k : Fin 64, xc (ix2 e k) * W1 (ix2 q k)) + b1 (ix1 q))
          + ∑ k : Fin 64, (xr (ix2 e k) * xc (ix2 e k)) * W2 (ix2 q k)) + b2 (ix1 q)) := by
  unfold hostMsg
  refine (mulf_apply _ _ _).trans (congrArg₂ (· * ·) ?_ ?_)
  · -- the vector of normalisations, made a column, repeated along the row
    refine (Cert.Lib.broadcastInDim_a1_ab_apply _ _ e q).trans ?_
    exact Cert.Lib.broadcastInDim_a_a1_apply nrm _ e 0
  · refine (addf_apply _ _ _).trans (congrArg₂ (· + ·) ?_ ?_)
    · refine (addf_apply _ _ _).trans (congrArg₂ (· + ·) ?_ ?_)
      · refine (addf_apply _ _ _).trans (congrArg₂ (· + ·) ?_ ?_)
        · -- the first product, against the transposed first weight matrix
          refine (Cert.Lib.dotGeneral_plain_apply _ none .single _ _ e q).trans ?_
          refine Finset.sum_congr rfl fun k _ => ?_
          exact congrArg (xc (ix2 e k) * ·) (transpose_ix2_apply W1 _ k q)
        · -- the first bias, made a row, repeated down the column
          refine (Cert.Lib.broadcastInDim_1b_ab_apply _ _ e q).trans ?_
          exact Cert.Lib.broadcastInDim_b_1b_apply b1 _ 0 q
      · -- the second product
        refine (Cert.Lib.dotGeneral_plain_apply _ none .single _ _ e q).trans ?_
        refine Finset.sum_congr rfl fun k _ => ?_
        exact congrArg ((xr (ix2 e k) * xc (ix2 e k)) * ·) (transpose_ix2_apply W2 _ k q)
    · -- the second bias
      refine (Cert.Lib.broadcastInDim_1b_ab_apply _ _ e q).trans ?_
      exact Cert.Lib.broadcastInDim_b_1b_apply b2 _ 0 q

/-! ## Three layout facts of the kernel program, read at an index -/

/-- The vector of normalisations cast to a column reads, at (e, 0), the vector at e. -/
theorem shapeCast_nrm_apply {α : Type} (x : Cert.KernelIdeal.S1000000.Idx → α) (e : Fin 1000000) :
    shapeCast Cert.KernelIdeal.S1000000x1 x Cert.KernelIdeal.Facts₀.shapeCasts_S1000000_S1000000x1 (ix2 e 0) = x (ix1 e) :=
  Cert.Lib.shapeCast_a_a1_apply x _ e 0

/-- A bias vector cast to a row reads, at (0, q), the vector at q. -/
theorem shapeCast_bias_apply {α : Type} (x : Cert.KernelIdeal.S64.Idx → α) (q : Fin 64) :
    shapeCast Cert.KernelIdeal.S1x64 x Cert.KernelIdeal.Facts₀.shapeCasts_S64_S1x64 (ix2 0 q) = x (ix1 q) :=
  shapeCast_a_1a_apply x _ 0 q

/-- A weight matrix transposed reads, at (k, q), the matrix at (q, k). -/
theorem transpose_weight_apply {α : Type} (w : Cert.KernelIdeal.S64x64.Idx → α) (k q : Fin 64) :
    transpose Cert.KernelIdeal.S64x64 [1, 0] w Cert.KernelIdeal.Facts₀.transposes_S64x64_S64x64_1_0 (ix2 k q) = w (ix2 q k) :=
  transpose_ix2_apply w _ k q

end Cert.Bridge

end
-- ==== Proof.IdealMsgValue0.lean ====
import proofs.«110276_j52862457479750_1_alg».proof.Proof.IdealRegion0
import proofs.«110276_j52862457479750_1_alg».proof.Proof.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! # Region 0's output array at the exact instance: the message of every edge

  The grid's hundred points each take 10000 whole rows (edges). The output entry at edge `e`, feature `q` reads row `e`
  of the two gathered feature arrays and of the normalisation column, and the whole of the two weight matrices and bias
  rows, which every point sees at the same block. -/

theorem hzm0 : (![0, 0] : Fin 2 → Nat) = fun _ => 0 := funext fun a => by fin_cases a <;> rfl

/-- The message at edge `e`, feature `q`: the edge's normalisation times
    (Σₖ xc(e,k)·W1ᵀ(k,q) + b1(q)) + Σₖ (xr(e,k)·xc(e,k))·W2ᵀ(k,q) + b2(q), in that grouping. -/
def msgE0 (XR XC : S1000000x64.Idx → EReal) (N1 : S1000000x1.Idx → EReal) (W1T : S64x64.Idx → EReal) (B1 : S1x64.Idx → EReal)
    (W2T : S64x64.Idx → EReal) (B2 : S1x64.Idx → EReal) (e : Fin 1000000) (q : Fin 64) : EReal :=
  N1 (ix2 e 0) * ((((∑ k : Fin 64, XC (ix2 e k) * W1T (ix2 k q)) + B1 (ix2 0 q)) + ∑ k : Fin 64, (XR (ix2 e k) * XC (ix2 e k)) * W2T (ix2 k q)) + B2 (ix2 0 q))

/-- The whole message array as a function of the region's seven input arrays. -/
def Gmsg0 (XR XC : S1000000x64.Idx → EReal) (N1 : S1000000x1.Idx → EReal) (W1T : S64x64.Idx → EReal) (B1 : S1x64.Idx → EReal)
    (W2T : S64x64.Idx → EReal) (B2 : S1x64.Idx → EReal) : S1000000x64.Idx → EReal :=
  fun i => msgE0 XR XC N1 W1T B1 W2T B2 (i 0) (i 1)

/-- The body's stored value at row `p`, feature `q` of a block is the message at edge `e`, feature `q'` of the arrays, as soon as
    the blocks' entries that the formula reads are the arrays' entries at `e` and `q'`. -/
theorem pay_at0 (x0 x1 : Vec Ideal S10000x64 .f32) (x2 : Vec Ideal S10000x1 .f32) (x3 : Vec Ideal S64x64 .f32) (x4 : Vec Ideal S1x64 .f32)
    (x5 : Vec Ideal S64x64 .f32) (x6 : Vec Ideal S1x64 .f32)
    (XR XC : S1000000x64.Idx → EReal) (N1 : S1000000x1.Idx → EReal) (W1T : S64x64.Idx → EReal) (B1 : S1x64.Idx → EReal)
    (W2T : S64x64.Idx → EReal) (B2 : S1x64.Idx → EReal) (e : Fin 1000000) (q' : Fin 64) (p : Fin 10000) (q : Fin 64)
    (hXR : ∀ k : Fin 64, x0 (ix2 p k) = XR (ix2 e k)) (hXC : ∀ k : Fin 64, x1 (ix2 p k) = XC (ix2 e k)) (hN : x2 (ix2 p 0) = N1 (ix2 e 0))
    (hW1 : ∀ k : Fin 64, x3 (ix2 k q) = W1T (ix2 k q')) (hB1 : x4 (ix2 0 q) = B1 (ix2 0 q'))
    (hW2 : ∀ k : Fin 64, x5 (ix2 k q) = W2T (ix2 k q')) (hB2 : x6 (ix2 0 q) = B2 (ix2 0 q')) :
    k0_pay1 (F := Ideal) x0 x1 x3 x5 x2 x4 x6 (ix2 p q) = msgE0 XR XC N1 W1T B1 W2T B2 e q' := by
  rw [Cert.Bridge.pay_msg x0 x1 x3 x5 x2 x4 x6 p q]
  unfold msgE0
  simp only [hXR, hXC, hN, hW1, hB1, hW2, hB2]

variable (V : (c : Dev nD) → (b : Ref sig .tc) → Buf (Elt Ideal) ((c : Thread nD τ).loc b))

/-- The index maps, decided over the grid: the two feature windows and the normalisation window sit at the output's row block and
    at feature block 0; the weights and biases at block (0, 0); the output's row block runs over 0 … 99. -/
theorem idx_factsm0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 99 ∧ win0_7.index t (1 : Fin 2) = 0 :=
  (by decide +kernel : ∀ t : Fin grid0.N, _)

/-- Every block of the output array is some point's. -/
theorem idx_ontom0 : ∀ (q0 : Fin 100) (q1 : Fin 1), ∃ t : Fin cfg0.N, win0_7.index t = ![q0.val + 0, q1.val + 0] :=
  (by decide +kernel : ∀ (q0 : Fin 100) (q1 : Fin 1), ∃ t : Fin grid0.N, win0_7.index t = ![q0.val + 0, q1.val + 0])

/-! Each block entry the formula reads is the array's entry at the output entry's edge (or at the whole weight / bias block). -/

theorem rdXR0 (c : Dev nD) (t : Fin cfg0.N) (p : Fin 10000) (q : Fin 64) (k : Fin 64) :
    iblk0 V c 0 t (ix2 p k) = V c main_v36 (ix2 ((((cfg0.win 7).blk t).view.emb (ix2 p q)) 0) k) := by
  obtain ⟨e00, e01, e10, e11, e20, e21, e30, e31, e40, e41, e50, e51, e60, e61, e70, e71⟩ := idx_factsm0 t
  have hp : p.val < 10000 := p.isLt
  have hq : q.val < 64 := q.isLt
  show V c main_v36 (((cfg0.win 0).blk t).view.emb (ix2 p k)) = _
  refine congrArg (V c main_v36) (funext fun a => Fin.ext ?_)
  match a with
  | ⟨0, _⟩ => show win0_0.index t (0 : Fin 2) * 10000 + 1 * p.val = win0_7.index t (0 : Fin 2) * 10000 + 1 * p.val; omega
  | ⟨1, _⟩ => show win0_0.index t (1 : Fin 2) * 64 + 1 * k.val = k.val; omega

theorem rdXC0 (c : Dev nD) (t : Fin cfg0.N) (p : Fin 10000) (q : Fin 64) (k : Fin 64) :
    iblk0 V c 1 t (ix2 p k) = V c main_v43 (ix2 ((((cfg0.win 7).blk t).view.emb (ix2 p q)) 0) k) := by
  obtain ⟨e00, e01, e10, e11, e20, e21, e30, e31, e40, e41, e50, e51, e60, e61, e70, e71⟩ := idx_factsm0 t
  have hp : p.val < 10000 := p.isLt
  have hq : q.val < 64 := q.isLt
  show V c main_v43 (((cfg0.win 1).blk t).view.emb (ix2 p k)) = _
  refine congrArg (V c main_v43) (funext fun a => Fin.ext ?_)
  match a with
  | ⟨0, _⟩ => show win0_1.index t (0 : Fin 2) * 10000 + 1 * p.val = win0_7.index t (0 : Fin 2) * 10000 + 1 * p.val; omega
  | ⟨1, _⟩ => show win0_1.index t (1 : Fin 2) * 64 + 1 * k.val = k.val; omega

theorem rdN0 (c : Dev nD) (t : Fin cfg0.N) (p : Fin 10000) (q : Fin 64)  :
    iblk0 V c 2 t (ix2 p 0) = V c main_v29 (ix2 ((((cfg0.win 7).blk t).view.emb (ix2 p q)) 0) 0) := by
  obtain ⟨e00, e01, e10, e11, e20, e21, e30, e31, e40, e41, e50, e51, e60, e61, e70, e71⟩ := idx_factsm0 t
  have hp : p.val < 10000 := p.isLt
  have hq : q.val < 64 := q.isLt
  show V c main_v29 (((cfg0.win 2).blk t).view.emb (ix2 p 0)) = _
  refine congrArg (V c main_v29) (funext fun a => Fin.ext ?_)
  match a with
  | ⟨0, _⟩ => show win0_2.index t (0 : Fin 2) * 10000 + 1 * p.val = win0_7.index t (0 : Fin 2) * 10000 + 1 * p.val; omega
  | ⟨1, _⟩ => show win0_2.index t (1 : Fin 2) * 1 + 1 * 0 = 0; omega

theorem rdW10 (c : Dev nD) (t : Fin cfg0.N) (p : Fin 10000) (q : Fin 64) (k : Fin 64) :
    iblk0 V c 3 t (ix2 k q) = V c main_v46 (ix2 k ((((cfg0.win 7).blk t).view.emb (ix2 p q)) 1)) := by
  obtain ⟨e00, e01, e10, e11, e20, e21, e30, e31, e40, e41, e50, e51, e60, e61, e70, e71⟩ := idx_factsm0 t
  have hp : p.val < 10000 := p.isLt
  have hq : q.val < 64 := q.isLt
  show V c main_v46 (((cfg0.win 3).blk t).view.emb (ix2 k q)) = _
  refine congrArg (V c main_v46) (funext fun a => Fin.ext ?_)
  match a with
  | ⟨0, _⟩ => show win0_3.index t (0 : Fin 2) * 64 + 1 * k.val = k.val; omega
  | ⟨1, _⟩ => show win0_3.index t (1 : Fin 2) * 64 + 1 * q.val = win0_7.index t (1 : Fin 2) * 64 + 1 * q.val; omega

theorem rdB10 (c : Dev nD) (t : Fin cfg0.N) (p : Fin 10000) (q : Fin 64)  :
    iblk0 V c 4 t (ix2 0 q) = V c main_v52 (ix2 0 ((((cfg0.win 7).blk t).view.emb (ix2 p q)) 1)) := by
  obtain ⟨e00, e01, e10, e11, e20, e21, e30, e31, e40, e41, e50, e51, e60, e61, e70, e71⟩ := idx_factsm0 t
  have hp : p.val < 10000 := p.isLt
  have hq : q.val < 64 := q.isLt
  show V c main_v52 (((cfg0.win 4).blk t).view.emb (ix2 0 q)) = _
  refine congrArg (V c main_v52) (funext fun a => Fin.ext ?_)
  match a with
  | ⟨0, _⟩ => show win0_4.index t (0 : Fin 2) * 1 + 1 * 0 = 0; omega
  | ⟨1, _⟩ => show win0_4.index t (1 : Fin 2) * 64 + 1 * q.val = win0_7.index t (1 : Fin 2) * 64 + 1 * q.val; omega

theorem rdW20 (c : Dev nD) (t : Fin cfg0.N) (p : Fin 10000) (q : Fin 64) (k : Fin 64) :
    iblk0 V c 5 t (ix2 k q) = V c main_v49 (ix2 k ((((cfg0.win 7).blk t).view.emb (ix2 p q)) 1)) := by
  obtain ⟨e00, e01, e10, e11, e20, e21, e30, e31, e40, e41, e50, e51, e60, e61, e70, e71⟩ := idx_factsm0 t
  have hp : p.val < 10000 := p.isLt
  have hq : q.val < 64 := q.isLt
  show V c main_v49 (((cfg0.win 5).blk t).view.emb (ix2 k q)) = _
  refine congrArg (V c main_v49) (funext fun a => Fin.ext ?_)
  match a with
  | ⟨0, _⟩ => show win0_5.index t (0 : Fin 2) * 64 + 1 * k.val = k.val; omega
  | ⟨1, _⟩ => show win0_5.index t (1 : Fin 2) * 64 + 1 * q.val = win0_7.index t (1 : Fin 2) * 64 + 1 * q.val; omega

theorem rdB20 (c : Dev nD) (t : Fin cfg0.N) (p : Fin 10000) (q : Fin 64)  :
    iblk0 V c 6 t (ix2 0 q) = V c main_v55 (ix2 0 ((((cfg0.win 7).blk t).view.emb (ix2 p q)) 1)) := by
  obtain ⟨e00, e01, e10, e11, e20, e21, e30, e31, e40, e41, e50, e51, e60, e61, e70, e71⟩ := idx_factsm0 t
  have hp : p.val < 10000 := p.isLt
  have hq : q.val < 64 := q.isLt
  show V c main_v55 (((cfg0.win 6).blk t).view.emb (ix2 0 q)) = _
  refine congrArg (V c main_v55) (funext fun a => Fin.ext ?_)
  match a with
  | ⟨0, _⟩ => show win0_6.index t (0 : Fin 2) * 1 + 1 * 0 = 0; omega
  | ⟨1, _⟩ => show win0_6.index t (1 : Fin 2) * 64 + 1 * q.val = win0_7.index t (1 : Fin 2) * 64 + 1 * q.val; omega

/-- What point `t` writes back is block `t` of the message array of the input arrays as the region finds them. -/
theorem flushedm0_eq (c : Dev nD) (t : Fin cfg0.N) :
    (dat0 V c).flushed 7 t = ((cfg0.win 7).blk t).view.read (Elt Ideal)
      (Gmsg0 (V c main_v36) (V c main_v43) (V c main_v29) (V c main_v46) (V c main_v52) (V c main_v49) (V c main_v55)) := by
  show (cfg0.win 7).cut (grid0.coords t) ((dat0 V c).after 7 t) = _
  rw [after0_7]
  unfold out0_7
  rw [View.canon_unit_zero hzm0]
  simp only [View.ld_unit_zero (S := S10000x64) hzm0, View.ld_unit_zero (S := S64x64) hzm0, View.ld_unit_zero (S := S10000x1) hzm0, View.ld_unit_zero (S := S1x64) hzm0]
  funext j
  obtain ⟨p, q, rfl⟩ : ∃ (p : Fin 10000) (q : Fin 64), j = ix2 p q := ⟨j 0, j 1, eq_ix2 j⟩
  exact pay_at0 (iblk0 V c 0 t) (iblk0 V c 1 t) (iblk0 V c 2 t) (iblk0 V c 3 t) (iblk0 V c 4 t) (iblk0 V c 5 t) (iblk0 V c 6 t)
    (V c main_v36) (V c main_v43) (V c main_v29) (V c main_v46) (V c main_v52) (V c main_v49) (V c main_v55)
    ((((cfg0.win 7).blk t).view.emb (ix2 p q)) 0) ((((cfg0.win 7).blk t).view.emb (ix2 p q)) 1) p q
    (fun k => rdXR0 V c t p q k) (fun k => rdXC0 V c t p q k) (rdN0 V c t p q)
    (fun k => rdW10 V c t p q k) (rdB10 V c t p q) (fun k => rdW20 V c t p q k) (rdB20 V c t p q)

/-- An index of the array is in point `t`'s block iff each coordinate is in the block's range on its axis. -/
theorem mem_blkm0 (t : Fin cfg0.N) (i : S1000000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v56).slice (win0_7.rect t)).set ↔ _
  rw [View.set_slice_whole, Rect.mem_set_unit]
  exact Iff.rfl

/-- The hundred blocks cover the array: edge `e` is in the block of point `e / 10000`. -/
theorem cover_blkm0 (i : S1000000x64.Idx) :
    ∃ t : Fin cfg0.N, (cfg0.win 7).flush t = true ∧ i ∈ ((cfg0.win 7).blk t).view.set := by
  have hi0 : (i 0).val < 1000000 := (i 0).isLt
  have hi1 : (i 1).val < 64 := (i 1).isLt
  obtain ⟨t, ht⟩ := idx_ontom0 ⟨(i 0).val / 10000 - 0, by omega⟩ ⟨(i 1).val / 64 - 0, by omega⟩
  have q0 : win0_7.index t (0 : Fin 2) = (i 0).val / 10000 - 0 + 0 := congrFun ht 0
  have q1 : win0_7.index t (1 : Fin 2) = (i 1).val / 64 - 0 + 0 := congrFun ht 1
  refine ⟨t, flush0_7 t, ?_⟩
  rw [mem_blkm0]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 64 ≤ (i 1).val ∧ (i 1).val < win0_7.index t (1 : Fin 2) * 64 + 64; omega

/-- The output array after the region: the message array of the input arrays as the region found them. -/
theorem finalm0 (c : Dev nD) : (dat0 V c).arrAt 7 cfg0.N
    = Gmsg0 (V c main_v36) (V c main_v43) (V c main_v29) (V c main_v46) (V c main_v52) (V c main_v49) (V c main_v55) :=
  (dat0 V c).arrAt_eq_of_cover 7 _ (fun t _ => flushedm0_eq V c t) (cover_blkm0)

end Cert.KernelIdeal.Hand

end
-- ==== Proof.IdealMsgValue2.lean ====
import proofs.«110276_j52862457479750_1_alg».proof.Proof.IdealRegion2
import proofs.«110276_j52862457479750_1_alg».proof.Proof.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! # Region 2's output array at the exact instance: the message of every edge

  The grid's hundred points each take 10000 whole rows (edges). The output entry at edge `e`, feature `q` reads row `e`
  of the two gathered feature arrays and of the normalisation column, and the whole of the two weight matrices and bias
  rows, which every point sees at the same block. -/

theorem hzm2 : (![0, 0] : Fin 2 → Nat) = fun _ => 0 := funext fun a => by fin_cases a <;> rfl

/-- The message at edge `e`, feature `q`: the edge's normalisation times
    (Σₖ xc(e,k)·W1ᵀ(k,q) + b1(q)) + Σₖ (xr(e,k)·xc(e,k))·W2ᵀ(k,q) + b2(q), in that grouping. -/
def msgE2 (XR XC : S1000000x64.Idx → EReal) (N1 : S1000000x1.Idx → EReal) (W1T : S64x64.Idx → EReal) (B1 : S1x64.Idx → EReal)
    (W2T : S64x64.Idx → EReal) (B2 : S1x64.Idx → EReal) (e : Fin 1000000) (q : Fin 64) : EReal :=
  N1 (ix2 e 0) * ((((∑ k : Fin 64, XC (ix2 e k) * W1T (ix2 k q)) + B1 (ix2 0 q)) + ∑ k : Fin 64, (XR (ix2 e k) * XC (ix2 e k)) * W2T (ix2 k q)) + B2 (ix2 0 q))

/-- The whole message array as a function of the region's seven input arrays. -/
def Gmsg2 (XR XC : S1000000x64.Idx → EReal) (N1 : S1000000x1.Idx → EReal) (W1T : S64x64.Idx → EReal) (B1 : S1x64.Idx → EReal)
    (W2T : S64x64.Idx → EReal) (B2 : S1x64.Idx → EReal) : S1000000x64.Idx → EReal :=
  fun i => msgE2 XR XC N1 W1T B1 W2T B2 (i 0) (i 1)

/-- The body's stored value at row `p`, feature `q` of a block is the message at edge `e`, feature `q'` of the arrays, as soon as
    the blocks' entries that the formula reads are the arrays' entries at `e` and `q'`. -/
theorem pay_at2 (x0 x1 : Vec Ideal S10000x64 .f32) (x2 : Vec Ideal S10000x1 .f32) (x3 : Vec Ideal S64x64 .f32) (x4 : Vec Ideal S1x64 .f32)
    (x5 : Vec Ideal S64x64 .f32) (x6 : Vec Ideal S1x64 .f32)
    (XR XC : S1000000x64.Idx → EReal) (N1 : S1000000x1.Idx → EReal) (W1T : S64x64.Idx → EReal) (B1 : S1x64.Idx → EReal)
    (W2T : S64x64.Idx → EReal) (B2 : S1x64.Idx → EReal) (e : Fin 1000000) (q' : Fin 64) (p : Fin 10000) (q : Fin 64)
    (hXR : ∀ k : Fin 64, x0 (ix2 p k) = XR (ix2 e k)) (hXC : ∀ k : Fin 64, x1 (ix2 p k) = XC (ix2 e k)) (hN : x2 (ix2 p 0) = N1 (ix2 e 0))
    (hW1 : ∀ k : Fin 64, x3 (ix2 k q) = W1T (ix2 k q')) (hB1 : x4 (ix2 0 q) = B1 (ix2 0 q'))
    (hW2 : ∀ k : Fin 64, x5 (ix2 k q) = W2T (ix2 k q')) (hB2 : x6 (ix2 0 q) = B2 (ix2 0 q')) :
    k2_pay1 (F := Ideal) x0 x1 x3 x5 x2 x4 x6 (ix2 p q) = msgE2 XR XC N1 W1T B1 W2T B2 e q' := by
  rw [Cert.Bridge.pay_msg2 x0 x1 x3 x5 x2 x4 x6 p q]
  unfold msgE2
  simp only [hXR, hXC, hN, hW1, hB1, hW2, hB2]

variable (V : (c : Dev nD) → (b : Ref sig .tc) → Buf (Elt Ideal) ((c : Thread nD τ).loc b))

/-- The index maps, decided over the grid: the two feature windows and the normalisation window sit at the output's row block and
    at feature block 0; the weights and biases at block (0, 0); the output's row block runs over 0 … 99. -/
theorem idx_factsm2 : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = win2_7.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) ≤ 99 ∧ win2_7.index t (1 : Fin 2) = 0 :=
  (by decide +kernel : ∀ t : Fin grid2.N, _)

/-- Every block of the output array is some point's. -/
theorem idx_ontom2 : ∀ (q0 : Fin 100) (q1 : Fin 1), ∃ t : Fin cfg2.N, win2_7.index t = ![q0.val + 0, q1.val + 0] :=
  (by decide +kernel : ∀ (q0 : Fin 100) (q1 : Fin 1), ∃ t : Fin grid2.N, win2_7.index t = ![q0.val + 0, q1.val + 0])

/-! Each block entry the formula reads is the array's entry at the output entry's edge (or at the whole weight / bias block). -/

theorem rdXR2 (c : Dev nD) (t : Fin cfg2.N) (p : Fin 10000) (q : Fin 64) (k : Fin 64) :
    iblk2 V c 0 t (ix2 p k) = V c main_v67 (ix2 ((((cfg2.win 7).blk t).view.emb (ix2 p q)) 0) k) := by
  obtain ⟨e00, e01, e10, e11, e20, e21, e30, e31, e40, e41, e50, e51, e60, e61, e70, e71⟩ := idx_factsm2 t
  have hp : p.val < 10000 := p.isLt
  have hq : q.val < 64 := q.isLt
  show V c main_v67 (((cfg2.win 0).blk t).view.emb (ix2 p k)) = _
  refine congrArg (V c main_v67) (funext fun a => Fin.ext ?_)
  match a with
  | ⟨0, _⟩ => show win2_0.index t (0 : Fin 2) * 10000 + 1 * p.val = win2_7.index t (0 : Fin 2) * 10000 + 1 * p.val; omega
  | ⟨1, _⟩ => show win2_0.index t (1 : Fin 2) * 64 + 1 * k.val = k.val; omega

theorem rdXC2 (c : Dev nD) (t : Fin cfg2.N) (p : Fin 10000) (q : Fin 64) (k : Fin 64) :
    iblk2 V c 1 t (ix2 p k) = V c main_v74 (ix2 ((((cfg2.win 7).blk t).view.emb (ix2 p q)) 0) k) := by
  obtain ⟨e00, e01, e10, e11, e20, e21, e30, e31, e40, e41, e50, e51, e60, e61, e70, e71⟩ := idx_factsm2 t
  have hp : p.val < 10000 := p.isLt
  have hq : q.val < 64 := q.isLt
  show V c main_v74 (((cfg2.win 1).blk t).view.emb (ix2 p k)) = _
  refine congrArg (V c main_v74) (funext fun a => Fin.ext ?_)
  match a with
  | ⟨0, _⟩ => show win2_1.index t (0 : Fin 2) * 10000 + 1 * p.val = win2_7.index t (0 : Fin 2) * 10000 + 1 * p.val; omega
  | ⟨1, _⟩ => show win2_1.index t (1 : Fin 2) * 64 + 1 * k.val = k.val; omega

theorem rdN2 (c : Dev nD) (t : Fin cfg2.N) (p : Fin 10000) (q : Fin 64)  :
    iblk2 V c 2 t (ix2 p 0) = V c main_v29 (ix2 ((((cfg2.win 7).blk t).view.emb (ix2 p q)) 0) 0) := by
  obtain ⟨e00, e01, e10, e11, e20, e21, e30, e31, e40, e41, e50, e51, e60, e61, e70, e71⟩ := idx_factsm2 t
  have hp : p.val < 10000 := p.isLt
  have hq : q.val < 64 := q.isLt
  show V c main_v29 (((cfg2.win 2).blk t).view.emb (ix2 p 0)) = _
  refine congrArg (V c main_v29) (funext fun a => Fin.ext ?_)
  match a with
  | ⟨0, _⟩ => show win2_2.index t (0 : Fin 2) * 10000 + 1 * p.val = win2_7.index t (0 : Fin 2) * 10000 + 1 * p.val; omega
  | ⟨1, _⟩ => show win2_2.index t (1 : Fin 2) * 1 + 1 * 0 = 0; omega

theorem rdW12 (c : Dev nD) (t : Fin cfg2.N) (p : Fin 10000) (q : Fin 64) (k : Fin 64) :
    iblk2 V c 3 t (ix2 k q) = V c main_v77 (ix2 k ((((cfg2.win 7).blk t).view.emb (ix2 p q)) 1)) := by
  obtain ⟨e00, e01, e10, e11, e20, e21, e30, e31, e40, e41, e50, e51, e60, e61, e70, e71⟩ := idx_factsm2 t
  have hp : p.val < 10000 := p.isLt
  have hq : q.val < 64 := q.isLt
  show V c main_v77 (((cfg2.win 3).blk t).view.emb (ix2 k q)) = _
  refine congrArg (V c main_v77) (funext fun a => Fin.ext ?_)
  match a with
  | ⟨0, _⟩ => show win2_3.index t (0 : Fin 2) * 64 + 1 * k.val = k.val; omega
  | ⟨1, _⟩ => show win2_3.index t (1 : Fin 2) * 64 + 1 * q.val = win2_7.index t (1 : Fin 2) * 64 + 1 * q.val; omega

theorem rdB12 (c : Dev nD) (t : Fin cfg2.N) (p : Fin 10000) (q : Fin 64)  :
    iblk2 V c 4 t (ix2 0 q) = V c main_v83 (ix2 0 ((((cfg2.win 7).blk t).view.emb (ix2 p q)) 1)) := by
  obtain ⟨e00, e01, e10, e11, e20, e21, e30, e31, e40, e41, e50, e51, e60, e61, e70, e71⟩ := idx_factsm2 t
  have hp : p.val < 10000 := p.isLt
  have hq : q.val < 64 := q.isLt
  show V c main_v83 (((cfg2.win 4).blk t).view.emb (ix2 0 q)) = _
  refine congrArg (V c main_v83) (funext fun a => Fin.ext ?_)
  match a with
  | ⟨0, _⟩ => show win2_4.index t (0 : Fin 2) * 1 + 1 * 0 = 0; omega
  | ⟨1, _⟩ => show win2_4.index t (1 : Fin 2) * 64 + 1 * q.val = win2_7.index t (1 : Fin 2) * 64 + 1 * q.val; omega

theorem rdW22 (c : Dev nD) (t : Fin cfg2.N) (p : Fin 10000) (q : Fin 64) (k : Fin 64) :
    iblk2 V c 5 t (ix2 k q) = V c main_v80 (ix2 k ((((cfg2.win 7).blk t).view.emb (ix2 p q)) 1)) := by
  obtain ⟨e00, e01, e10, e11, e20, e21, e30, e31, e40, e41, e50, e51, e60, e61, e70, e71⟩ := idx_factsm2 t
  have hp : p.val < 10000 := p.isLt
  have hq : q.val < 64 := q.isLt
  show V c main_v80 (((cfg2.win 5).blk t).view.emb (ix2 k q)) = _
  refine congrArg (V c main_v80) (funext fun a => Fin.ext ?_)
  match a with
  | ⟨0, _⟩ => show win2_5.index t (0 : Fin 2) * 64 + 1 * k.val = k.val; omega
  | ⟨1, _⟩ => show win2_5.index t (1 : Fin 2) * 64 + 1 * q.val = win2_7.index t (1 : Fin 2) * 64 + 1 * q.val; omega

theorem rdB22 (c : Dev nD) (t : Fin cfg2.N) (p : Fin 10000) (q : Fin 64)  :
    iblk2 V c 6 t (ix2 0 q) = V c main_v86 (ix2 0 ((((cfg2.win 7).blk t).view.emb (ix2 p q)) 1)) := by
  obtain ⟨e00, e01, e10, e11, e20, e21, e30, e31, e40, e41, e50, e51, e60, e61, e70, e71⟩ := idx_factsm2 t
  have hp : p.val < 10000 := p.isLt
  have hq : q.val < 64 := q.isLt
  show V c main_v86 (((cfg2.win 6).blk t).view.emb (ix2 0 q)) = _
  refine congrArg (V c main_v86) (funext fun a => Fin.ext ?_)
  match a with
  | ⟨0, _⟩ => show win2_6.index t (0 : Fin 2) * 1 + 1 * 0 = 0; omega
  | ⟨1, _⟩ => show win2_6.index t (1 : Fin 2) * 64 + 1 * q.val = win2_7.index t (1 : Fin 2) * 64 + 1 * q.val; omega

/-- What point `t` writes back is block `t` of the message array of the input arrays as the region finds them. -/
theorem flushedm2_eq (c : Dev nD) (t : Fin cfg2.N) :
    (dat2 V c).flushed 7 t = ((cfg2.win 7).blk t).view.read (Elt Ideal)
      (Gmsg2 (V c main_v67) (V c main_v74) (V c main_v29) (V c main_v77) (V c main_v83) (V c main_v80) (V c main_v86)) := by
  show (cfg2.win 7).cut (grid2.coords t) ((dat2 V c).after 7 t) = _
  rw [after2_7]
  unfold out2_7
  rw [View.canon_unit_zero hzm2]
  simp only [View.ld_unit_zero (S := S10000x64) hzm2, View.ld_unit_zero (S := S64x64) hzm2, View.ld_unit_zero (S := S10000x1) hzm2, View.ld_unit_zero (S := S1x64) hzm2]
  funext j
  obtain ⟨p, q, rfl⟩ : ∃ (p : Fin 10000) (q : Fin 64), j = ix2 p q := ⟨j 0, j 1, eq_ix2 j⟩
  exact pay_at2 (iblk2 V c 0 t) (iblk2 V c 1 t) (iblk2 V c 2 t) (iblk2 V c 3 t) (iblk2 V c 4 t) (iblk2 V c 5 t) (iblk2 V c 6 t)
    (V c main_v67) (V c main_v74) (V c main_v29) (V c main_v77) (V c main_v83) (V c main_v80) (V c main_v86)
    ((((cfg2.win 7).blk t).view.emb (ix2 p q)) 0) ((((cfg2.win 7).blk t).view.emb (ix2 p q)) 1) p q
    (fun k => rdXR2 V c t p q k) (fun k => rdXC2 V c t p q k) (rdN2 V c t p q)
    (fun k => rdW12 V c t p q k) (rdB12 V c t p q) (fun k => rdW22 V c t p q k) (rdB22 V c t p q)

/-- An index of the array is in point `t`'s block iff each coordinate is in the block's range on its axis. -/
theorem mem_blkm2 (t : Fin cfg2.N) (i : S1000000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v87).slice (win2_7.rect t)).set ↔ _
  rw [View.set_slice_whole, Rect.mem_set_unit]
  exact Iff.rfl

/-- The hundred blocks cover the array: edge `e` is in the block of point `e / 10000`. -/
theorem cover_blkm2 (i : S1000000x64.Idx) :
    ∃ t : Fin cfg2.N, (cfg2.win 7).flush t = true ∧ i ∈ ((cfg2.win 7).blk t).view.set := by
  have hi0 : (i 0).val < 1000000 := (i 0).isLt
  have hi1 : (i 1).val < 64 := (i 1).isLt
  obtain ⟨t, ht⟩ := idx_ontom2 ⟨(i 0).val / 10000 - 0, by omega⟩ ⟨(i 1).val / 64 - 0, by omega⟩
  have q0 : win2_7.index t (0 : Fin 2) = (i 0).val / 10000 - 0 + 0 := congrFun ht 0
  have q1 : win2_7.index t (1 : Fin 2) = (i 1).val / 64 - 0 + 0 := congrFun ht 1
  refine ⟨t, flush2_7 t, ?_⟩
  rw [mem_blkm2]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 64 ≤ (i 1).val ∧ (i 1).val < win2_7.index t (1 : Fin 2) * 64 + 64; omega

/-- The output array after the region: the message array of the input arrays as the region found them. -/
theorem finalm2 (c : Dev nD) : (dat2 V c).arrAt 7 cfg2.N
    = Gmsg2 (V c main_v67) (V c main_v74) (V c main_v29) (V c main_v77) (V c main_v83) (V c main_v80) (V c main_v86) :=
  (dat2 V c).arrAt_eq_of_cover 7 _ (fun t _ => flushedm2_eq V c t) (cover_blkm2)

end Cert.KernelIdeal.Hand

end
-- ==== Proof.IdealMsgValue4.lean ====
import proofs.«110276_j52862457479750_1_alg».proof.Proof.IdealRegion4
import proofs.«110276_j52862457479750_1_alg».proof.Proof.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! # Region 4's output array at the exact instance: the message of every edge

  The grid's hundred points each take 10000 whole rows (edges). The output entry at edge `e`, feature `q` reads row `e`
  of the two gathered feature arrays and of the normalisation column, and the whole of the two weight matrices and bias
  rows, which every point sees at the same block. -/

theorem hzm4 : (![0, 0] : Fin 2 → Nat) = fun _ => 0 := funext fun a => by fin_cases a <;> rfl

/-- The message at edge `e`, feature `q`: the edge's normalisation times
    (Σₖ xc(e,k)·W1ᵀ(k,q) + b1(q)) + Σₖ (xr(e,k)·xc(e,k))·W2ᵀ(k,q) + b2(q), in that grouping. -/
def msgE4 (XR XC : S1000000x64.Idx → EReal) (N1 : S1000000x1.Idx → EReal) (W1T : S64x64.Idx → EReal) (B1 : S1x64.Idx → EReal)
    (W2T : S64x64.Idx → EReal) (B2 : S1x64.Idx → EReal) (e : Fin 1000000) (q : Fin 64) : EReal :=
  N1 (ix2 e 0) * ((((∑ k : Fin 64, XC (ix2 e k) * W1T (ix2 k q)) + B1 (ix2 0 q)) + ∑ k : Fin 64, (XR (ix2 e k) * XC (ix2 e k)) * W2T (ix2 k q)) + B2 (ix2 0 q))

/-- The whole message array as a function of the region's seven input arrays. -/
def Gmsg4 (XR XC : S1000000x64.Idx → EReal) (N1 : S1000000x1.Idx → EReal) (W1T : S64x64.Idx → EReal) (B1 : S1x64.Idx → EReal)
    (W2T : S64x64.Idx → EReal) (B2 : S1x64.Idx → EReal) : S1000000x64.Idx → EReal :=
  fun i => msgE4 XR XC N1 W1T B1 W2T B2 (i 0) (i 1)

/-- The body's stored value at row `p`, feature `q` of a block is the message at edge `e`, feature `q'` of the arrays, as soon as
    the blocks' entries that the formula reads are the arrays' entries at `e` and `q'`. -/
theorem pay_at4 (x0 x1 : Vec Ideal S10000x64 .f32) (x2 : Vec Ideal S10000x1 .f32) (x3 : Vec Ideal S64x64 .f32) (x4 : Vec Ideal S1x64 .f32)
    (x5 : Vec Ideal S64x64 .f32) (x6 : Vec Ideal S1x64 .f32)
    (XR XC : S1000000x64.Idx → EReal) (N1 : S1000000x1.Idx → EReal) (W1T : S64x64.Idx → EReal) (B1 : S1x64.Idx → EReal)
    (W2T : S64x64.Idx → EReal) (B2 : S1x64.Idx → EReal) (e : Fin 1000000) (q' : Fin 64) (p : Fin 10000) (q : Fin 64)
    (hXR : ∀ k : Fin 64, x0 (ix2 p k) = XR (ix2 e k)) (hXC : ∀ k : Fin 64, x1 (ix2 p k) = XC (ix2 e k)) (hN : x2 (ix2 p 0) = N1 (ix2 e 0))
    (hW1 : ∀ k : Fin 64, x3 (ix2 k q) = W1T (ix2 k q')) (hB1 : x4 (ix2 0 q) = B1 (ix2 0 q'))
    (hW2 : ∀ k : Fin 64, x5 (ix2 k q) = W2T (ix2 k q')) (hB2 : x6 (ix2 0 q) = B2 (ix2 0 q')) :
    k4_pay1 (F := Ideal) x0 x1 x3 x5 x2 x4 x6 (ix2 p q) = msgE4 XR XC N1 W1T B1 W2T B2 e q' := by
  rw [Cert.Bridge.pay_msg4 x0 x1 x3 x5 x2 x4 x6 p q]
  unfold msgE4
  simp only [hXR, hXC, hN, hW1, hB1, hW2, hB2]

variable (V : (c : Dev nD) → (b : Ref sig .tc) → Buf (Elt Ideal) ((c : Thread nD τ).loc b))

/-- The index maps, decided over the grid: the two feature windows and the normalisation window sit at the output's row block and
    at feature block 0; the weights and biases at block (0, 0); the output's row block runs over 0 … 99. -/
theorem idx_factsm4 : ∀ t : Fin cfg4.N,
    win4_0.index t (0 : Fin 2) = win4_7.index t (0 : Fin 2) ∧ win4_0.index t (1 : Fin 2) = 0
    ∧ win4_1.index t (0 : Fin 2) = win4_7.index t (0 : Fin 2) ∧ win4_1.index t (1 : Fin 2) = 0
    ∧ win4_2.index t (0 : Fin 2) = win4_7.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) ≤ 99 ∧ win4_7.index t (1 : Fin 2) = 0 :=
  (by decide +kernel : ∀ t : Fin grid4.N, _)

/-- Every block of the output array is some point's. -/
theorem idx_ontom4 : ∀ (q0 : Fin 100) (q1 : Fin 1), ∃ t : Fin cfg4.N, win4_7.index t = ![q0.val + 0, q1.val + 0] :=
  (by decide +kernel : ∀ (q0 : Fin 100) (q1 : Fin 1), ∃ t : Fin grid4.N, win4_7.index t = ![q0.val + 0, q1.val + 0])

/-! Each block entry the formula reads is the array's entry at the output entry's edge (or at the whole weight / bias block). -/

theorem rdXR4 (c : Dev nD) (t : Fin cfg4.N) (p : Fin 10000) (q : Fin 64) (k : Fin 64) :
    iblk4 V c 0 t (ix2 p k) = V c main_v98 (ix2 ((((cfg4.win 7).blk t).view.emb (ix2 p q)) 0) k) := by
  obtain ⟨e00, e01, e10, e11, e20, e21, e30, e31, e40, e41, e50, e51, e60, e61, e70, e71⟩ := idx_factsm4 t
  have hp : p.val < 10000 := p.isLt
  have hq : q.val < 64 := q.isLt
  show V c main_v98 (((cfg4.win 0).blk t).view.emb (ix2 p k)) = _
  refine congrArg (V c main_v98) (funext fun a => Fin.ext ?_)
  match a with
  | ⟨0, _⟩ => show win4_0.index t (0 : Fin 2) * 10000 + 1 * p.val = win4_7.index t (0 : Fin 2) * 10000 + 1 * p.val; omega
  | ⟨1, _⟩ => show win4_0.index t (1 : Fin 2) * 64 + 1 * k.val = k.val; omega

theorem rdXC4 (c : Dev nD) (t : Fin cfg4.N) (p : Fin 10000) (q : Fin 64) (k : Fin 64) :
    iblk4 V c 1 t (ix2 p k) = V c main_v105 (ix2 ((((cfg4.win 7).blk t).view.emb (ix2 p q)) 0) k) := by
  obtain ⟨e00, e01, e10, e11, e20, e21, e30, e31, e40, e41, e50, e51, e60, e61, e70, e71⟩ := idx_factsm4 t
  have hp : p.val < 10000 := p.isLt
  have hq : q.val < 64 := q.isLt
  show V c main_v105 (((cfg4.win 1).blk t).view.emb (ix2 p k)) = _
  refine congrArg (V c main_v105) (funext fun a => Fin.ext ?_)
  match a with
  | ⟨0, _⟩ => show win4_1.index t (0 : Fin 2) * 10000 + 1 * p.val = win4_7.index t (0 : Fin 2) * 10000 + 1 * p.val; omega
  | ⟨1, _⟩ => show win4_1.index t (1 : Fin 2) * 64 + 1 * k.val = k.val; omega

theorem rdN4 (c : Dev nD) (t : Fin cfg4.N) (p : Fin 10000) (q : Fin 64)  :
    iblk4 V c 2 t (ix2 p 0) = V c main_v29 (ix2 ((((cfg4.win 7).blk t).view.emb (ix2 p q)) 0) 0) := by
  obtain ⟨e00, e01, e10, e11, e20, e21, e30, e31, e40, e41, e50, e51, e60, e61, e70, e71⟩ := idx_factsm4 t
  have hp : p.val < 10000 := p.isLt
  have hq : q.val < 64 := q.isLt
  show V c main_v29 (((cfg4.win 2).blk t).view.emb (ix2 p 0)) = _
  refine congrArg (V c main_v29) (funext fun a => Fin.ext ?_)
  match a with
  | ⟨0, _⟩ => show win4_2.index t (0 : Fin 2) * 10000 + 1 * p.val = win4_7.index t (0 : Fin 2) * 10000 + 1 * p.val; omega
  | ⟨1, _⟩ => show win4_2.index t (1 : Fin 2) * 1 + 1 * 0 = 0; omega

theorem rdW14 (c : Dev nD) (t : Fin cfg4.N) (p : Fin 10000) (q : Fin 64) (k : Fin 64) :
    iblk4 V c 3 t (ix2 k q) = V c main_v108 (ix2 k ((((cfg4.win 7).blk t).view.emb (ix2 p q)) 1)) := by
  obtain ⟨e00, e01, e10, e11, e20, e21, e30, e31, e40, e41, e50, e51, e60, e61, e70, e71⟩ := idx_factsm4 t
  have hp : p.val < 10000 := p.isLt
  have hq : q.val < 64 := q.isLt
  show V c main_v108 (((cfg4.win 3).blk t).view.emb (ix2 k q)) = _
  refine congrArg (V c main_v108) (funext fun a => Fin.ext ?_)
  match a with
  | ⟨0, _⟩ => show win4_3.index t (0 : Fin 2) * 64 + 1 * k.val = k.val; omega
  | ⟨1, _⟩ => show win4_3.index t (1 : Fin 2) * 64 + 1 * q.val = win4_7.index t (1 : Fin 2) * 64 + 1 * q.val; omega

theorem rdB14 (c : Dev nD) (t : Fin cfg4.N) (p : Fin 10000) (q : Fin 64)  :
    iblk4 V c 4 t (ix2 0 q) = V c main_v114 (ix2 0 ((((cfg4.win 7).blk t).view.emb (ix2 p q)) 1)) := by
  obtain ⟨e00, e01, e10, e11, e20, e21, e30, e31, e40, e41, e50, e51, e60, e61, e70, e71⟩ := idx_factsm4 t
  have hp : p.val < 10000 := p.isLt
  have hq : q.val < 64 := q.isLt
  show V c main_v114 (((cfg4.win 4).blk t).view.emb (ix2 0 q)) = _
  refine congrArg (V c main_v114) (funext fun a => Fin.ext ?_)
  match a with
  | ⟨0, _⟩ => show win4_4.index t (0 : Fin 2) * 1 + 1 * 0 = 0; omega
  | ⟨1, _⟩ => show win4_4.index t (1 : Fin 2) * 64 + 1 * q.val = win4_7.index t (1 : Fin 2) * 64 + 1 * q.val; omega

theorem rdW24 (c : Dev nD) (t : Fin cfg4.N) (p : Fin 10000) (q : Fin 64) (k : Fin 64) :
    iblk4 V c 5 t (ix2 k q) = V c main_v111 (ix2 k ((((cfg4.win 7).blk t).view.emb (ix2 p q)) 1)) := by
  obtain ⟨e00, e01, e10, e11, e20, e21, e30, e31, e40, e41, e50, e51, e60, e61, e70, e71⟩ := idx_factsm4 t
  have hp : p.val < 10000 := p.isLt
  have hq : q.val < 64 := q.isLt
  show V c main_v111 (((cfg4.win 5).blk t).view.emb (ix2 k q)) = _
  refine congrArg (V c main_v111) (funext fun a => Fin.ext ?_)
  match a with
  | ⟨0, _⟩ => show win4_5.index t (0 : Fin 2) * 64 + 1 * k.val = k.val; omega
  | ⟨1, _⟩ => show win4_5.index t (1 : Fin 2) * 64 + 1 * q.val = win4_7.index t (1 : Fin 2) * 64 + 1 * q.val; omega

theorem rdB24 (c : Dev nD) (t : Fin cfg4.N) (p : Fin 10000) (q : Fin 64)  :
    iblk4 V c 6 t (ix2 0 q) = V c main_v117 (ix2 0 ((((cfg4.win 7).blk t).view.emb (ix2 p q)) 1)) := by
  obtain ⟨e00, e01, e10, e11, e20, e21, e30, e31, e40, e41, e50, e51, e60, e61, e70, e71⟩ := idx_factsm4 t
  have hp : p.val < 10000 := p.isLt
  have hq : q.val < 64 := q.isLt
  show V c main_v117 (((cfg4.win 6).blk t).view.emb (ix2 0 q)) = _
  refine congrArg (V c main_v117) (funext fun a => Fin.ext ?_)
  match a with
  | ⟨0, _⟩ => show win4_6.index t (0 : Fin 2) * 1 + 1 * 0 = 0; omega
  | ⟨1, _⟩ => show win4_6.index t (1 : Fin 2) * 64 + 1 * q.val = win4_7.index t (1 : Fin 2) * 64 + 1 * q.val; omega

/-- What point `t` writes back is block `t` of the message array of the input arrays as the region finds them. -/
theorem flushedm4_eq (c : Dev nD) (t : Fin cfg4.N) :
    (dat4 V c).flushed 7 t = ((cfg4.win 7).blk t).view.read (Elt Ideal)
      (Gmsg4 (V c main_v98) (V c main_v105) (V c main_v29) (V c main_v108) (V c main_v114) (V c main_v111) (V c main_v117)) := by
  show (cfg4.win 7).cut (grid4.coords t) ((dat4 V c).after 7 t) = _
  rw [after4_7]
  unfold out4_7
  rw [View.canon_unit_zero hzm4]
  simp only [View.ld_unit_zero (S := S10000x64) hzm4, View.ld_unit_zero (S := S64x64) hzm4, View.ld_unit_zero (S := S10000x1) hzm4, View.ld_unit_zero (S := S1x64) hzm4]
  funext j
  obtain ⟨p, q, rfl⟩ : ∃ (p : Fin 10000) (q : Fin 64), j = ix2 p q := ⟨j 0, j 1, eq_ix2 j⟩
  exact pay_at4 (iblk4 V c 0 t) (iblk4 V c 1 t) (iblk4 V c 2 t) (iblk4 V c 3 t) (iblk4 V c 4 t) (iblk4 V c 5 t) (iblk4 V c 6 t)
    (V c main_v98) (V c main_v105) (V c main_v29) (V c main_v108) (V c main_v114) (V c main_v111) (V c main_v117)
    ((((cfg4.win 7).blk t).view.emb (ix2 p q)) 0) ((((cfg4.win 7).blk t).view.emb (ix2 p q)) 1) p q
    (fun k => rdXR4 V c t p q k) (fun k => rdXC4 V c t p q k) (rdN4 V c t p q)
    (fun k => rdW14 V c t p q k) (rdB14 V c t p q) (fun k => rdW24 V c t p q k) (rdB24 V c t p q)

/-- An index of the array is in point `t`'s block iff each coordinate is in the block's range on its axis. -/
theorem mem_blkm4 (t : Fin cfg4.N) (i : S1000000x64.Idx) :
    i ∈ ((cfg4.win 7).blk t).view.set ↔ ∀ a : Fin 2, win4_7.index t a * S10000x64.size a ≤ (i a).val ∧ (i a).val < win4_7.index t a * S10000x64.size a + S10000x64.size a := by
  show i ∈ ((View.whole main_v118).slice (win4_7.rect t)).set ↔ _
  rw [View.set_slice_whole, Rect.mem_set_unit]
  exact Iff.rfl

/-- The hundred blocks cover the array: edge `e` is in the block of point `e / 10000`. -/
theorem cover_blkm4 (i : S1000000x64.Idx) :
    ∃ t : Fin cfg4.N, (cfg4.win 7).flush t = true ∧ i ∈ ((cfg4.win 7).blk t).view.set := by
  have hi0 : (i 0).val < 1000000 := (i 0).isLt
  have hi1 : (i 1).val < 64 := (i 1).isLt
  obtain ⟨t, ht⟩ := idx_ontom4 ⟨(i 0).val / 10000 - 0, by omega⟩ ⟨(i 1).val / 64 - 0, by omega⟩
  have q0 : win4_7.index t (0 : Fin 2) = (i 0).val / 10000 - 0 + 0 := congrFun ht 0
  have q1 : win4_7.index t (1 : Fin 2) = (i 1).val / 64 - 0 + 0 := congrFun ht 1
  refine ⟨t, flush4_7 t, ?_⟩
  rw [mem_blkm4]
  intro a
  match a with
  | ⟨0, _⟩ => show win4_7.index t (0 : Fin 2) * 10000 ≤ (i 0).val ∧ (i 0).val < win4_7.index t (0 : Fin 2) * 10000 + 10000; omega
  | ⟨1, _⟩ => show win4_7.index t (1 : Fin 2) * 64 ≤ (i 1).val ∧ (i 1).val < win4_7.index t (1 : Fin 2) * 64 + 64; omega

/-- The output array after the region: the message array of the input arrays as the region found them. -/
theorem finalm4 (c : Dev nD) : (dat4 V c).arrAt 7 cfg4.N
    = Gmsg4 (V c main_v98) (V c main_v105) (V c main_v29) (V c main_v108) (V c main_v114) (V c main_v111) (V c main_v117) :=
  (dat4 V c).arrAt_eq_of_cover 7 _ (fun t _ => flushedm4_eq V c t) (cover_blkm4)

end Cert.KernelIdeal.Hand

end
-- ==== Proof.IdealLeakyValue1.lean ====
import proofs.«110276_j52862457479750_1_alg».proof.Proof.IdealRegion1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! # Region 1's output array: the rectifier applied entry by entry to the input array

  The grid's ten points each take 12000 whole rows; the output's block at a point is the rectified input block at the
  same rows, and the ten blocks tile the 120000 rows. -/

theorem hz1 : (![0, 0] : Fin 2 → Nat) = fun _ => 0 := funext fun a => by fin_cases a <;> rfl

/-- The rectifier on one entry: the entry itself where it is at least zero, 0.2 (as the single-precision word) times it
    otherwise. -/
def lkE1 (a : F .f32) : F .f32 :=
  Scalar.select (FloatOps.cmpf .oge a (Scalar.ofBits .f32 0x00000000#32)) a (FloatOps.mulf (Scalar.ofBits .f32 0x3E4CCCCD#32) a)

/-- The whole output array as a function of the whole input array. -/
def Glk1 (a : S120000x64.Idx → Elt F .f32) : S120000x64.Idx → Elt F .f32 := fun i => lkE1 (a i)

/-- The body's stored value is the rectifier of its loaded block, entry by entry (the body's shape cast is of a shape
    to itself). -/
theorem pay_lk1 (x : Vec F S12000x64 .f32) : k1_pay1 x = fun j => lkE1 (x j) := by
  unfold k1_pay1
  simp only [shapeCast_self]
  rfl

/-- The index maps, decided over the grid: the input's block is the output's, and the output's block index runs over 0 … 9 on
    the rows and is 0 on the features. -/
theorem idx_facts1 : ∀ t : Fin cfg1.N, win1_0.index t (0 : Fin 2) = win1_1.index t (0 : Fin 2) + 0
    ∧ win1_0.index t (1 : Fin 2) = win1_1.index t (1 : Fin 2) + 0
    ∧ 0 ≤ win1_1.index t (0 : Fin 2) ∧ win1_1.index t (0 : Fin 2) ≤ 9
    ∧ 0 ≤ win1_1.index t (1 : Fin 2) ∧ win1_1.index t (1 : Fin 2) ≤ 0 :=
  (by decide +kernel : ∀ t : Fin grid1.N, _)

/-- Every block of the array is some point's. -/
theorem idx_onto1 : ∀ (q0 : Fin 10) (q1 : Fin 1), ∃ t : Fin cfg1.N, win1_1.index t = ![q0.val + 0, q1.val + 0] :=
  (by decide +kernel : ∀ (q0 : Fin 10) (q1 : Fin 1), ∃ t : Fin grid1.N, win1_1.index t = ![q0.val + 0, q1.val + 0])

/-- What point `t` writes back is block `t` of the rectified input array. -/
theorem flushed1_eq (c : Dev nD) (t : Fin cfg1.N) :
    (dat1 V c).flushed 1 t = ((cfg1.win 1).blk t).view.read (Elt F) (Glk1 (V c main_v59)) := by
  show (cfg1.win 1).cut (grid1.coords t) ((dat1 V c).after 1 t) = _
  rw [after1_1]
  unfold out1_1
  rw [View.canon_unit_zero hz1]
  simp only [View.ld_unit_zero (S := S12000x64) hz1]
  rw [pay_lk1]
  obtain ⟨e0, e1, e2, e3, e4, e5⟩ := idx_facts1 t
  funext j
  show lkE1 (V c main_v59 (((cfg1.win 0).blk t).view.emb j)) = lkE1 (V c main_v59 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 12000 + 1 * (j 0).val = win1_1.index t (0 : Fin 2) * 12000 + 1 * (j 0).val; have hj : (j 0).val < 12000 := (j 0).isLt; omega
    | ⟨1, _⟩ => show win1_0.index t (1 : Fin 2) * 64 + 1 * (j 1).val = win1_1.index t (1 : Fin 2) * 64 + 1 * (j 1).val; have hj : (j 1).val < 64 := (j 1).isLt; omega
  rw [h0]

/-- An index of the array is in point `t`'s block iff each coordinate is in the block's range on its axis. -/
theorem mem_blk1 (t : Fin cfg1.N) (i : S120000x64.Idx) :
    i ∈ ((cfg1.win 1).blk t).view.set ↔ ∀ a : Fin 2, win1_1.index t a * S12000x64.size a ≤ (i a).val ∧ (i a).val < win1_1.index t a * S12000x64.size a + S12000x64.size a := by
  show i ∈ ((View.whole main_v60).slice (win1_1.rect t)).set ↔ _
  rw [View.set_slice_whole, Rect.mem_set_unit]
  exact Iff.rfl

/-- The ten blocks cover the array: row `r` is in the block of point `r / 12000`. -/
theorem cover_blk1 (i : S120000x64.Idx) :
    ∃ t : Fin cfg1.N, (cfg1.win 1).flush t = true ∧ i ∈ ((cfg1.win 1).blk t).view.set := by
  have hi0 : (i 0).val < 120000 := (i 0).isLt
  have hi1 : (i 1).val < 64 := (i 1).isLt
  obtain ⟨t, ht⟩ := idx_onto1 ⟨(i 0).val / 12000 - 0, by omega⟩ ⟨(i 1).val / 64 - 0, by omega⟩
  have q0 : win1_1.index t (0 : Fin 2) = (i 0).val / 12000 - 0 + 0 := congrFun ht 0
  have q1 : win1_1.index t (1 : Fin 2) = (i 1).val / 64 - 0 + 0 := congrFun ht 1
  refine ⟨t, flush1_1 t, ?_⟩
  rw [mem_blk1]
  intro a
  match a with
  | ⟨0, _⟩ => show win1_1.index t (0 : Fin 2) * 12000 ≤ (i 0).val ∧ (i 0).val < win1_1.index t (0 : Fin 2) * 12000 + 12000; omega
  | ⟨1, _⟩ => show win1_1.index t (1 : Fin 2) * 64 ≤ (i 1).val ∧ (i 1).val < win1_1.index t (1 : Fin 2) * 64 + 64; omega

/-- The output array after the region: the rectified input array as the region found it. -/
theorem final1 (c : Dev nD) : (dat1 V c).arrAt 1 cfg1.N = Glk1 (V c main_v59) :=
  (dat1 V c).arrAt_eq_of_cover 1 (Glk1 (V c main_v59)) (fun t _ => flushed1_eq V c t) (cover_blk1)

end Cert.KernelIdeal.Hand

end
-- ==== Proof.IdealLeakyValue3.lean ====
import proofs.«110276_j52862457479750_1_alg».proof.Proof.IdealRegion3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! # Region 3's output array: the rectifier applied entry by entry to the input array

  The grid's ten points each take 12000 whole rows; the output's block at a point is the rectified input block at the
  same rows, and the ten blocks tile the 120000 rows. -/

theorem hz3 : (![0, 0] : Fin 2 → Nat) = fun _ => 0 := funext fun a => by fin_cases a <;> rfl

/-- The rectifier on one entry: the entry itself where it is at least zero, 0.2 (as the single-precision word) times it
    otherwise. -/
def lkE3 (a : F .f32) : F .f32 :=
  Scalar.select (FloatOps.cmpf .oge a (Scalar.ofBits .f32 0x00000000#32)) a (FloatOps.mulf (Scalar.ofBits .f32 0x3E4CCCCD#32) a)

/-- The whole output array as a function of the whole input array. -/
def Glk3 (a : S120000x64.Idx → Elt F .f32) : S120000x64.Idx → Elt F .f32 := fun i => lkE3 (a i)

/-- The body's stored value is the rectifier of its loaded block, entry by entry (the body's shape cast is of a shape
    to itself). -/
theorem pay_lk3 (x : Vec F S12000x64 .f32) : k3_pay1 x = fun j => lkE3 (x j) := by
  unfold k3_pay1
  simp only [shapeCast_self]
  rfl

/-- The index maps, decided over the grid: the input's block is the output's, and the output's block index runs over 0 … 9 on
    the rows and is 0 on the features. -/
theorem idx_facts3 : ∀ t : Fin cfg3.N, win3_0.index t (0 : Fin 2) = win3_1.index t (0 : Fin 2) + 0
    ∧ win3_0.index t (1 : Fin 2) = win3_1.index t (1 : Fin 2) + 0
    ∧ 0 ≤ win3_1.index t (0 : Fin 2) ∧ win3_1.index t (0 : Fin 2) ≤ 9
    ∧ 0 ≤ win3_1.index t (1 : Fin 2) ∧ win3_1.index t (1 : Fin 2) ≤ 0 :=
  (by decide +kernel : ∀ t : Fin grid3.N, _)

/-- Every block of the array is some point's. -/
theorem idx_onto3 : ∀ (q0 : Fin 10) (q1 : Fin 1), ∃ t : Fin cfg3.N, win3_1.index t = ![q0.val + 0, q1.val + 0] :=
  (by decide +kernel : ∀ (q0 : Fin 10) (q1 : Fin 1), ∃ t : Fin grid3.N, win3_1.index t = ![q0.val + 0, q1.val + 0])

/-- What point `t` writes back is block `t` of the rectified input array. -/
theorem flushed3_eq (c : Dev nD) (t : Fin cfg3.N) :
    (dat3 V c).flushed 1 t = ((cfg3.win 1).blk t).view.read (Elt F) (Glk3 (V c main_v90)) := by
  show (cfg3.win 1).cut (grid3.coords t) ((dat3 V c).after 1 t) = _
  rw [after3_1]
  unfold out3_1
  rw [View.canon_unit_zero hz3]
  simp only [View.ld_unit_zero (S := S12000x64) hz3]
  rw [pay_lk3]
  obtain ⟨e0, e1, e2, e3, e4, e5⟩ := idx_facts3 t
  funext j
  show lkE3 (V c main_v90 (((cfg3.win 0).blk t).view.emb j)) = lkE3 (V c main_v90 (((cfg3.win 1).blk t).view.emb j))
  have h0 : ((cfg3.win 0).blk t).view.emb j = ((cfg3.win 1).blk t).view.emb j := by
    funext a; apply Fin.ext
    match a with
    | ⟨0, _⟩ => show win3_0.index t (0 : Fin 2) * 12000 + 1 * (j 0).val = win3_1.index t (0 : Fin 2) * 12000 + 1 * (j 0).val; have hj : (j 0).val < 12000 := (j 0).isLt; omega
    | ⟨1, _⟩ => show win3_0.index t (1 : Fin 2) * 64 + 1 * (j 1).val = win3_1.index t (1 : Fin 2) * 64 + 1 * (j 1).val; have hj : (j 1).val < 64 := (j 1).isLt; omega
  rw [h0]

/-- An index of the array is in point `t`'s block iff each coordinate is in the block's range on its axis. -/
theorem mem_blk3 (t : Fin cfg3.N) (i : S120000x64.Idx) :
    i ∈ ((cfg3.win 1).blk t).view.set ↔ ∀ a : Fin 2, win3_1.index t a * S12000x64.size a ≤ (i a).val ∧ (i a).val < win3_1.index t a * S12000x64.size a + S12000x64.size a := by
  show i ∈ ((View.whole main_v91).slice (win3_1.rect t)).set ↔ _
  rw [View.set_slice_whole, Rect.mem_set_unit]
  exact Iff.rfl

/-- The ten blocks cover the array: row `r` is in the block of point `r / 12000`. -/
theorem cover_blk3 (i : S120000x64.Idx) :
    ∃ t : Fin cfg3.N, (cfg3.win 1).flush t = true ∧ i ∈ ((cfg3.win 1).blk t).view.set := by
  have hi0 : (i 0).val < 120000 := (i 0).isLt
  have hi1 : (i 1).val < 64 := (i 1).isLt
  obtain ⟨t, ht⟩ := idx_onto3 ⟨(i 0).val / 12000 - 0, by omega⟩ ⟨(i 1).val / 64 - 0, by omega⟩
  have q0 : win3_1.index t (0 : Fin 2) = (i 0).val / 12000 - 0 + 0 := congrFun ht 0
  have q1 : win3_1.index t (1 : Fin 2) = (i 1).val / 64 - 0 + 0 := congrFun ht 1
  refine ⟨t, flush3_1 t, ?_⟩
  rw [mem_blk3]
  intro a
  match a with
  | ⟨0, _⟩ => show win3_1.index t (0 : Fin 2) * 12000 ≤ (i 0).val ∧ (i 0).val < win3_1.index t (0 : Fin 2) * 12000 + 12000; omega
  | ⟨1, _⟩ => show win3_1.index t (1 : Fin 2) * 64 ≤ (i 1).val ∧ (i 1).val < win3_1.index t (1 : Fin 2) * 64 + 64; omega

/-- The output array after the region: the rectified input array as the region found it. -/
theorem final3 (c : Dev nD) : (dat3 V c).arrAt 1 cfg3.N = Glk3 (V c main_v90) :=
  (dat3 V c).arrAt_eq_of_cover 1 (Glk3 (V c main_v90)) (fun t _ => flushed3_eq V c t) (cover_blk3)

end Cert.KernelIdeal.Hand

end
-- ==== Proof.IdealLeakyValue5.lean ====
import proofs.«110276_j52862457479750_1_alg».proof.Proof.IdealRegion5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! # Region 5's output array: the rectifier applied entry by entry to the input array

  The grid's ten points each take 12000 whole rows; the output's block at a point is the rectified input block at the
  same rows, and the ten blocks tile the 120000 rows. -/

theorem hz5 : (![0, 0] : Fin 2 → Nat) = fun _ => 0 := funext fun a => by fin_cases a <;> rfl

/-- The rectifier on one entry: the entry itself where it is at least zero, 0.2 (as the single-precision word) times it
    otherwise. -/
def lkE5 (a : F .f32) : F .f32 :=
  Scalar.select (FloatOps.cmpf .oge a (Scalar.ofBits .f32 0x00000000#32)) a (FloatOps.mulf (Scalar.ofBits .f32 0x3E4CCCCD#32) a)

/-- The whole output array as a function of the whole input array. -/
def Glk5 (a : S120000x64.Idx → Elt F .f32) : S120000x64.Idx → Elt F .f32 := fun i => lkE5 (a i)

/-- The body's stored value is the rectifier of its loaded block, entry by entry (the body's shape cast is of a shape
    to itself). -/
theorem pay_lk5 (x : Vec F S12000x64 .f32) : k5_pay1 x = fun j => lkE5 (x j) := by
  unfold k5_pay1
  simp only [shapeCast_self]
  rfl

/-- The index maps, decided over the grid: the input's block is the output's, and the output's block index runs over 0 … 9 on
    the rows and is 0 on the features. -/
theorem idx_facts5 : ∀ t : Fin cfg5.N, win5_0.index t (0 : Fin 2) = win5_1.index t (0 : Fin 2) + 0
    ∧ win5_0.index t (1 : Fin 2) = win5_1.index t (1 : Fin 2) + 0
    ∧ 0 ≤ win5_1.index t (0 : Fin 2) ∧ win5_1.index t (0 : Fin 2) ≤ 9
    ∧ 0 ≤ win5_1.index t (1 : Fin 2) ∧ win5_1.index t (1 : Fin 2) ≤ 0 :=
  (by decide +kernel : ∀ t : Fin grid5.N, _)

/-- Every block of the array is some point's. -/
theorem idx_onto5 : ∀ (q0 : Fin 10) (q1 : Fin 1), ∃ t : Fin cfg5.N, win5_1.index t = ![q0.val + 0, q1.val + 0] :=
  (by decide +kernel : ∀ (q0 : Fin 10) (q1 : Fin 1), ∃ t : Fin grid5.N, win5_1.index t = ![q0.val + 0, q1.val + 0])

/-- What point `t` writes back is block `t` of the rectified input array. -/
theorem flushed5_eq (c : Dev nD) (t : Fin cfg5.N) :
    (dat5 V c).flushed 1 t = ((cfg5.win 1).blk t).view.read (Elt F) (Glk5 (V c main_v121)) := by
  show (cfg5.win 1).cut (grid5.coords t) ((dat5 V c).after 1 t) = _
  rw [after5_1]
  unfold out5_1
  rw [View.canon_unit_zero hz5]
  simp only [View.ld_unit_zero (S := S12000x64) hz5]
  rw [pay_lk5]
  obtain ⟨e0, e1, e2, e3, e4, e5⟩ := idx_facts5 t
  funext j
  show lkE5 (V c main_v121 (((cfg5.win 0).blk t).view.emb j)) = lkE5 (V c main_v121 (((cfg5.win 1).blk t).view.emb j))
  have h0 : ((cfg5.win 0).blk t).view.emb j = ((cfg5.win 1).blk t).view.emb j := by
    funext a; apply Fin.ext
    match a with
    | ⟨0, _⟩ => show win5_0.index t (0 : Fin 2) * 12000 + 1 * (j 0).val = win5_1.index t (0 : Fin 2) * 12000 + 1 * (j 0).val; have hj : (j 0).val < 12000 := (j 0).isLt; omega
    | ⟨1, _⟩ => show win5_0.index t (1 : Fin 2) * 64 + 1 * (j 1).val = win5_1.index t (1 : Fin 2) * 64 + 1 * (j 1).val; have hj : (j 1).val < 64 := (j 1).isLt; omega
  rw [h0]

/-- An index of the array is in point `t`'s block iff each coordinate is in the block's range on its axis. -/
theorem mem_blk5 (t : Fin cfg5.N) (i : S120000x64.Idx) :
    i ∈ ((cfg5.win 1).blk t).view.set ↔ ∀ a : Fin 2, win5_1.index t a * S12000x64.size a ≤ (i a).val ∧ (i a).val < win5_1.index t a * S12000x64.size a + S12000x64.size a := by
  show i ∈ ((View.whole main_v122).slice (win5_1.rect t)).set ↔ _
  rw [View.set_slice_whole, Rect.mem_set_unit]
  exact Iff.rfl

/-- The ten blocks cover the array: row `r` is in the block of point `r / 12000`. -/
theorem cover_blk5 (i : S120000x64.Idx) :
    ∃ t : Fin cfg5.N, (cfg5.win 1).flush t = true ∧ i ∈ ((cfg5.win 1).blk t).view.set := by
  have hi0 : (i 0).val < 120000 := (i 0).isLt
  have hi1 : (i 1).val < 64 := (i 1).isLt
  obtain ⟨t, ht⟩ := idx_onto5 ⟨(i 0).val / 12000 - 0, by omega⟩ ⟨(i 1).val / 64 - 0, by omega⟩
  have q0 : win5_1.index t (0 : Fin 2) = (i 0).val / 12000 - 0 + 0 := congrFun ht 0
  have q1 : win5_1.index t (1 : Fin 2) = (i 1).val / 64 - 0 + 0 := congrFun ht 1
  refine ⟨t, flush5_1 t, ?_⟩
  rw [mem_blk5]
  intro a
  match a with
  | ⟨0, _⟩ => show win5_1.index t (0 : Fin 2) * 12000 ≤ (i 0).val ∧ (i 0).val < win5_1.index t (0 : Fin 2) * 12000 + 12000; omega
  | ⟨1, _⟩ => show win5_1.index t (1 : Fin 2) * 64 ≤ (i 1).val ∧ (i 1).val < win5_1.index t (1 : Fin 2) * 64 + 64; omega

/-- The output array after the region: the rectified input array as the region found it. -/
theorem final5 (c : Dev nD) : (dat5 V c).arrAt 1 cfg5.N = Glk5 (V c main_v121) :=
  (dat5 V c).arrAt_eq_of_cover 1 (Glk5 (V c main_v121)) (fun t _ => flushed5_eq V c t) (cover_blk5)

end Cert.KernelIdeal.Hand

end
-- ==== Proof.IdealFold.lean ====
import proofs.«110276_j52862457479750_1_alg».proof.Proof.IdealRun
import proofs.«110276_j52862457479750_1_alg».proof.Proof.IdealKeep
import proofs.«110276_j52862457479750_1_alg».proof.Proof.HostEval
import proofs.«110276_j52862457479750_1_alg».proof.Proof.IdealMsgValue0
import proofs.«110276_j52862457479750_1_alg».proof.Proof.IdealMsgValue2
import proofs.«110276_j52862457479750_1_alg».proof.Proof.IdealMsgValue4
import proofs.«110276_j52862457479750_1_alg».proof.Proof.IdealLeakyValue1
import proofs.«110276_j52862457479750_1_alg».proof.Proof.IdealLeakyValue3
import proofs.«110276_j52862457479750_1_alg».proof.Proof.IdealLeakyValue5

set_option maxRecDepth 16384

noncomputable section

namespace Cert.KernelIdeal.Hand

open Cert.KernelIdeal Cert.KernelIdeal.Gen Cert.KernelIdeal.HostEval
open Idealize.ShloMosaic Idealize.ShloMosaic.TcCoe Idealize.SL.Sem

/-! # The kernel program's result at the exact instance, as three nested layers

  The run's buffer contents (IdealRun's `WJ`) are followed from the launch to the return: each host stretch by what its
  operations compute from the buffers it reads, each region by its output array as a function of its input arrays. -/

/-- The inverse square root of the in-degree where the degree is positive, zero elsewhere. -/
def kDinv (a0 : IVec S2x1000000 32) : FVec Ideal S120000 .f32 :=
  select (kDegPos (F := Ideal) a0) (kRsqrtDeg (F := Ideal) a0) (broadcastInDim S120000 ![] bcast_S_S120000 (kZeroScalar (F := Ideal)))

/-- Layer 1 as the kernel program computes it from the node features `x`: gather both endpoints, form every edge's message
    (region 0), add the messages up per node, rectify (region 1). -/
def kLayer0 (a0 : IVec S2x1000000 32) (a2 : FVec Ideal S3x64x64 .f32) (a3 : FVec Ideal S3x64 .f32) (a4 : FVec Ideal S3x64x64 .f32) (a5 : FVec Ideal S3x64 .f32)
    (x : FVec Ideal S120000x64 .f32) : FVec Ideal S120000x64 .f32 :=
  Glk1 (F := Ideal) (kAgg (F := Ideal) (kRow a0) (Gmsg0 (kGather (F := Ideal) x (kRow a0)) (kGather (F := Ideal) x (kCol a0)) (kNorm (F := Ideal) (kDinv a0) (kRow a0) (kCol a0))
    (kW0 (F := Ideal) a2) (kB0 (F := Ideal) a3) (kW0 (F := Ideal) a4) (kB0 (F := Ideal) a5)))

/-- Layer 2 as the kernel program computes it from the node features `x`: gather both endpoints, form every edge's message
    (region 2), add the messages up per node, rectify (region 3). -/
def kLayer1 (a0 : IVec S2x1000000 32) (a2 : FVec Ideal S3x64x64 .f32) (a3 : FVec Ideal S3x64 .f32) (a4 : FVec Ideal S3x64x64 .f32) (a5 : FVec Ideal S3x64 .f32)
    (x : FVec Ideal S120000x64 .f32) : FVec Ideal S120000x64 .f32 :=
  Glk3 (F := Ideal) (kAgg (F := Ideal) (kRow a0) (Gmsg2 (kGather (F := Ideal) x (kRow a0)) (kGather (F := Ideal) x (kCol a0)) (kNorm (F := Ideal) (kDinv a0) (kRow a0) (kCol a0))
    (kW1 (F := Ideal) a2) (kB1 (F := Ideal) a3) (kW1 (F := Ideal) a4) (kB1 (F := Ideal) a5)))

/-- Layer 3 as the kernel program computes it from the node features `x`: gather both endpoints, form every edge's message
    (region 4), add the messages up per node, rectify (region 5). -/
def kLayer2 (a0 : IVec S2x1000000 32) (a2 : FVec Ideal S3x64x64 .f32) (a3 : FVec Ideal S3x64 .f32) (a4 : FVec Ideal S3x64x64 .f32) (a5 : FVec Ideal S3x64 .f32)
    (x : FVec Ideal S120000x64 .f32) : FVec Ideal S120000x64 .f32 :=
  Glk5 (F := Ideal) (kAgg (F := Ideal) (kRow a0) (Gmsg4 (kGather (F := Ideal) x (kRow a0)) (kGather (F := Ideal) x (kCol a0)) (kNorm (F := Ideal) (kDinv a0) (kRow a0) (kCol a0))
    (kW2 (F := Ideal) a2) (kB2 (F := Ideal) a3) (kW2 (F := Ideal) a4) (kB2 (F := Ideal) a5)))

variable (m : (ℓ : Loc nD τ sig) → Buf (Elt Ideal) ℓ) (ρ : Dev nD → PrngReg) (c : Dev nD)

/-! ## The index vectors and the normalisation, after the first two stretches -/

theorem at_row : W1 m ρ c (Proc.devRef .tc main_v1) = kRow (m ((c : Thread nD τ).loc main_arg0)) := hostOps0_v1 (W0 m ρ c)
theorem at_col : W1 m ρ c (Proc.devRef .tc main_v3) = kCol (m ((c : Thread nD τ).loc main_arg0)) := hostOps0_v3 (W0 m ρ c)
theorem at_dinv : W2 m ρ c (Proc.devRef .tc main_v13) = kDinv (m ((c : Thread nD τ).loc main_arg0)) := by
  refine (hostOps0_1_v13 (W1 m ρ c)).trans ?_
  rw [show W1 m ρ c (Proc.devRef .tc main_v9) = kDegPos (F := Ideal) (m ((c : Thread nD τ).loc main_arg0)) from hostOps0_v9 (W0 m ρ c),
    show W1 m ρ c (Proc.devRef .tc main_v12) = kRsqrtDeg (F := Ideal) (m ((c : Thread nD τ).loc main_arg0)) from hostOps0_v12 (W0 m ρ c),
    show W1 m ρ c (Proc.devRef .tc main_cst_3) = kZeroScalar (F := Ideal) from hostOps0_cst_3 (W0 m ρ c)]
  try rfl

/-! ## Layer 1: region 0's inputs, its messages, their sums per node, region 1's output -/

theorem in0_xr : U3 m ρ c main_v36 = kGather (F := Ideal) (m ((c : Thread nD τ).loc main_arg1)) (kRow (m ((c : Thread nD τ).loc main_arg0))) := by
  refine (hostOps0_2_v36 (W2 m ρ c)).trans ?_
  rw [W2_main_arg1_from0 m ρ c, W2_main_v1_from1 m ρ c, at_row m ρ c]
  try rfl
theorem in0_xc : U3 m ρ c main_v43 = kGather (F := Ideal) (m ((c : Thread nD τ).loc main_arg1)) (kCol (m ((c : Thread nD τ).loc main_arg0))) := by
  refine (hostOps0_2_v43 (W2 m ρ c)).trans ?_
  rw [W2_main_arg1_from0 m ρ c, W2_main_v3_from1 m ρ c, at_col m ρ c]
  try rfl
theorem in0_n : U3 m ρ c main_v29 = kNorm (F := Ideal) (kDinv (m ((c : Thread nD τ).loc main_arg0))) (kRow (m ((c : Thread nD τ).loc main_arg0))) (kCol (m ((c : Thread nD τ).loc main_arg0))) := by
  refine (hostOps0_2_v29 (W2 m ρ c)).trans ?_
  rw [at_dinv m ρ c, W2_main_v1_from1 m ρ c, W2_main_v3_from1 m ρ c, at_row m ρ c, at_col m ρ c]
theorem in0_w1 : U3 m ρ c main_v46 = kW0 (F := Ideal) (m ((c : Thread nD τ).loc main_arg2)) := by
  refine (hostOps0_2_v46 (W2 m ρ c)).trans ?_
  rw [W2_main_arg2_from0 m ρ c]
  try rfl
theorem in0_b1 : U3 m ρ c main_v52 = kB0 (F := Ideal) (m ((c : Thread nD τ).loc main_arg3)) := by
  refine (hostOps0_2_v52 (W2 m ρ c)).trans ?_
  rw [W2_main_arg3_from0 m ρ c]
  try rfl
theorem in0_w2 : U3 m ρ c main_v49 = kW0 (F := Ideal) (m ((c : Thread nD τ).loc main_arg4)) := by
  refine (hostOps0_2_v49 (W2 m ρ c)).trans ?_
  rw [W2_main_arg4_from0 m ρ c]
  try rfl
theorem in0_b2 : U3 m ρ c main_v55 = kB0 (F := Ideal) (m ((c : Thread nD τ).loc main_arg5)) := by
  refine (hostOps0_2_v55 (W2 m ρ c)).trans ?_
  rw [W2_main_arg5_from0 m ρ c]
  try rfl

/-- What layer 1 leaves in its output array, from the features it was given. -/
theorem out_layer0 : W6 m ρ c (Proc.devRef .tc main_v60)
    = kLayer0 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1)) := by
  unfold kLayer0
  have hmsg : W4 m ρ c (Proc.devRef .tc main_v56) = Gmsg0 (U3 m ρ c main_v36) (U3 m ρ c main_v43) (U3 m ρ c main_v29) (U3 m ρ c main_v46) (U3 m ρ c main_v52) (U3 m ρ c main_v49) (U3 m ρ c main_v55) :=
    (W4_arr m ρ c 7).trans (finalm0 (U3 m ρ) c)
  have hagg : U5 m ρ c main_v59 = kAgg (F := Ideal) (kRow (m ((c : Thread nD τ).loc main_arg0))) (W4 m ρ c (Proc.devRef .tc main_v56)) := by
    refine (hostOps1_v59 (W4 m ρ c)).trans ?_
    rw [W4_main_v1_from1 m ρ c, at_row m ρ c]
  have hout : W6 m ρ c (Proc.devRef .tc main_v60) = Glk1 (F := Ideal) (U5 m ρ c main_v59) :=
    (W6_arr m ρ c 1).trans (final1 (U5 m ρ) c)
  rw [hout, hagg, hmsg, in0_xr m ρ c, in0_xc m ρ c, in0_n m ρ c, in0_w1 m ρ c, in0_b1 m ρ c, in0_w2 m ρ c, in0_b2 m ρ c]
  try rfl

/-! ## Layer 2: region 2's inputs, its messages, their sums per node, region 3's output -/

theorem in2_xr : U7 m ρ c main_v67 = kGather (F := Ideal) (W6 m ρ c (Proc.devRef .tc main_v60)) (kRow (m ((c : Thread nD τ).loc main_arg0))) := by
  refine (hostOps2_v67 (W6 m ρ c)).trans ?_
  rw [W6_main_v1_from1 m ρ c, at_row m ρ c]
theorem in2_xc : U7 m ρ c main_v74 = kGather (F := Ideal) (W6 m ρ c (Proc.devRef .tc main_v60)) (kCol (m ((c : Thread nD τ).loc main_arg0))) := by
  refine (hostOps2_v74 (W6 m ρ c)).trans ?_
  rw [W6_main_v3_from1 m ρ c, at_col m ρ c]
theorem in2_n : U7 m ρ c main_v29 = kNorm (F := Ideal) (kDinv (m ((c : Thread nD τ).loc main_arg0))) (kRow (m ((c : Thread nD τ).loc main_arg0))) (kCol (m ((c : Thread nD τ).loc main_arg0))) := (W7_main_v29_from3 m ρ c).trans (in0_n m ρ c)
theorem in2_w1 : U7 m ρ c main_v77 = kW1 (F := Ideal) (m ((c : Thread nD τ).loc main_arg2)) := by
  refine (hostOps2_v77 (W6 m ρ c)).trans ?_
  rw [W6_main_arg2_from0 m ρ c]
  try rfl
theorem in2_b1 : U7 m ρ c main_v83 = kB1 (F := Ideal) (m ((c : Thread nD τ).loc main_arg3)) := by
  refine (hostOps2_v83 (W6 m ρ c)).trans ?_
  rw [W6_main_arg3_from0 m ρ c]
  try rfl
theorem in2_w2 : U7 m ρ c main_v80 = kW1 (F := Ideal) (m ((c : Thread nD τ).loc main_arg4)) := by
  refine (hostOps2_v80 (W6 m ρ c)).trans ?_
  rw [W6_main_arg4_from0 m ρ c]
  try rfl
theorem in2_b2 : U7 m ρ c main_v86 = kB1 (F := Ideal) (m ((c : Thread nD τ).loc main_arg5)) := by
  refine (hostOps2_v86 (W6 m ρ c)).trans ?_
  rw [W6_main_arg5_from0 m ρ c]
  try rfl

/-- What layer 2 leaves in its output array, from the features it was given. -/
theorem out_layer1 : W10 m ρ c (Proc.devRef .tc main_v91)
    = kLayer1 (m ((c : Thread nD τ).loc main_arg0)) (m ((c : Thread nD τ).loc main_arg2)) (m ((c : Thread nD τ).loc main_arg3)) (m ((c : Thread nD τ).loc main_arg4)) (m ((c : Thread nD τ).loc main_arg5)) (W6 m ρ c (Proc.devRef .tc main_v60)) := by
  unfold kLayer1
  have hmsg : W8 m ρ c (Proc.devRef .tc main_v87) = Gmsg2 (U7 m ρ c main_v67) (U7 m ρ c main_v74) (U7 m ρ c main_v29) (U7 m ρ c main_v77) (U7 m ρ c main_v83) (U7 m ρ c main_v80) (U7 m ρ c main_v86) :=
    (W8_arr m ρ c 7).trans (finalm2 (U7 m ρ) c)
  have hagg : U9 m ρ c main_v90 = kAgg (F := Ideal) (kRow (m ((c : Thread nD τ).loc main_arg0))) (W8 m ρ c (Proc.devRef .tc main_v87)) := by
    refine (hostOps3_v90 (W8 m ρ c)).trans ?_
    rw [W8_main_v1_from1 m ρ c, at_row m ρ c]
  have hout : W10 m ρ c (Proc.devRef .tc main_v91) = Glk3 (F := Ideal) (U9 m ρ c main_v90) :=
    (W10_arr m ρ c 1).trans (final3 (U9 m ρ) c)
  rw [hout, hagg, hmsg, in2_xr m ρ c, in2_xc m ρ c, in2_n m ρ c, in2_w1 m ρ c, in2_b1 m ρ c, in2_w2 m ρ c, in2_b2 m ρ c]
  try rfl

/-! ## Layer 3: region 4's inputs, its messages, their sums per node, region 5's output -/

theorem in4_xr : U11 m ρ c main_v98 = kGather (F := Ideal) (W10 m ρ c (Proc.devRef .tc main_v91)) (kRow (m ((c : Thread nD τ).loc main_arg0))) := by
  refine (hostOps4_v98 (W10 m ρ c)).trans ?_
  rw [W10_main_v1_from1 m ρ c, at_row m ρ c]
theorem in4_xc : U11 m ρ c main_v105 = kGather (F := Ideal) (W10 m ρ c (Proc.devRef .tc main_v91)) (kCol (m ((c : Thread nD τ).loc main_arg0))) := by
  refine (hostOps4_v105 (W10 m ρ c)).trans ?_
  rw [W10_main_v3_from1 m ρ c, at_col m ρ c]
theorem in4_n : U11 m ρ c main_v29 = kNorm (F := Ideal) (kDinv (m ((c : Thread nD τ).loc main_arg0))) (kRow (m ((c : Thread nD τ).loc main_arg0))) (kCol (m ((c : Thread nD τ).loc main_arg0))) := (W11_main_v29_from3 m ρ c).trans (in0_n m ρ c)
theorem in4_w1 : U11 m ρ c main_v108 = kW2 (F := Ideal) (m ((c : Thread nD τ).loc main_arg2)) := by
  refine (hostOps4_v108 (W10 m ρ c)).trans ?_
  rw [W10_main_arg2_from0 m ρ c]
  try rfl
theorem in4_b1 : U11 m ρ c main_v114 = kB2 (F := Ideal) (m ((c : Thread nD τ).loc main_arg3)) := by
  refine (hostOps4_v114 (W10 m ρ c)).trans ?_
  rw [W10_main_arg3_from0 m ρ c]
  try rfl
theorem in4_w2 : U11 m ρ c main_v111 = kW2 (F := Ideal) (m ((c : Thread nD τ).loc main_arg4)) := by
  refine (hostOps4_v111 (W10 m ρ c)).trans ?_
  rw [W10_main_arg4_from0 m ρ c]
  try rfl
theorem in4_b2 : U11 m ρ c main_v117 = kB2 (F := Ideal) (m ((c : Thread nD τ).loc main_arg5)) := by
  refine (hostOps4_v117 (W10 m ρ c)).trans ?_
  rw [W10_main_arg5_from0 m ρ c]
  try rfl

/-- What layer 3 leaves in its output array, from the features it was given. -/
theorem out_layer2 : W14 m ρ c (Proc.devRef .tc main_v122)
    = kLayer2 (m ((c : Thread nD τ).loc main_arg0)) (m ((c : Thread nD τ).loc main_arg2)) (m ((c : Thread nD τ).loc main_arg3)) (m ((c : Thread nD τ).loc main_arg4)) (m ((c : Thread nD τ).loc main_arg5)) (W10 m ρ c (Proc.devRef .tc main_v91)) := by
  unfold kLayer2
  have hmsg : W12 m ρ c (Proc.devRef .tc main_v118) = Gmsg4 (U11 m ρ c main_v98) (U11 m ρ c main_v105) (U11 m ρ c main_v29) (U11 m ρ c main_v108) (U11 m ρ c main_v114) (U11 m ρ c main_v111) (U11 m ρ c main_v117) :=
    (W12_arr m ρ c 7).trans (finalm4 (U11 m ρ) c)
  have hagg : U13 m ρ c main_v121 = kAgg (F := Ideal) (kRow (m ((c : Thread nD τ).loc main_arg0))) (W12 m ρ c (Proc.devRef .tc main_v118)) := by
    refine (hostOps5_v121 (W12 m ρ c)).trans ?_
    rw [W12_main_v1_from1 m ρ c, at_row m ρ c]
  have hout : W14 m ρ c (Proc.devRef .tc main_v122) = Glk5 (F := Ideal) (U13 m ρ c main_v121) :=
    (W14_arr m ρ c 1).trans (final5 (U13 m ρ) c)
  rw [hout, hagg, hmsg, in4_xr m ρ c, in4_xc m ρ c, in4_n m ρ c, in4_w1 m ρ c, in4_b1 m ρ c, in4_w2 m ρ c, in4_b2 m ρ c]
  try rfl

/-! ## The result -/

/-- The result buffer after the run: the input features beside the three layers' outputs, each layer fed the one before. -/
theorem ker_result : W15 m ρ c (Proc.devRef .tc main_v123)
    = concatenate S120000x256 1
        [⟨S120000x64, (m ((c : Thread nD τ).loc main_arg1))⟩,
         ⟨S120000x64, kLayer0 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1))⟩,
         ⟨S120000x64, kLayer1 (m ((c : Thread nD τ).loc main_arg0)) (m ((c : Thread nD τ).loc main_arg2)) (m ((c : Thread nD τ).loc main_arg3)) (m ((c : Thread nD τ).loc main_arg4)) (m ((c : Thread nD τ).loc main_arg5))
            (kLayer0 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1)))⟩,
         ⟨S120000x64, kLayer2 (m ((c : Thread nD τ).loc main_arg0)) (m ((c : Thread nD τ).loc main_arg2)) (m ((c : Thread nD τ).loc main_arg3)) (m ((c : Thread nD τ).loc main_arg4)) (m ((c : Thread nD τ).loc main_arg5))
            (kLayer1 (m ((c : Thread nD τ).loc main_arg0)) (m ((c : Thread nD τ).loc main_arg2)) (m ((c : Thread nD τ).loc main_arg3)) (m ((c : Thread nD τ).loc main_arg4)) (m ((c : Thread nD τ).loc main_arg5))
              (kLayer0 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1))))⟩]
        concatenates_S120000x64_S120000x64_S120000x64_S120000x64_S120000x256_d1 := by
  refine (hostOps6_v123 (W14 m ρ c)).trans ?_
  rw [W14_main_arg1_from0 m ρ c, W14_main_v60_from6 m ρ c, W14_main_v91_from10 m ρ c,
    out_layer2 m ρ c, out_layer1 m ρ c, out_layer0 m ρ c]
  try rfl

end Cert.KernelIdeal.Hand

end
-- ==== Proof.IdealBridge.lean ====
import proofs.«110276_j52862457479750_1_alg».proof.Proof.IdealMsgValue0
import proofs.«110276_j52862457479750_1_alg».proof.Proof.IdealMsgValue2
import proofs.«110276_j52862457479750_1_alg».proof.Proof.IdealMsgValue4
import proofs.«110276_j52862457479750_1_alg».proof.Proof.IdealLeakyValue1
import proofs.«110276_j52862457479750_1_alg».proof.Proof.IdealLeakyValue3
import proofs.«110276_j52862457479750_1_alg».proof.Proof.IdealLeakyValue5
import proofs.«110276_j52862457479750_1_alg».proof.Proof.Algebra

noncomputable section

namespace Cert.KernelIdeal.Hand

open Cert.KernelIdeal Cert.KernelIdeal.Gen
open Idealize.ShloMosaic Idealize.ShloMosaic.TcCoe Idealize.SL.Sem Idealize.ShloMosaic.ValueIdx

/-! # The regions' arrays against the reference's whole-array operations, at the exact instance -/

/-- Region 0's message array, fed the normalisation vector as a column, the two weight matrices transposed and the two bias
    vectors as rows, is the reference's whole-array message: entry by entry both are the edge's normalisation times
    (Σₖ xc(e,k)·W1(q,k) + b1(q)) + Σₖ (xr(e,k)·xc(e,k))·W2(q,k) + b2(q), in the same grouping. -/
theorem Gmsg0_eq (XR XC : S1000000x64.Idx → EReal) (nrm : S1000000.Idx → EReal) (W1 W2 : S64x64.Idx → EReal) (b1 b2 : S64.Idx → EReal) :
    Gmsg0 XR XC (shapeCast S1000000x1 nrm Cert.KernelIdeal.Facts₀.shapeCasts_S1000000_S1000000x1)
        (transpose S64x64 [1, 0] W1 Cert.KernelIdeal.Facts₀.transposes_S64x64_S64x64_1_0) (shapeCast S1x64 b1 Cert.KernelIdeal.Facts₀.shapeCasts_S64_S1x64)
        (transpose S64x64 [1, 0] W2 Cert.KernelIdeal.Facts₀.transposes_S64x64_S64x64_1_0) (shapeCast S1x64 b2 Cert.KernelIdeal.Facts₀.shapeCasts_S64_S1x64)
      = Cert.Bridge.hostMsg XR XC nrm W1 W2 b1 b2 := by
  funext i
  obtain ⟨e, q, rfl⟩ : ∃ (e : Fin 1000000) (q : Fin 64), i = ix2 e q := ⟨i 0, i 1, eq_ix2 i⟩
  rw [Cert.Bridge.host_msg XR XC nrm W1 W2 b1 b2 e q]
  show msgE0 XR XC _ _ _ _ _ e q = _
  unfold msgE0
  have hT1 : ∀ k : Fin 64, transpose S64x64 [1, 0] W1 Cert.KernelIdeal.Facts₀.transposes_S64x64_S64x64_1_0 (ix2 k q) = W1 (ix2 q k) :=
    fun k => Cert.Bridge.transpose_weight_apply W1 k q
  have hT2 : ∀ k : Fin 64, transpose S64x64 [1, 0] W2 Cert.KernelIdeal.Facts₀.transposes_S64x64_S64x64_1_0 (ix2 k q) = W2 (ix2 q k) :=
    fun k => Cert.Bridge.transpose_weight_apply W2 k q
  simp only [Cert.Bridge.shapeCast_nrm_apply, Cert.Bridge.shapeCast_bias_apply, hT1, hT2]

/-- Region 2's message array, fed the normalisation vector as a column, the two weight matrices transposed and the two bias
    vectors as rows, is the reference's whole-array message: entry by entry both are the edge's normalisation times
    (Σₖ xc(e,k)·W1(q,k) + b1(q)) + Σₖ (xr(e,k)·xc(e,k))·W2(q,k) + b2(q), in the same grouping. -/
theorem Gmsg2_eq (XR XC : S1000000x64.Idx → EReal) (nrm : S1000000.Idx → EReal) (W1 W2 : S64x64.Idx → EReal) (b1 b2 : S64.Idx → EReal) :
    Gmsg2 XR XC (shapeCast S1000000x1 nrm Cert.KernelIdeal.Facts₀.shapeCasts_S1000000_S1000000x1)
        (transpose S64x64 [1, 0] W1 Cert.KernelIdeal.Facts₀.transposes_S64x64_S64x64_1_0) (shapeCast S1x64 b1 Cert.KernelIdeal.Facts₀.shapeCasts_S64_S1x64)
        (transpose S64x64 [1, 0] W2 Cert.KernelIdeal.Facts₀.transposes_S64x64_S64x64_1_0) (shapeCast S1x64 b2 Cert.KernelIdeal.Facts₀.shapeCasts_S64_S1x64)
      = Cert.Bridge.hostMsg XR XC nrm W1 W2 b1 b2 := by
  funext i
  obtain ⟨e, q, rfl⟩ : ∃ (e : Fin 1000000) (q : Fin 64), i = ix2 e q := ⟨i 0, i 1, eq_ix2 i⟩
  rw [Cert.Bridge.host_msg XR XC nrm W1 W2 b1 b2 e q]
  show msgE2 XR XC _ _ _ _ _ e q = _
  unfold msgE2
  have hT1 : ∀ k : Fin 64, transpose S64x64 [1, 0] W1 Cert.KernelIdeal.Facts₀.transposes_S64x64_S64x64_1_0 (ix2 k q) = W1 (ix2 q k) :=
    fun k => Cert.Bridge.transpose_weight_apply W1 k q
  have hT2 : ∀ k : Fin 64, transpose S64x64 [1, 0] W2 Cert.KernelIdeal.Facts₀.transposes_S64x64_S64x64_1_0 (ix2 k q) = W2 (ix2 q k) :=
    fun k => Cert.Bridge.transpose_weight_apply W2 k q
  simp only [Cert.Bridge.shapeCast_nrm_apply, Cert.Bridge.shapeCast_bias_apply, hT1, hT2]

/-- Region 4's message array, fed the normalisation vector as a column, the two weight matrices transposed and the two bias
    vectors as rows, is the reference's whole-array message: entry by entry both are the edge's normalisation times
    (Σₖ xc(e,k)·W1(q,k) + b1(q)) + Σₖ (xr(e,k)·xc(e,k))·W2(q,k) + b2(q), in the same grouping. -/
theorem Gmsg4_eq (XR XC : S1000000x64.Idx → EReal) (nrm : S1000000.Idx → EReal) (W1 W2 : S64x64.Idx → EReal) (b1 b2 : S64.Idx → EReal) :
    Gmsg4 XR XC (shapeCast S1000000x1 nrm Cert.KernelIdeal.Facts₀.shapeCasts_S1000000_S1000000x1)
        (transpose S64x64 [1, 0] W1 Cert.KernelIdeal.Facts₀.transposes_S64x64_S64x64_1_0) (shapeCast S1x64 b1 Cert.KernelIdeal.Facts₀.shapeCasts_S64_S1x64)
        (transpose S64x64 [1, 0] W2 Cert.KernelIdeal.Facts₀.transposes_S64x64_S64x64_1_0) (shapeCast S1x64 b2 Cert.KernelIdeal.Facts₀.shapeCasts_S64_S1x64)
      = Cert.Bridge.hostMsg XR XC nrm W1 W2 b1 b2 := by
  funext i
  obtain ⟨e, q, rfl⟩ : ∃ (e : Fin 1000000) (q : Fin 64), i = ix2 e q := ⟨i 0, i 1, eq_ix2 i⟩
  rw [Cert.Bridge.host_msg XR XC nrm W1 W2 b1 b2 e q]
  show msgE4 XR XC _ _ _ _ _ e q = _
  unfold msgE4
  have hT1 : ∀ k : Fin 64, transpose S64x64 [1, 0] W1 Cert.KernelIdeal.Facts₀.transposes_S64x64_S64x64_1_0 (ix2 k q) = W1 (ix2 q k) :=
    fun k => Cert.Bridge.transpose_weight_apply W1 k q
  have hT2 : ∀ k : Fin 64, transpose S64x64 [1, 0] W2 Cert.KernelIdeal.Facts₀.transposes_S64x64_S64x64_1_0 (ix2 k q) = W2 (ix2 q k) :=
    fun k => Cert.Bridge.transpose_weight_apply W2 k q
  simp only [Cert.Bridge.shapeCast_nrm_apply, Cert.Bridge.shapeCast_bias_apply, hT1, hT2]

/-- Region 1's rectified array is the reference's whole-array rectifier. -/
theorem Glk1_eq (a : S120000x64.Idx → EReal) : Glk1 (F := Ideal) a = Cert.Bridge.hostLeaky a := by
  funext j
  rw [Cert.Bridge.host_leaky a j]
  rfl

/-- Region 3's rectified array is the reference's whole-array rectifier. -/
theorem Glk3_eq (a : S120000x64.Idx → EReal) : Glk3 (F := Ideal) a = Cert.Bridge.hostLeaky a := by
  funext j
  rw [Cert.Bridge.host_leaky a j]
  rfl

/-- Region 5's rectified array is the reference's whole-array rectifier. -/
theorem Glk5_eq (a : S120000x64.Idx → EReal) : Glk5 (F := Ideal) a = Cert.Bridge.hostLeaky a := by
  funext j
  rw [Cert.Bridge.host_leaky a j]
  rfl

end Cert.KernelIdeal.Hand

end
-- ==== Proof.RefFold.lean ====
/-
  The reference program's result as a fold of three layers.

  The reference is a straight line of 197 host operations; what a buffer holds after them is the left fold of the
  operations' results over the launch contents. The line is cut at four points: the stretch that computes the edge
  indices and the normalisation vector, one stretch per layer, and the final concatenation. Each stretch is evaluated at
  an arbitrary valuation, so that what the earlier stretches left stays an atom; a fold over a concatenation is the fold
  of the second list over the fold of the first, and the five evaluations compose to the result:
  the concatenation along the feature axis of the input and of the three layers' outputs, each layer the rectified
  (slope 0.2) scatter-sum, by source row, of the normalised per-edge messages computed from the previous layer's output.
-/
import proofs.«110276_j52862457479750_1_alg».proof.Proof.RefRunP
import proofs.«110276_j52862457479750_1_alg».proof.Proof.LibTypedRef

noncomputable section

namespace Cert.RefFold

open Cert.ReferenceIdeal Cert.ReferenceIdeal.Gen Idealize.ShloMosaic Idealize.ShloMosaic.TcCoe Idealize.SL.Sem Idealize.ShloMosaic.StableHlo

variable {F : FTy → Type} [FloatOps F]

/-! ## The fold over a concatenation -/

/-- The fold of the operations' results over a concatenation is the fold of the second list over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A list cut at four points. -/
theorem split5 {α : Type} (l : List α) (a b c d : Nat) :
    l = l.take a ++ ((l.drop a).take b ++ ((l.drop (a + b)).take c ++ ((l.drop (a + b + c)).take d ++ l.drop (a + b + c + d)))) := by
  simp only [← List.drop_drop, List.take_append_drop]

/-! ## The reference's terms -/

/-- The source rows of the edges: row 0 of the edge list, as a vector. -/
def rowOf (a0 : IVec S2x1000000 32) : IVec S1000000 32 :=
  shapeCast S1000000 (extractStridedSlice S1x1000000 ![0, 0] a0 slices_S2x1000000_S1x1000000_0_0) shapeCasts_S1x1000000_S1000000

/-- The target columns of the edges: row 1 of the edge list, as a vector. -/
def colOf (a0 : IVec S2x1000000 32) : IVec S1000000 32 :=
  shapeCast S1000000 (extractStridedSlice S1x1000000 ![1, 0] a0 slices_S2x1000000_S1x1000000_1_0) shapeCasts_S1x1000000_S1000000

/-- Node indices made non-negative (a negative index counts from the end: 120000 is added), as a column. -/
def idxOf (r : IVec S1000000 32) : IVec S1000000x1 32 :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 120000#32))) r)

/-- The degree of each node: the number of edges whose target column it is (a scatter-sum of ones over the raw columns). -/
def degOf (col : IVec S1000000 32) : FVec F S120000 .f32 :=
  Host.scatterAdd scatter_S120000_S1000000x1_S1000000_n_0_0_1
    (broadcastInDim S120000 ![] bcast_S_S120000 (constant S_ .f32 0x00000000#32))
    (broadcastInDim S1000000x1 ![0] bcast_S1000000_S1000000x1_0 col)
    (broadcastInDim S1000000 ![] bcast_S_S1000000 (constant S_ .f32 0x3F800000#32))

/-- The inverse square root of the degree, and 0 at a node of degree 0. -/
def dinvOf (col : IVec S1000000 32) : FVec F S120000 .f32 :=
  select (cmpf .ogt (degOf (F := F) col) (broadcastInDim S120000 ![] bcast_S_S120000 (constant S_ .f32 0x00000000#32)))
    (Host.rsqrt (maximumf (degOf (F := F) col) (broadcastInDim S120000 ![] bcast_S_S120000 (constant S_ .f32 0x3F800000#32))))
    (broadcastInDim S120000 ![] bcast_S_S120000 (constant S_ .f32 0x00000000#32))

/-- The edges' normalisation: the product of the inverse square root degrees of the edge's two ends. -/
def normOf (a0 : IVec S2x1000000 32) : FVec F S1000000 .f32 :=
  mulf (Host.gather gather_S120000_S1000000x1_S1000000_n_0_n_n_0_1_1 (dinvOf (F := F) (colOf a0)) (idxOf (rowOf a0)))
    (Host.gather gather_S120000_S1000000x1_S1000000_n_0_n_n_0_1_1 (dinvOf (F := F) (colOf a0)) (idxOf (colOf a0)))

/-- The per-edge message: norm * (xc · W1ᵀ + b1 + (xr ∘ xc) · W2ᵀ + b2). -/
def hostMsg (xr xc : FVec F S1000000x64 .f32) (nrm : FVec F S1000000 .f32) (W1 W2 : FVec F S64x64 .f32) (b1 b2 : FVec F S64 .f32) :
    FVec F S1000000x64 .f32 :=
  mulf (broadcastInDim S1000000x64 ![0, 1] bcast_S1000000x1_S1000000x64_0_1 (broadcastInDim S1000000x1 ![0] bcast_S1000000_S1000000x1_0 nrm))
    (addf (addf (addf
      (Host.dotGeneral dot_S1000000x64_S64x64_S1000000x64_1_0_0_1_n_n none xc (transpose S64x64 [1, 0] W1 transposes_S64x64_S64x64_1_0))
      (broadcastInDim S1000000x64 ![0, 1] bcast_S1x64_S1000000x64_0_1 (broadcastInDim S1x64 ![1] bcast_S64_S1x64_1 b1)))
      (Host.dotGeneral dot_S1000000x64_S64x64_S1000000x64_1_0_0_1_n_n none (mulf xr xc) (transpose S64x64 [1, 0] W2 transposes_S64x64_S64x64_1_0)))
      (broadcastInDim S1000000x64 ![0, 1] bcast_S1x64_S1000000x64_0_1 (broadcastInDim S1x64 ![1] bcast_S64_S1x64_1 b2)))

/-- The rectifier with slope 0.2 on the negatives. -/
def hostLeaky (a : FVec F S120000x64 .f32) : FVec F S120000x64 .f32 :=
  select (cmpf .oge a (broadcastInDim S120000x64 ![] bcast_S_S120000x64 (constant S_ .f32 0x00000000#32))) a
    (mulf (broadcastInDim S120000x64 ![] bcast_S_S120000x64 (constant S_ .f32 0x3E4CCCCD#32)) a)

/-- One layer: the rectified scatter-sum, by source row, of the messages of the edges. -/
def layerRef (x : FVec F S120000x64 .f32) (row col : IVec S1000000 32) (nrm : FVec F S1000000 .f32)
    (W1 : FVec F S64x64 .f32) (b1 : FVec F S64 .f32) (W2 : FVec F S64x64 .f32) (b2 : FVec F S64 .f32) : FVec F S120000x64 .f32 :=
  hostLeaky (Host.scatterAdd scatter_S120000x64_S1000000x1_S1000000x64_1_0_0_1
    (broadcastInDim S120000x64 ![] bcast_S_S120000x64 (constant S_ .f32 0x00000000#32))
    (broadcastInDim S1000000x1 ![0] bcast_S1000000_S1000000x1_0 row)
    (hostMsg (Host.gather gather_S120000x64_S1000000x1_S1000000x64_1_0_n_n_0_1_164 x (idxOf row))
      (Host.gather gather_S120000x64_S1000000x1_S1000000x64_1_0_n_n_0_1_164 x (idxOf col)) nrm W1 W2 b1 b2))

/-! Layer i's weight matrices and bias vectors are slice i of the stacked parameters (the two stacks of matrices have one
    shape and the two stacks of vectors one shape, so one slicing function serves both of a layer's matrices, and one both of
    its vectors). -/
def sliceMat0 (a : FVec F S3x64x64 .f32) : FVec F S64x64 .f32 :=
  shapeCast S64x64 (extractStridedSlice S1x64x64 ![0, 0, 0] a slices_S3x64x64_S1x64x64_0_0_0) shapeCasts_S1x64x64_S64x64
def sliceMat1 (a : FVec F S3x64x64 .f32) : FVec F S64x64 .f32 :=
  shapeCast S64x64 (extractStridedSlice S1x64x64 ![1, 0, 0] a slices_S3x64x64_S1x64x64_1_0_0) shapeCasts_S1x64x64_S64x64
def sliceMat2 (a : FVec F S3x64x64 .f32) : FVec F S64x64 .f32 :=
  shapeCast S64x64 (extractStridedSlice S1x64x64 ![2, 0, 0] a slices_S3x64x64_S1x64x64_2_0_0) shapeCasts_S1x64x64_S64x64
def sliceVec0 (a : FVec F S3x64 .f32) : FVec F S64 .f32 :=
  shapeCast S64 (extractStridedSlice S1x64 ![0, 0] a slices_S3x64_S1x64_0_0) shapeCasts_S1x64_S64
def sliceVec1 (a : FVec F S3x64 .f32) : FVec F S64 .f32 :=
  shapeCast S64 (extractStridedSlice S1x64 ![1, 0] a slices_S3x64_S1x64_1_0) shapeCasts_S1x64_S64
def sliceVec2 (a : FVec F S3x64 .f32) : FVec F S64 .f32 :=
  shapeCast S64 (extractStridedSlice S1x64 ![2, 0] a slices_S3x64_S1x64_2_0) shapeCasts_S1x64_S64

/-! ## The stretches

The line of operations cut after the normalisation vector, after each layer's output, and before the concatenation. -/

def pre : List (HloOp τ sig (Elt F)) := (ValueP.ops (F := F)).take 40
def lay1 : List (HloOp τ sig (Elt F)) := ((ValueP.ops (F := F)).drop 40).take 52
def lay2 : List (HloOp τ sig (Elt F)) := ((ValueP.ops (F := F)).drop (40 + 52)).take 52
def lay3 : List (HloOp τ sig (Elt F)) := ((ValueP.ops (F := F)).drop (40 + 52 + 52)).take 52
def fin : List (HloOp τ sig (Elt F)) := (ValueP.ops (F := F)).drop (40 + 52 + 52 + 52)

theorem ops_split : (ValueP.ops (F := F)) = pre ++ (lay1 ++ (lay2 ++ (lay3 ++ fin))) := split5 _ 40 52 52 52

set_option maxRecDepth 8192 in
set_option maxHeartbeats 4000000 in
/-- The last operation, from any contents: the concatenation of what the contents hold at the input and at the three
    layers' outputs. -/
theorem fin_spec (V : Valuation τ sig (Elt F)) :
    after (fin (F := F)) V (Proc.devRef .tc main_v164)
      = concatenate S120000x256 1 [⟨S120000x64, V (Proc.devRef .tc main_arg1)⟩, ⟨S120000x64, V (Proc.devRef .tc main_v73)⟩,
          ⟨S120000x64, V (Proc.devRef .tc main_v118)⟩, ⟨S120000x64, V (Proc.devRef .tc main_v163)⟩]
          concatenates_S120000x64_S120000x64_S120000x64_S120000x64_S120000x256_d1 := by
  simp (disch := decide) only [fin, ValueP.ops, List.drop_succ_cons, List.drop_zero, List.take_succ_cons, List.take_zero, after_cons, after_nil,
      nullary_result', unary_result', binary_result', ternary_result', reshape_result', nary4_result',
      nullary_result_ne', unary_result_ne', binary_result_ne', ternary_result_ne', reshape_result_ne', nary_result_ne',
      and_self, and_true, true_and]
  rfl

set_option maxRecDepth 8192 in
set_option maxHeartbeats 4000000 in
/-- Layer 3's stretch, from any contents: its output is the layer applied to what the contents hold at the previous
    layer's output, the two index vectors, the normalisation vector and the parameters; it leaves those buffers alone. -/
theorem lay3_spec (V : Valuation τ sig (Elt F)) :
    after (lay3 (F := F)) V (Proc.devRef .tc main_v163)
        = layerRef (V (Proc.devRef .tc main_v118)) (V (Proc.devRef .tc main_v1)) (V (Proc.devRef .tc main_v3)) (V (Proc.devRef .tc main_v28))
            (sliceMat2 (V (Proc.devRef .tc main_arg2))) (sliceVec2 (V (Proc.devRef .tc main_arg3)))
            (sliceMat2 (V (Proc.devRef .tc main_arg4))) (sliceVec2 (V (Proc.devRef .tc main_arg5)))
      ∧ after (lay3 (F := F)) V (Proc.devRef .tc main_arg1) = V (Proc.devRef .tc main_arg1)
      ∧ after (lay3 (F := F)) V (Proc.devRef .tc main_v73) = V (Proc.devRef .tc main_v73)
      ∧ after (lay3 (F := F)) V (Proc.devRef .tc main_v118) = V (Proc.devRef .tc main_v118) := by
  simp (disch := decide) only [lay3, ValueP.ops, List.drop_succ_cons, List.drop_zero, List.take_succ_cons, List.take_zero, after_cons, after_nil,
      nullary_result', unary_result', binary_result', ternary_result', reshape_result', nary4_result',
      nullary_result_ne', unary_result_ne', binary_result_ne', ternary_result_ne', reshape_result_ne', nary_result_ne',
      and_self, and_true, true_and]
  rfl

set_option maxRecDepth 8192 in
set_option maxHeartbeats 4000000 in
/-- Layer 2's stretch, from any contents: its output is the layer applied to what the contents hold at the previous
    layer's output, the two index vectors, the normalisation vector and the parameters; it leaves those buffers alone. -/
theorem lay2_spec (V : Valuation τ sig (Elt F)) :
    after (lay2 (F := F)) V (Proc.devRef .tc main_v118)
        = layerRef (V (Proc.devRef .tc main_v73)) (V (Proc.devRef .tc main_v1)) (V (Proc.devRef .tc main_v3)) (V (Proc.devRef .tc main_v28))
            (sliceMat1 (V (Proc.devRef .tc main_arg2))) (sliceVec1 (V (Proc.devRef .tc main_arg3)))
            (sliceMat1 (V (Proc.devRef .tc main_arg4))) (sliceVec1 (V (Proc.devRef .tc main_arg5)))
      ∧ after (lay2 (F := F)) V (Proc.devRef .tc main_arg1) = V (Proc.devRef .tc main_arg1)
      ∧ after (lay2 (F := F)) V (Proc.devRef .tc main_v73) = V (Proc.devRef .tc main_v73)
      ∧ after (lay2 (F := F)) V (Proc.devRef .tc main_v1) = V (Proc.devRef .tc main_v1)
      ∧ after (lay2 (F := F)) V (Proc.devRef .tc main_v3) = V (Proc.devRef .tc main_v3)
      ∧ after (lay2 (F := F)) V (Proc.devRef .tc main_v28) = V (Proc.devRef .tc main_v28)
      ∧ after (lay2 (F := F)) V (Proc.devRef .tc main_arg2) = V (Proc.devRef .tc main_arg2)
      ∧ after (lay2 (F := F)) V (Proc.devRef .tc main_arg3) = V (Proc.devRef .tc main_arg3)
      ∧ after (lay2 (F := F)) V (Proc.devRef .tc main_arg4) = V (Proc.devRef .tc main_arg4)
      ∧ after (lay2 (F := F)) V (Proc.devRef .tc main_arg5) = V (Proc.devRef .tc main_arg5) := by
  simp (disch := decide) only [lay2, ValueP.ops, List.drop_succ_cons, List.drop_zero, List.take_succ_cons, List.take_zero, after_cons, after_nil,
      nullary_result', unary_result', binary_result', ternary_result', reshape_result', nary4_result',
      nullary_result_ne', unary_result_ne', binary_result_ne', ternary_result_ne', reshape_result_ne', nary_result_ne',
      and_self, and_true, true_and]
  rfl

set_option maxRecDepth 8192 in
set_option maxHeartbeats 4000000 in
/-- Layer 1's stretch, from any contents: its output is the layer applied to what the contents hold at the previous
    layer's output, the two index vectors, the normalisation vector and the parameters; it leaves those buffers alone. -/
theorem lay1_spec (V : Valuation τ sig (Elt F)) :
    after (lay1 (F := F)) V (Proc.devRef .tc main_v73)
        = layerRef (V (Proc.devRef .tc main_arg1)) (V (Proc.devRef .tc main_v1)) (V (Proc.devRef .tc main_v3)) (V (Proc.devRef .tc main_v28))
            (sliceMat0 (V (Proc.devRef .tc main_arg2))) (sliceVec0 (V (Proc.devRef .tc main_arg3)))
            (sliceMat0 (V (Proc.devRef .tc main_arg4))) (sliceVec0 (V (Proc.devRef .tc main_arg5)))
      ∧ after (lay1 (F := F)) V (Proc.devRef .tc main_arg1) = V (Proc.devRef .tc main_arg1)
      ∧ after (lay1 (F := F)) V (Proc.devRef .tc main_v1) = V (Proc.devRef .tc main_v1)
      ∧ after (lay1 (F := F)) V (Proc.devRef .tc main_v3) = V (Proc.devRef .tc main_v3)
      ∧ after (lay1 (F := F)) V (Proc.devRef .tc main_v28) = V (Proc.devRef .tc main_v28)
      ∧ after (lay1 (F := F)) V (Proc.devRef .tc main_arg2) = V (Proc.devRef .tc main_arg2)
      ∧ after (lay1 (F := F)) V (Proc.devRef .tc main_arg3) = V (Proc.devRef .tc main_arg3)
      ∧ after (lay1 (F := F)) V (Proc.devRef .tc main_arg4) = V (Proc.devRef .tc main_arg4)
      ∧ after (lay1 (F := F)) V (Proc.devRef .tc main_arg5) = V (Proc.devRef .tc main_arg5) := by
  simp (disch := decide) only [lay1, ValueP.ops, List.drop_succ_cons, List.drop_zero, List.take_succ_cons, List.take_zero, after_cons, after_nil,
      nullary_result', unary_result', binary_result', ternary_result', reshape_result', nary4_result',
      nullary_result_ne', unary_result_ne', binary_result_ne', ternary_result_ne', reshape_result_ne', nary_result_ne',
      and_self, and_true, true_and]
  rfl

set_option maxRecDepth 8192 in
set_option maxHeartbeats 4000000 in
/-- The first stretch, from any contents: the two index vectors and the normalisation vector, as terms over the edge
    list; it leaves the input and the parameters alone. -/
theorem pre_spec (V : Valuation τ sig (Elt F)) :
    after (pre (F := F)) V (Proc.devRef .tc main_v1) = rowOf (V (Proc.devRef .tc main_arg0))
      ∧ after (pre (F := F)) V (Proc.devRef .tc main_v3) = colOf (V (Proc.devRef .tc main_arg0))
      ∧ after (pre (F := F)) V (Proc.devRef .tc main_v28) = normOf (V (Proc.devRef .tc main_arg0))
      ∧ after (pre (F := F)) V (Proc.devRef .tc main_arg1) = V (Proc.devRef .tc main_arg1)
      ∧ after (pre (F := F)) V (Proc.devRef .tc main_arg2) = V (Proc.devRef .tc main_arg2)
      ∧ after (pre (F := F)) V (Proc.devRef .tc main_arg3) = V (Proc.devRef .tc main_arg3)
      ∧ after (pre (F := F)) V (Proc.devRef .tc main_arg4) = V (Proc.devRef .tc main_arg4)
      ∧ after (pre (F := F)) V (Proc.devRef .tc main_arg5) = V (Proc.devRef .tc main_arg5) := by
  simp (disch := decide) only [pre, ValueP.ops, List.drop_succ_cons, List.drop_zero, List.take_succ_cons, List.take_zero, after_cons, after_nil,
      nullary_result', unary_result', binary_result', ternary_result', reshape_result', nary4_result',
      nullary_result_ne', unary_result_ne', binary_result_ne', ternary_result_ne', reshape_result_ne', nary_result_ne',
      and_self, and_true, true_and]
  refine ⟨rfl, rfl, rfl⟩

/-! ## The result -/

section Result

variable (m : (ℓ : Loc nD τ sig) → Buf (Elt F) ℓ) (c : Dev nD)

/-- The input features, the edge list and the stacked parameters: the launch contents of the arguments' buffers. -/
def xs0 : FVec F S120000x64 .f32 := launchContents m c (Proc.devRef .tc main_arg1)
def edges : IVec S2x1000000 32 := launchContents m c (Proc.devRef .tc main_arg0)
def par2 : FVec F S3x64x64 .f32 := launchContents m c (Proc.devRef .tc main_arg2)
def par3 : FVec F S3x64 .f32 := launchContents m c (Proc.devRef .tc main_arg3)
def par4 : FVec F S3x64x64 .f32 := launchContents m c (Proc.devRef .tc main_arg4)
def par5 : FVec F S3x64 .f32 := launchContents m c (Proc.devRef .tc main_arg5)

/-- The three layers' outputs, each computed from the one before. -/
def xs1 : FVec F S120000x64 .f32 :=
  layerRef (xs0 m c) (rowOf (edges m c)) (colOf (edges m c)) (normOf (edges m c))
    (sliceMat0 (par2 m c)) (sliceVec0 (par3 m c)) (sliceMat0 (par4 m c)) (sliceVec0 (par5 m c))
def xs2 : FVec F S120000x64 .f32 :=
  layerRef (xs1 m c) (rowOf (edges m c)) (colOf (edges m c)) (normOf (edges m c))
    (sliceMat1 (par2 m c)) (sliceVec1 (par3 m c)) (sliceMat1 (par4 m c)) (sliceVec1 (par5 m c))
def xs3 : FVec F S120000x64 .f32 :=
  layerRef (xs2 m c) (rowOf (edges m c)) (colOf (edges m c)) (normOf (edges m c))
    (sliceMat2 (par2 m c)) (sliceVec2 (par3 m c)) (sliceMat2 (par4 m c)) (sliceVec2 (par5 m c))

/-- What the result buffer holds after the reference's operations, from the launch contents: the input and the three
    layers' outputs side by side along the feature axis. -/
theorem ref_result :
    after (ValueP.ops (F := F)) (launchContents m c) (Proc.devRef .tc main_v164)
      = concatenate S120000x256 1 [⟨S120000x64, xs0 m c⟩, ⟨S120000x64, xs1 m c⟩, ⟨S120000x64, xs2 m c⟩, ⟨S120000x64, xs3 m c⟩]
          concatenates_S120000x64_S120000x64_S120000x64_S120000x64_S120000x256_d1 := by
  rw [ops_split, after_append, after_append, after_append, after_append, fin_spec]
  -- the four blocks, outermost stretch first: each stretch's own output by its equation, every other buffer handed down
  obtain ⟨h3, h3a, h3b, h3c⟩ := lay3_spec (F := F) (after lay2 (after lay1 (after pre (launchContents m c))))
  obtain ⟨h2, h2a, h2b, h2v1, h2v3, h2v28, h2p2, h2p3, h2p4, h2p5⟩ := lay2_spec (F := F) (after lay1 (after pre (launchContents m c)))
  obtain ⟨h1, h1a, h1v1, h1v3, h1v28, h1p2, h1p3, h1p4, h1p5⟩ := lay1_spec (F := F) (after pre (launchContents m c))
  obtain ⟨h0v1, h0v3, h0v28, h0a, h0p2, h0p3, h0p4, h0p5⟩ := pre_spec (F := F) (launchContents m c)
  rw [h3, h3a, h3b, h3c, h2, h2a, h2b, h2v1, h2v3, h2v28, h2p2, h2p3, h2p4, h2p5, h1, h1a, h1v1, h1v3, h1v28, h1p2, h1p3, h1p4, h1p5,
    h0v1, h0v3, h0v28, h0a, h0p2, h0p3, h0p4, h0p5]
  rfl

end Result

end Cert.RefFold
end
-- ==== Proof.IdealFinal.lean ====
import proofs.«110276_j52862457479750_1_alg».proof.Proof.IdealFold
import proofs.«110276_j52862457479750_1_alg».proof.Proof.IdealBridge
import proofs.«110276_j52862457479750_1_alg».proof.Proof.RefFold

set_option maxRecDepth 16384

noncomputable section

namespace Cert.KernelIdeal.Hand

open Cert.KernelIdeal Cert.KernelIdeal.Gen Cert.KernelIdeal.HostEval
open Idealize.ShloMosaic Idealize.ShloMosaic.TcCoe Idealize.SL.Sem

/-! # The two programs' results are one function of the arguments, at the exact instance -/

/-- Layer 1 as the kernel program computes it is the reference's layer on the same features, index vectors, normalisation and
    parameter slices: the message arrays agree entry by entry (the kernel's column, transposed weights and bias rows are the
    reference's vector, weights and bias vectors re-laid), the rectifiers agree entry by entry, and the gathers and the
    per-node sums are the same operations. -/
theorem kLayer0_eq (a0 : IVec S2x1000000 32) (a2 : FVec Ideal S3x64x64 .f32) (a3 : FVec Ideal S3x64 .f32) (a4 : FVec Ideal S3x64x64 .f32)
    (a5 : FVec Ideal S3x64 .f32) (x : FVec Ideal S120000x64 .f32) :
    kLayer0 a0 a2 a3 a4 a5 x
      = Cert.RefFold.layerRef (F := Ideal) x (Cert.RefFold.rowOf a0) (Cert.RefFold.colOf a0) (Cert.RefFold.normOf (F := Ideal) a0)
          (Cert.RefFold.sliceMat0 a2) (Cert.RefFold.sliceVec0 a3) (Cert.RefFold.sliceMat0 a4) (Cert.RefFold.sliceVec0 a5) := by
  unfold kLayer0 kNorm kW0 kB0 kW kB
  rw [Gmsg0_eq, Glk1_eq]
  rfl

/-- Layer 2 as the kernel program computes it is the reference's layer on the same features, index vectors, normalisation and
    parameter slices: the message arrays agree entry by entry (the kernel's column, transposed weights and bias rows are the
    reference's vector, weights and bias vectors re-laid), the rectifiers agree entry by entry, and the gathers and the
    per-node sums are the same operations. -/
theorem kLayer1_eq (a0 : IVec S2x1000000 32) (a2 : FVec Ideal S3x64x64 .f32) (a3 : FVec Ideal S3x64 .f32) (a4 : FVec Ideal S3x64x64 .f32)
    (a5 : FVec Ideal S3x64 .f32) (x : FVec Ideal S120000x64 .f32) :
    kLayer1 a0 a2 a3 a4 a5 x
      = Cert.RefFold.layerRef (F := Ideal) x (Cert.RefFold.rowOf a0) (Cert.RefFold.colOf a0) (Cert.RefFold.normOf (F := Ideal) a0)
          (Cert.RefFold.sliceMat1 a2) (Cert.RefFold.sliceVec1 a3) (Cert.RefFold.sliceMat1 a4) (Cert.RefFold.sliceVec1 a5) := by
  unfold kLayer1 kNorm kW1 kB1 kW kB
  rw [Gmsg2_eq, Glk3_eq]
  rfl

/-- Layer 3 as the kernel program computes it is the reference's layer on the same features, index vectors, normalisation and
    parameter slices: the message arrays agree entry by entry (the kernel's column, transposed weights and bias rows are the
    reference's vector, weights and bias vectors re-laid), the rectifiers agree entry by entry, and the gathers and the
    per-node sums are the same operations. -/
theorem kLayer2_eq (a0 : IVec S2x1000000 32) (a2 : FVec Ideal S3x64x64 .f32) (a3 : FVec Ideal S3x64 .f32) (a4 : FVec Ideal S3x64x64 .f32)
    (a5 : FVec Ideal S3x64 .f32) (x : FVec Ideal S120000x64 .f32) :
    kLayer2 a0 a2 a3 a4 a5 x
      = Cert.RefFold.layerRef (F := Ideal) x (Cert.RefFold.rowOf a0) (Cert.RefFold.colOf a0) (Cert.RefFold.normOf (F := Ideal) a0)
          (Cert.RefFold.sliceMat2 a2) (Cert.RefFold.sliceVec2 a3) (Cert.RefFold.sliceMat2 a4) (Cert.RefFold.sliceVec2 a5) := by
  unfold kLayer2 kNorm kW2 kB2 kW kB
  rw [Gmsg4_eq, Glk5_eq]
  rfl

/-- The kernel program's result buffer after its run is the reference's result after its run, when the reference is
    launched on the same argument arrays. -/
theorem value_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    StableHlo.after (Cert.ReferenceIdeal.ValueP.ops (F := Ideal)) (StableHlo.launchContents m' c) (Proc.devRef .tc Cert.ReferenceIdeal.main_v164)
      = W15 m ρ c (Proc.devRef .tc main_v123) := by
  rw [ker_result m ρ c, kLayer2_eq, kLayer1_eq, kLayer0_eq, Cert.RefFold.ref_result m' c]
  unfold Cert.RefFold.xs3 Cert.RefFold.xs2 Cert.RefFold.xs1 Cert.RefFold.xs0 Cert.RefFold.edges Cert.RefFold.par2 Cert.RefFold.par3 Cert.RefFold.par4 Cert.RefFold.par5
  rw [show StableHlo.launchContents m' c (Proc.devRef .tc Cert.ReferenceIdeal.main_arg0) = m ((c.tc : Thread nD τ).loc main_arg0) from h0,
    show StableHlo.launchContents m' c (Proc.devRef .tc Cert.ReferenceIdeal.main_arg1) = m ((c.tc : Thread nD τ).loc main_arg1) from h1,
    show StableHlo.launchContents m' c (Proc.devRef .tc Cert.ReferenceIdeal.main_arg2) = m ((c.tc : Thread nD τ).loc main_arg2) from h2,
    show StableHlo.launchContents m' c (Proc.devRef .tc Cert.ReferenceIdeal.main_arg3) = m ((c.tc : Thread nD τ).loc main_arg3) from h3,
    show StableHlo.launchContents m' c (Proc.devRef .tc Cert.ReferenceIdeal.main_arg4) = m ((c.tc : Thread nD τ).loc main_arg4) from h4,
    show StableHlo.launchContents m' c (Proc.devRef .tc Cert.ReferenceIdeal.main_arg5) = m ((c.tc : Thread nD τ).loc main_arg5) from h5]
  try rfl

end Cert.KernelIdeal.Hand

end
-- ==== Proof.RefArgs.lean ====
/-
  The reference program never writes its arguments: folding its host operations over any valuation leaves each of the
  six argument buffers at what the valuation holds there. Every operation of the list writes one buffer, its result's,
  and no result buffer is an argument buffer.
-/
import proofs.«110276_j52862457479750_1_alg».proof.Proof.RefRunP

noncomputable section

namespace Cert.RefArgs

open Cert.ReferenceIdeal Cert.ReferenceIdeal.Gen Idealize.ShloMosaic Idealize.ShloMosaic.TcCoe Idealize.SL.Sem
open Idealize.ShloMosaic.StableHlo

variable {F : FTy → Type} [FloatOps F]

set_option maxRecDepth 8192 in
set_option maxHeartbeats 4000000 in
/-- Argument 0's buffer is as the valuation has it. -/
theorem keep_arg0 (V : Valuation τ sig (Elt F)) :
    StableHlo.after (Cert.ReferenceIdeal.ValueP.ops (F := F)) V (Proc.devRef .tc Cert.ReferenceIdeal.main_arg0)
      = V (Proc.devRef .tc Cert.ReferenceIdeal.main_arg0) := by
  after_results_simp

set_option maxRecDepth 8192 in
set_option maxHeartbeats 4000000 in
/-- Argument 1's buffer is as the valuation has it. -/
theorem keep_arg1 (V : Valuation τ sig (Elt F)) :
    StableHlo.after (Cert.ReferenceIdeal.ValueP.ops (F := F)) V (Proc.devRef .tc Cert.ReferenceIdeal.main_arg1)
      = V (Proc.devRef .tc Cert.ReferenceIdeal.main_arg1) := by
  after_results_simp

set_option maxRecDepth 8192 in
set_option maxHeartbeats 4000000 in
/-- Argument 2's buffer is as the valuation has it. -/
theorem keep_arg2 (V : Valuation τ sig (Elt F)) :
    StableHlo.after (Cert.ReferenceIdeal.ValueP.ops (F := F)) V (Proc.devRef .tc Cert.ReferenceIdeal.main_arg2)
      = V (Proc.devRef .tc Cert.ReferenceIdeal.main_arg2) := by
  after_results_simp

set_option maxRecDepth 8192 in
set_option maxHeartbeats 4000000 in
/-- Argument 3's buffer is as the valuation has it. -/
theorem keep_arg3 (V : Valuation τ sig (Elt F)) :
    StableHlo.after (Cert.ReferenceIdeal.ValueP.ops (F := F)) V (Proc.devRef .tc Cert.ReferenceIdeal.main_arg3)
      = V (Proc.devRef .tc Cert.ReferenceIdeal.main_arg3) := by
  after_results_simp

set_option maxRecDepth 8192 in
set_option maxHeartbeats 4000000 in
/-- Argument 4's buffer is as the valuation has it. -/
theorem keep_arg4 (V : Valuation τ sig (Elt F)) :
    StableHlo.after (Cert.ReferenceIdeal.ValueP.ops (F := F)) V (Proc.devRef .tc Cert.ReferenceIdeal.main_arg4)
      = V (Proc.devRef .tc Cert.ReferenceIdeal.main_arg4) := by
  after_results_simp

set_option maxRecDepth 8192 in
set_option maxHeartbeats 4000000 in
/-- Argument 5's buffer is as the valuation has it. -/
theorem keep_arg5 (V : Valuation τ sig (Elt F)) :
    StableHlo.after (Cert.ReferenceIdeal.ValueP.ops (F := F)) V (Proc.devRef .tc Cert.ReferenceIdeal.main_arg5)
      = V (Proc.devRef .tc Cert.ReferenceIdeal.main_arg5) := by
  after_results_simp

end Cert.RefArgs

end
-- ==== Proof.lean ====
/-
  Three layers of a degree-normalised graph convolution over 120000 nodes with 64 features and 1000000 edges. Per layer and
  per edge e = (row, col) the message is  norm(e) · ((x[col]·W1ᵀ + b1) + (x[row] ∘ x[col])·W2ᵀ + b2),  where norm(e) is the product
  of the two endpoints' inverse square-root in-degrees (zero for a node of degree zero); the messages are added up per row
  node and the sums rectified with slope 0.2 on the negatives; the result is the input features beside the three layers'
  outputs.

  The kernel program forms the messages in a region over blocks of 10000 edges (two matrix products into zero accumulators,
  the bias rows broadcast down the block, the normalisation column broadcast across it) and rectifies in a region over blocks
  of 12000 nodes; the gathers, the per-node sums and the degree computation are host operations, the same ones the reference
  applies. At the exact instance the two programs are the same function of the arguments, layer by layer:
    * a region's output array is one function of its input arrays, entry by entry, because its blocks tile the array and the
      block at a grid point reads its inputs at the same rows (and the whole of the weights and biases);
    * the message arrays agree entry by entry: the kernel reads the normalisation as a column, the weights transposed beforehand
      and the biases as rows, the reference the vector, the weights transposed inside the product and the biases broadcast —
      the same sums in the same grouping, so no law of arithmetic beyond re-laying is used and finiteness of the inputs is not needed;
    * the rectifiers agree entry by entry.
  The frames: every region's body loads whole blocks, computes, and stores one whole block, so the argument arrays are never
  written, by a region or by a host operation.
-/
import proofs.«110276_j52862457479750_1_alg».proof.Defs
import proofs.«110276_j52862457479750_1_alg».proof.Proof.Gen.Kernel
import proofs.«110276_j52862457479750_1_alg».proof.Proof.Gen.Kernel.Skeleton
import proofs.«110276_j52862457479750_1_alg».proof.Proof.Gen.Kernel.Launch
import proofs.«110276_j52862457479750_1_alg».proof.Proof.Gen.Kernel.Regions
import proofs.«110276_j52862457479750_1_alg».proof.Proof.Gen.Kernel.Points
import proofs.«110276_j52862457479750_1_alg».proof.Proof.Gen.KernelIdeal
import proofs.«110276_j52862457479750_1_alg».proof.Proof.Gen.KernelIdeal.Skeleton
import proofs.«110276_j52862457479750_1_alg».proof.Proof.Gen.KernelIdeal.Launch
import proofs.«110276_j52862457479750_1_alg».proof.Proof.Gen.KernelIdeal.Regions
import proofs.«110276_j52862457479750_1_alg».proof.Proof.Gen.KernelIdeal.Points
import proofs.«110276_j52862457479750_1_alg».proof.Proof.Gen.ReferenceIdeal
import proofs.«110276_j52862457479750_1_alg».proof.Proof.Gen.Pre_finite_inputs
import proofs.«110276_j52862457479750_1_alg».proof.Proof.BitsRun
import proofs.«110276_j52862457479750_1_alg».proof.Proof.IdealRun
import proofs.«110276_j52862457479750_1_alg».proof.Proof.IdealFinal
import proofs.«110276_j52862457479750_1_alg».proof.Proof.RefRunP
import proofs.«110276_j52862457479750_1_alg».proof.Proof.RefArgs
import Idealize.ShloMosaic.Adequacy
import Idealize.ShloMosaic.Init

noncomputable section

namespace Cert.Proof

open Idealize.ShloMosaic Idealize.ShloMosaic.TcCoe Idealize.SL.Sem

/-- The kernel program as printed runs to the end, faults nowhere, and leaves its argument arrays as launched. -/
theorem frame_kernel : Cert.frame_Kernel := fun m ρ _ => Cert.Kernel.Hand.frame m ρ

/-- The same for the kernel program read at the exact instance. -/
theorem frame_kernelIdeal : Cert.frame_KernelIdeal := fun m ρ _ => Cert.KernelIdeal.Hand.frame m ρ

/-- The reference is a straight line of host operations none of which writes an argument array. -/
theorem frame_referenceIdeal : Cert.frame_ReferenceIdeal := fun m ρ _ =>
  (θ_run Cert.ReferenceIdeal.defs _ _).mono (fun r h c => ⟨
      (h c Cert.ReferenceIdeal.main_arg0).trans (Cert.RefArgs.keep_arg0 _),
      (h c Cert.ReferenceIdeal.main_arg1).trans (Cert.RefArgs.keep_arg1 _),
      (h c Cert.ReferenceIdeal.main_arg2).trans (Cert.RefArgs.keep_arg2 _),
      (h c Cert.ReferenceIdeal.main_arg3).trans (Cert.RefArgs.keep_arg3 _),
      (h c Cert.ReferenceIdeal.main_arg4).trans (Cert.RefArgs.keep_arg4 _),
      (h c Cert.ReferenceIdeal.main_arg5).trans (Cert.RefArgs.keep_arg5 _)⟩)
    (Cert.ReferenceIdeal.ValueP.run_after (F := Ideal) m ρ)

/-- The idealization rewrote no operation: there is nothing to preserve. -/
theorem preserves : Cert.preserves_Kernel_KernelIdeal := trivial

/-- At the exact instance both programs end with the same result: the kernel program's result buffer after its run (the last
    boundary of its run) is the reference's fold of host operations on the same arguments. -/
theorem algebraic : Cert.algebraic_KernelIdeal_ReferenceIdeal := by
  intro m ρ m' ρ' _ hagree
  refine ⟨fun c => Cert.KernelIdeal.Hand.W15 m ρ c (Proc.devRef .tc Cert.KernelIdeal.main_v123), ?_, ?_⟩
  · exact (θ_run Cert.KernelIdeal.defs _ _).mono (fun r h c => ⟨
        h c _ (Cert.KernelIdeal.Hand.mem_uc Cert.KernelIdeal.main_v123 (by decide)),
        (h c _ (Cert.KernelIdeal.Hand.mem_uc Cert.KernelIdeal.main_arg0 (by decide))).trans (Cert.KernelIdeal.Hand.W15_main_arg0 m ρ c),
        (h c _ (Cert.KernelIdeal.Hand.mem_uc Cert.KernelIdeal.main_arg1 (by decide))).trans (Cert.KernelIdeal.Hand.W15_main_arg1 m ρ c),
        (h c _ (Cert.KernelIdeal.Hand.mem_uc Cert.KernelIdeal.main_arg2 (by decide))).trans (Cert.KernelIdeal.Hand.W15_main_arg2 m ρ c),
        (h c _ (Cert.KernelIdeal.Hand.mem_uc Cert.KernelIdeal.main_arg3 (by decide))).trans (Cert.KernelIdeal.Hand.W15_main_arg3 m ρ c),
        (h c _ (Cert.KernelIdeal.Hand.mem_uc Cert.KernelIdeal.main_arg4 (by decide))).trans (Cert.KernelIdeal.Hand.W15_main_arg4 m ρ c),
        (h c _ (Cert.KernelIdeal.Hand.mem_uc Cert.KernelIdeal.main_arg5 (by decide))).trans (Cert.KernelIdeal.Hand.W15_main_arg5 m ρ c)⟩)
      (Cert.KernelIdeal.Hand.run_all m ρ)
  · exact (θ_run Cert.ReferenceIdeal.defs _ _).mono (fun r h c => ⟨
        (h c Cert.ReferenceIdeal.main_v164).trans (Cert.KernelIdeal.Hand.value_eq m ρ m' c (hagree c).1 (hagree c).2.1 (hagree c).2.2.1
          (hagree c).2.2.2.1 (hagree c).2.2.2.2.1 (hagree c).2.2.2.2.2),
        (h c Cert.ReferenceIdeal.main_arg0).trans (Cert.RefArgs.keep_arg0 _),
        (h c Cert.ReferenceIdeal.main_arg1).trans (Cert.RefArgs.keep_arg1 _),
        (h c Cert.ReferenceIdeal.main_arg2).trans (Cert.RefArgs.keep_arg2 _),
        (h c Cert.ReferenceIdeal.main_arg3).trans (Cert.RefArgs.keep_arg3 _),
        (h c Cert.ReferenceIdeal.main_arg4).trans (Cert.RefArgs.keep_arg4 _),
        (h c Cert.ReferenceIdeal.main_arg5).trans (Cert.RefArgs.keep_arg5 _)⟩)
      (Cert.ReferenceIdeal.ValueP.run_after (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
